-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x256x64x64 : Shape := ⟨4, ![32, 256, 64, 64]⟩
abbrev S768x256 : Shape := ⟨2, ![768, 256]⟩
abbrev S768 : Shape := ⟨1, ![768]⟩
abbrev S256x1x1 : Shape := ⟨3, ![256, 1, 1]⟩
abbrev S_ : Shape := ⟨0, ![]⟩

class Facts : Prop where
  bcast_S_S32x256x64x64 : S_.BroadcastsInDim S32x256x64x64 (![] : Fin 0 → Fin S32x256x64x64.rank)
  reducesTo_S32x256x64x64_S_d0_1_2_3 : S32x256x64x64.ReducesTo [0, 1, 2, 3] S_
  h_S_ : 0 < S_.numel
  bcast_S_S768x256 : S_.BroadcastsInDim S768x256 (![] : Fin 0 → Fin S768x256.rank)
  reducesTo_S768x256_S_d0_1 : S768x256.ReducesTo [0, 1] S_
  bcast_S_S768 : S_.BroadcastsInDim S768 (![] : Fin 0 → Fin S768.rank)
  reducesTo_S768_S_d0 : S768.ReducesTo [0] S_
  bcast_S_S256x1x1 : S_.BroadcastsInDim S256x1x1 (![] : Fin 0 → Fin S256x1x1.rank)
  reducesTo_S256x1x1_S_d0_1_2 : S256x1x1.ReducesTo [0, 1, 2] S_

variable [Facts]

def fn_part2 {F : FTy → Type} [FloatOps F] (main_arg7 : FVec F S256x1x1 .f32) (main_v33 : IVec S_ 1) : IVec S_ 1 :=
  let main_v34 : FVec F S256x1x1 .f32 := Host.absf main_arg7
  let main_cst_12 : FVec F S_ .f32 := constant S_ .f32 0x7F800000#32
  let main_v35 : FVec F S256x1x1 .f32 := broadcastInDim S256x1x1 ![] bcast_S_S256x1x1 main_cst_12
  let main_v36 : IVec S256x1x1 1 := cmpf .olt main_v34 main_v35
  let main_c_13 : IVec S_ 1 := constantI S_ 1 1#1
  let main_v37 : IVec S_ 1 := (fun x v => Host.reduce IntOp.andi x v reducesTo_S256x1x1_S_d0_1_2 h_S_) main_v36 main_c_13
  let main_v38 : IVec S_ 1 := andi main_v33 main_v37
  main_v38

def fn_part1 {F : FTy → Type} [FloatOps F] (main_arg4 : FVec F S768 .f32) (main_arg5 : FVec F S768 .f32) (main_arg6 : FVec F S256x1x1 .f32) (main_arg7 : FVec F S256x1x1 .f32) (main_v13 : IVec S_ 1) (main_v16 : IVec S768 1) : IVec S_ 1 :=
  let main_c_5 : IVec S_ 1 := constantI S_ 1 1#1
  let main_v17 : IVec S_ 1 := (fun x v => Host.reduce IntOp.andi x v reducesTo_S768_S_d0 h_S_) main_v16 main_c_5
  let main_v18 : IVec S_ 1 := andi main_v13 main_v17
  let main_v19 : FVec F S768 .f32 := Host.absf main_arg4
  let main_cst_6 : FVec F S_ .f32 := constant S_ .f32 0x7F800000#32
  let main_v20 : FVec F S768 .f32 := broadcastInDim S768 ![] bcast_S_S768 main_cst_6
  let main_v21 : IVec S768 1 := cmpf .olt main_v19 main_v20
  let main_c_7 : IVec S_ 1 := constantI S_ 1 1#1
  let main_v22 : IVec S_ 1 := (fun x v => Host.reduce IntOp.andi x v reducesTo_S768_S_d0 h_S_) main_v21 main_c_7
  let main_v23 : IVec S_ 1 := andi main_v18 main_v22
  let main_v24 : FVec F S768 .f32 := Host.absf main_arg5
  let main_cst_8 : FVec F S_ .f32 := constant S_ .f32 0x7F800000#32
  let main_v25 : FVec F S768 .f32 := broadcastInDim S768 ![] bcast_S_S768 main_cst_8
  let main_v26 : IVec S768 1 := cmpf .olt main_v24 main_v25
  let main_c_9 : IVec S_ 1 := constantI S_ 1 1#1
  let main_v27 : IVec S_ 1 := (fun x v => Host.reduce IntOp.andi x v reducesTo_S768_S_d0 h_S_) main_v26 main_c_9
  let main_v28 : IVec S_ 1 := andi main_v23 main_v27
  let main_v29 : FVec F S256x1x1 .f32 := Host.absf main_arg6
  let main_cst_10 : FVec F S_ .f32 := constant S_ .f32 0x7F800000#32
  let main_v30 : FVec F S256x1x1 .f32 := broadcastInDim S256x1x1 ![] bcast_S_S256x1x1 main_cst_10
  let main_v31 : IVec S256x1x1 1 := cmpf .olt main_v29 main_v30
  let main_c_11 : IVec S_ 1 := constantI S_ 1 1#1
  let main_v32 : IVec S_ 1 := (fun x v => Host.reduce IntOp.andi x v reducesTo_S256x1x1_S_d0_1_2 h_S_) main_v31 main_c_11
  let main_v33 : IVec S_ 1 := andi main_v28 main_v32
  fn_part2 (F := F) main_arg7 main_v33

def fn {F : FTy → Type} [FloatOps F] (main_arg0 : FVec F S32x256x64x64 .f32) (main_arg1 : FVec F S768x256 .f32) (main_arg2 : FVec F S768 .f32) (main_arg3 : FVec F S768 .f32) (main_arg4 : FVec F S768 .f32) (main_arg5 : FVec F S768 .f32) (main_arg6 : FVec F S256x1x1 .f32) (main_arg7 : FVec F S256x1x1 .f32) : IVec S_ 1 :=
  let main_v0 : FVec F S32x256x64x64 .f32 := Host.absf main_arg0
  let main_cst : FVec F S_ .f32 := constant S_ .f32 0x7F800000#32
  let main_v1 : FVec F S32x256x64x64 .f32 := broadcastInDim S32x256x64x64 ![] bcast_S_S32x256x64x64 main_cst
  let main_v2 : IVec S32x256x64x64 1 := cmpf .olt main_v0 main_v1
  let main_c : IVec S_ 1 := constantI S_ 1 1#1
  let main_v3 : IVec S_ 1 := (fun x v => Host.reduce IntOp.andi x v reducesTo_S32x256x64x64_S_d0_1_2_3 h_S_) main_v2 main_c
  let main_v4 : FVec F S768x256 .f32 := Host.absf main_arg1
  let main_cst_0 : FVec F S_ .f32 := constant S_ .f32 0x7F800000#32
  let main_v5 : FVec F S768x256 .f32 := broadcastInDim S768x256 ![] bcast_S_S768x256 main_cst_0
  let main_v6 : IVec S768x256 1 := cmpf .olt main_v4 main_v5
  let main_c_1 : IVec S_ 1 := constantI S_ 1 1#1
  let main_v7 : IVec S_ 1 := (fun x v => Host.reduce IntOp.andi x v reducesTo_S768x256_S_d0_1 h_S_) main_v6 main_c_1
  let main_v8 : IVec S_ 1 := andi main_v3 main_v7
  let main_v9 : FVec F S768 .f32 := Host.absf main_arg2
  let main_cst_2 : FVec F S_ .f32 := constant S_ .f32 0x7F800000#32
  let main_v10 : FVec F S768 .f32 := broadcastInDim S768 ![] bcast_S_S768 main_cst_2
  let main_v11 : IVec S768 1 := cmpf .olt main_v9 main_v10
  let main_c_3 : IVec S_ 1 := constantI S_ 1 1#1
  let main_v12 : IVec S_ 1 := (fun x v => Host.reduce IntOp.andi x v reducesTo_S768_S_d0 h_S_) main_v11 main_c_3
  let main_v13 : IVec S_ 1 := andi main_v8 main_v12
  let main_v14 : FVec F S768 .f32 := Host.absf main_arg3
  let main_cst_4 : FVec F S_ .f32 := constant S_ .f32 0x7F800000#32
  let main_v15 : FVec F S768 .f32 := broadcastInDim S768 ![] bcast_S_S768 main_cst_4
  let main_v16 : IVec S768 1 := cmpf .olt main_v14 main_v15
  fn_part1 (F := F) main_arg4 main_arg5 main_arg6 main_arg7 main_v13 main_v16
-- ==== Kernel.lean ====
abbrev S32x256x64x64 : Shape := ⟨4, ![32, 256, 64, 64]⟩
abbrev S768x256 : Shape := ⟨2, ![768, 256]⟩
abbrev S768 : Shape := ⟨1, ![768]⟩
abbrev S256x1x1 : Shape := ⟨3, ![256, 1, 1]⟩
abbrev S32x256 : Shape := ⟨2, ![32, 256]⟩
abbrev S8x128x32x64 : Shape := ⟨4, ![8, 128, 32, 64]⟩
abbrev S8x128 : Shape := ⟨2, ![8, 128]⟩
abbrev S8x128x32 : Shape := ⟨3, ![8, 128, 32]⟩
abbrev S256x768 : Shape := ⟨2, ![256, 768]⟩
abbrev S32x768 : Shape := ⟨2, ![32, 768]⟩
abbrev S1x768 : Shape := ⟨2, ![1, 768]⟩
abbrev S_ : Shape := ⟨0, ![]⟩
abbrev S32x3x256 : Shape := ⟨3, ![32, 3, 256]⟩
abbrev S32x3x256x1x1 : Shape := ⟨5, ![32, 3, 256, 1, 1]⟩
abbrev S1x256x32x64 : Shape := ⟨4, ![1, 256, 32, 64]⟩
abbrev S1x3x256x1x1 : Shape := ⟨5, ![1, 3, 256, 1, 1]⟩
abbrev S256x32x64 : Shape := ⟨3, ![256, 32, 64]⟩
abbrev S1x32x64 : Shape := ⟨3, ![1, 32, 64]⟩
abbrev S255x32x64 : Shape := ⟨3, ![255, 32, 64]⟩
abbrev S1x1x256x1x1 : Shape := ⟨5, ![1, 1, 256, 1, 1]⟩

abbrev nBuf : Space → Nat
  | .hbm => 31
  | .vmem => 13
  | .smem => 0
  | _ => 0

abbrev bufTy : (tb : Table) → Fin (tcTables nBuf tb) → BufTy
  | .hbm, ⟨0, _⟩ => ⟨S32x256x64x64, .f32⟩
  | .hbm, ⟨1, _⟩ => ⟨S768x256, .f32⟩
  | .hbm, ⟨2, _⟩ => ⟨S768, .f32⟩
  | .hbm, ⟨3, _⟩ => ⟨S768, .f32⟩
  | .hbm, ⟨4, _⟩ => ⟨S768, .f32⟩
  | .hbm, ⟨5, _⟩ => ⟨S768, .f32⟩
  | .hbm, ⟨6, _⟩ => ⟨S256x1x1, .f32⟩
  | .hbm, ⟨7, _⟩ => ⟨S256x1x1, .f32⟩
  | .hbm, ⟨8, _⟩ => ⟨S32x256, .f32⟩
  | .hbm, ⟨9, _⟩ => ⟨S256x768, .f32⟩
  | .hbm, ⟨10, _⟩ => ⟨S32x768, .f32⟩
  | .hbm, ⟨11, _⟩ => ⟨S1x768, .f32⟩
  | .hbm, ⟨12, _⟩ => ⟨S32x768, .f32⟩
  | .hbm, ⟨13, _⟩ => ⟨S32x768, .f32⟩
  | .hbm, ⟨14, _⟩ => ⟨S_, .f32⟩
  | .hbm, ⟨15, _⟩ => ⟨S768, .f32⟩
  | .hbm, ⟨16, _⟩ => ⟨S768, .f32⟩
  | .hbm, ⟨17, _⟩ => ⟨S768, .f32⟩
  | .hbm, ⟨18, _⟩ => ⟨S1x768, .f32⟩
  | .hbm, ⟨19, _⟩ => ⟨S32x768, .f32⟩
  | .hbm, ⟨20, _⟩ => ⟨S32x768, .f32⟩
  | .hbm, ⟨21, _⟩ => ⟨S1x768, .f32⟩
  | .hbm, ⟨22, _⟩ => ⟨S32x768, .f32⟩
  | .hbm, ⟨23, _⟩ => ⟨S32x768, .f32⟩
  | .hbm, ⟨24, _⟩ => ⟨S1x768, .f32⟩
  | .hbm, ⟨25, _⟩ => ⟨S32x768, .f32⟩
  | .hbm, ⟨26, _⟩ => ⟨S32x768, .f32⟩
  | .hbm, ⟨27, _⟩ => ⟨S32x768, .f32⟩
  | .hbm, ⟨28, _⟩ => ⟨S32x3x256, .f32⟩
  | .hbm, ⟨29, _⟩ => ⟨S32x3x256x1x1, .f32⟩
  | .hbm, ⟨30, _⟩ => ⟨S32x256x64x64, .f32⟩
  | .local _ .vmem, ⟨0, _⟩ => ⟨S8x128x32x64, .f32⟩
  | .local _ .vmem, ⟨1, _⟩ => ⟨S8x128x32x64, .f32⟩
  | .local _ .vmem, ⟨2, _⟩ => ⟨S8x128, .f32⟩
  | .local _ .vmem, ⟨3, _⟩ => ⟨S8x128, .f32⟩
  | .local _ .vmem, ⟨4, _⟩ => ⟨S8x128, .f32⟩
  | .local _ .vmem, ⟨5, _⟩ => ⟨S1x256x32x64, .f32⟩
  | .local _ .vmem, ⟨6, _⟩ => ⟨S1x256x32x64, .f32⟩
  | .local _ .vmem, ⟨7, _⟩ => ⟨S1x3x256x1x1, .f32⟩
  | .local _ .vmem, ⟨8, _⟩ => ⟨S1x3x256x1x1, .f32⟩
  | .local _ .vmem, ⟨9, _⟩ => ⟨S256x1x1, .f32⟩
  | .local _ .vmem, ⟨10, _⟩ => ⟨S256x1x1, .f32⟩
  | .local _ .vmem, ⟨11, _⟩ => ⟨S1x256x32x64, .f32⟩
  | .local _ .vmem, ⟨12, _⟩ => ⟨S1x256x32x64, .f32⟩
  | _, _ => ⟨S32x256x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg4_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem3_0 : DmaSem sig := 9
abbrev cc1_sem4_0 : DmaSem sig := 10
abbrev cc1_sem4_1 : DmaSem sig := 11

abbrev nD : Nat := 1
abbrev τ : Topo := Topo.v7x

variable {F : FTy → Type} [FloatOps F]

abbrev grid0 : Pipeline.Grid := ⟨3, ![4, 2, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_9 : BitVec 32 := 0#32
  let v13 : BitVec 1 := Scalar.cmpi .ne v12 c0_i32_9
  v13

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S8x128x32x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev grid1 : Pipeline.Grid := ⟨2, ![32, 2], ![false, false]⟩

def cc1_transform_0 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc1_transform_1 (i : grid1.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_4 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage1_0 : Fin 2 → Memref sig .tc .vmem S1x256x32x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x3x256x1x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 1 → Memref sig .tc .vmem S256x1x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S256x1x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S1x256x32x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

class Facts₀ : Prop where
  inb_S8x128_S8x128_0_0 : ∀ a, (![0, 0] : Fin 2 → Nat) a + S8x128.size a ≤ S8x128.size a
  h_S8x128 : 0 < S8x128.numel
  shapeCasts_S8x128_S8x128 : S8x128.ShapeCasts S8x128
  inb_S8x128x32x64_S8x128x32x64_0_0_0_0 : ∀ a, (![0, 0, 0, 0] : Fin 4 → Nat) a + S8x128x32x64.size a ≤ S8x128x32x64.size a
  h_S8x128x32x64 : 0 < S8x128x32x64.numel
  reduces_S8x128x32x64_S8x128x32 : S8x128x32x64.Reduces [3] S8x128x32
  reduces_S8x128x32_S8x128 : S8x128x32.Reduces [2] S8x128
  transposes_S768x256_S256x768_1_0 : S768x256.Transposes [1, 0] S256x768
  bcast_S768_S1x768_1 : S768.BroadcastsInDim S1x768 (![1] : Fin 1 → Fin S1x768.rank)
  bcast_S1x768_S32x768_0_1 : S1x768.BroadcastsInDim S32x768 (![0, 1] : Fin 2 → Fin S32x768.rank)
  bcast_S_S768 : S_.BroadcastsInDim S768 (![] : Fin 0 → Fin S768.rank)
  shapeCasts_S32x768_S32x3x256 : S32x768.ShapeCasts S32x3x256
  shapeCasts_S32x3x256_S32x3x256x1x1 : S32x3x256.ShapeCasts S32x3x256x1x1
  inb_S1x256x32x64_S1x256x32x64_0_0_0_0 : ∀ a, (![0, 0, 0, 0] : Fin 4 → Nat) a + S1x256x32x64.size a ≤ S1x256x32x64.size a
  h_S1x256x32x64 : 0 < S1x256x32x64.numel
  shapeCasts_S1x256x32x64_S256x32x64 : S1x256x32x64.ShapeCasts S256x32x64
  slices_S256x32x64_o1_0_0_S1x32x64 : S256x32x64.Slices ![1, 0, 0] S1x32x64
  slices_S256x32x64_o0_0_0_S255x32x64 : S256x32x64.Slices ![0, 0, 0] S255x32x64
  concatenates_S1x32x64_S255x32x64_S256x32x64_d0 : Shape.Concatenates [S1x32x64, S255x32x64] S256x32x64 0
  slices_S256x32x64_o1_0_0_S255x32x64 : S256x32x64.Slices ![1, 0, 0] S255x32x64
  slices_S256x32x64_o254_0_0_S1x32x64 : S256x32x64.Slices ![254, 0, 0] S1x32x64
  concatenates_S255x32x64_S1x32x64_S256x32x64_d0 : Shape.Concatenates [S255x32x64, S1x32x64] S256x32x64 0
  inb_S1x3x256x1x1_S1x1x256x1x1_0_0_0_0_0 : ∀ a, (![0, 0, 0, 0, 0] : Fin 5 → Nat) a + S1x1x256x1x1.size a ≤ S1x3x256x1x1.size a
  h_S1x1x256x1x1 : 0 < S1x1x256x1x1.numel
  shapeCasts_S1x1x256x1x1_S256x1x1 : S1x1x256x1x1.ShapeCasts S256x1x1
  inb_S1x3x256x1x1_S1x1x256x1x1_0_1_0_0_0 : ∀ a, (![0, 1, 0, 0, 0] : Fin 5 → Nat) a + S1x1x256x1x1.size a ≤ S1x3x256x1x1.size a
  inb_S1x3x256x1x1_S1x1x256x1x1_0_2_0_0_0 : ∀ a, (![0, 2, 0, 0, 0] : Fin 5 → Nat) a + S1x1x256x1x1.size a ≤ S1x3x256x1x1.size a
  broadcasts_S256x1x1_S256x32x64 : S256x1x1.Broadcasts S256x32x64
  inb_S256x1x1_S256x1x1_0_0_0 : ∀ a, (![0, 0, 0] : Fin 3 → Nat) a + S256x1x1.size a ≤ S256x1x1.size a
  h_S256x1x1 : 0 < S256x1x1.numel
  shapeCasts_S256x32x64_S1x256x32x64 : S256x32x64.ShapeCasts S1x256x32x64
  dot_S32x256_S256x768_S32x768_1_0_0_1_n_n_wf : DotDims.WF S32x256 S256x768 S32x768 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x128x32x64.size a ≤ S32x256x64x64.size a
  hwx0_0 : ∀ i : grid0.Coords, EltTy.bits .f32 = 32 ∨ (Rect.block (s := S32x256x64x64) S8x128x32x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x128.size a ≤ S32x256.size a
  hwx0_1 : ∀ i : grid0.Coords, EltTy.bits .f32 = 32 ∨ (Rect.block (s := S32x256) S8x128.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x256x32x64.size a ≤ S32x256x64x64.size a
  hwx1_0 : ∀ i : grid1.Coords, EltTy.bits .f32 = 32 ∨ (Rect.block (s := S32x256x64x64) S1x256x32x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x3x256x1x1.size a ≤ S32x3x256x1x1.size a
  hwx1_1 : ∀ i : grid1.Coords, EltTy.bits .f32 = 32 ∨ (Rect.block (s := S32x3x256x1x1) S1x3x256x1x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x1x1.size a ≤ S256x1x1.size a
  hwx1_2 : ∀ i : grid1.Coords, EltTy.bits .f32 = 32 ∨ (Rect.block (s := S256x1x1) S256x1x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x1x1.size a ≤ S256x1x1.size a
  hwx1_3 : ∀ i : grid1.Coords, EltTy.bits .f32 = 32 ∨ (Rect.block (s := S256x1x1) S256x1x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x256x32x64.size a ≤ S32x256x64x64.size a
  hwx1_4 : ∀ i : grid1.Coords, EltTy.bits .f32 = 32 ∨ (Rect.block (s := S32x256x64x64) S1x256x32x64.size (cc1_transform_4 i) (hinb1_4 i)).WholeWords (EltTy.packing .f32)

variable [Facts₀]

def dot_S32x256_S256x768_S32x768_1_0_0_1_n_n : DotDims S32x256 S256x768 S32x768 where
  lhsContracting := [1]
  rhsContracting := [0]
  lhsNonContracting := [0]
  rhsNonContracting := [1]
  lhsBatch := []
  rhsBatch := []
  wf := dot_S32x256_S256x768_S32x768_1_0_0_1_n_n_wf

abbrev win0_0 : Pipeline.Window sig grid0 :=
  Pipeline.Window.ofSpec (Memref.whole main_arg0) S8x128x32x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S8x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond2 i == 1#1) | ⟨_ + 2, h⟩ => absurd h (Nat.not_lt.2 (Nat.le_add_left _ _))

abbrev win1_0 : Pipeline.Window sig grid1 :=
  Pipeline.Window.ofSpec (Memref.whole main_arg0) S1x256x32x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v20) S1x3x256x1x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S256x1x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S256x1x1.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v21) S1x256x32x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S32x256x64x64 : Shape := ⟨4, ![32, 256, 64, 64]⟩
abbrev S768x256 : Shape := ⟨2, ![768, 256]⟩
abbrev S768 : Shape := ⟨1, ![768]⟩
abbrev S256x1x1 : Shape := ⟨3, ![256, 1, 1]⟩
abbrev S_ : Shape := ⟨0, ![]⟩
abbrev S32x256 : Shape := ⟨2, ![32, 256]⟩
abbrev S32x768 : Shape := ⟨2, ![32, 768]⟩
abbrev S1x768 : Shape := ⟨2, ![1, 768]⟩
abbrev S32x3x256 : Shape := ⟨3, ![32, 3, 256]⟩
abbrev S32x1x64x64 : Shape := ⟨4, ![32, 1, 64, 64]⟩
abbrev S32x257x64x64 : Shape := ⟨4, ![32, 257, 64, 64]⟩
abbrev S32x258x64x64 : Shape := ⟨4, ![32, 258, 64, 64]⟩
abbrev S32x1x256 : Shape := ⟨3, ![32, 1, 256]⟩
abbrev S32x256x1x1 : Shape := ⟨4, ![32, 256, 1, 1]⟩
abbrev S1x256x1x1 : Shape := ⟨4, ![1, 256, 1, 1]⟩

abbrev nBuf : Space → Nat
  | .hbm => 68
  | .vmem => 0
  | .smem => 0
  | _ => 0

abbrev bufTy : (tb : Table) → Fin (tcTables nBuf tb) → BufTy
  | .hbm, ⟨0, _⟩ => ⟨S32x256x64x64, .f32⟩
  | .hbm, ⟨1, _⟩ => ⟨S768x256, .f32⟩
  | .hbm, ⟨2, _⟩ => ⟨S768, .f32⟩
  | .hbm, ⟨3, _⟩ => ⟨S768, .f32⟩
  | .hbm, ⟨4, _⟩ => ⟨S768, .f32⟩
  | .hbm, ⟨5, _⟩ => ⟨S768, .f32⟩
  | .hbm, ⟨6, _⟩ => ⟨S256x1x1, .f32⟩
  | .hbm, ⟨7, _⟩ => ⟨S256x1x1, .f32⟩
  | .hbm, ⟨8, _⟩ => ⟨S_, .f32⟩
  | .hbm, ⟨9, _⟩ => ⟨S32x256, .f32⟩
  | .hbm, ⟨10, _⟩ => ⟨S_, .f32⟩
  | .hbm, ⟨11, _⟩ => ⟨S32x256, .f32⟩
  | .hbm, ⟨12, _⟩ => ⟨S32x256, .f32⟩
  | .hbm, ⟨13, _⟩ => ⟨S32x768, .f32⟩
  | .hbm, ⟨14, _⟩ => ⟨S1x768, .f32⟩
  | .hbm, ⟨15, _⟩ => ⟨S32x768, .f32⟩
  | .hbm, ⟨16, _⟩ => ⟨S32x768, .f32⟩
  | .hbm, ⟨17, _⟩ => ⟨S_, .f32⟩
  | .hbm, ⟨18, _⟩ => ⟨S768, .f32⟩
  | .hbm, ⟨19, _⟩ => ⟨S768, .f32⟩
  | .hbm, ⟨20, _⟩ => ⟨S768, .f32⟩
  | .hbm, ⟨21, _⟩ => ⟨S1x768, .f32⟩
  | .hbm, ⟨22, _⟩ => ⟨S32x768, .f32⟩
  | .hbm, ⟨23, _⟩ => ⟨S32x768, .f32⟩
  | .hbm, ⟨24, _⟩ => ⟨S1x768, .f32⟩
  | .hbm, ⟨25, _⟩ => ⟨S32x768, .f32⟩
  | .hbm, ⟨26, _⟩ => ⟨S32x768, .f32⟩
  | .hbm, ⟨27, _⟩ => ⟨S1x768, .f32⟩
  | .hbm, ⟨28, _⟩ => ⟨S32x768, .f32⟩
  | .hbm, ⟨29, _⟩ => ⟨S32x768, .f32⟩
  | .hbm, ⟨30, _⟩ => ⟨S32x768, .f32⟩
  | .hbm, ⟨31, _⟩ => ⟨S32x3x256, .f32⟩
  | .hbm, ⟨32, _⟩ => ⟨S_, .i32⟩
  | .hbm, ⟨33, _⟩ => ⟨S32x1x64x64, .f32⟩
  | .hbm, ⟨34, _⟩ => ⟨S32x1x64x64, .f32⟩
  | .hbm, ⟨35, _⟩ => ⟨S32x1x64x64, .f32⟩
  | .hbm, ⟨36, _⟩ => ⟨S32x257x64x64, .f32⟩
  | .hbm, ⟨37, _⟩ => ⟨S32x1x64x64, .f32⟩
  | .hbm, ⟨38, _⟩ => ⟨S32x1x64x64, .f32⟩
  | .hbm, ⟨39, _⟩ => ⟨S32x1x64x64, .f32⟩
  | .hbm, ⟨40, _⟩ => ⟨S32x258x64x64, .f32⟩
  | .hbm, ⟨41, _⟩ => ⟨S32x1x256, .f32⟩
  | .hbm, ⟨42, _⟩ => ⟨S32x256, .f32⟩
  | .hbm, ⟨43, _⟩ => ⟨S32x256x1x1, .f32⟩
  | .hbm, ⟨44, _⟩ => ⟨S32x256x64x64, .f32⟩
  | .hbm, ⟨45, _⟩ => ⟨S32x256x64x64, .f32⟩
  | .hbm, ⟨46, _⟩ => ⟨S32x256x64x64, .f32⟩
  | .hbm, ⟨47, _⟩ => ⟨S32x1x256, .f32⟩
  | .hbm, ⟨48, _⟩ => ⟨S32x256, .f32⟩
  | .hbm, ⟨49, _⟩ => ⟨S32x256x1x1, .f32⟩
  | .hbm, ⟨50, _⟩ => ⟨S32x256x64x64, .f32⟩
  | .hbm, ⟨51, _⟩ => ⟨S32x256x64x64, .f32⟩
  | .hbm, ⟨52, _⟩ => ⟨S32x256x64x64, .f32⟩
  | .hbm, ⟨53, _⟩ => ⟨S32x256x64x64, .f32⟩
  | .hbm, ⟨54, _⟩ => ⟨S32x1x256, .f32⟩
  | .hbm, ⟨55, _⟩ => ⟨S32x256, .f32⟩
  | .hbm, ⟨56, _⟩ => ⟨S32x256x1x1, .f32⟩
  | .hbm, ⟨57, _⟩ => ⟨S32x256x64x64, .f32⟩
  | .hbm, ⟨58, _⟩ => ⟨S32x256x64x64, .f32⟩
  | .hbm, ⟨59, _⟩ => ⟨S32x256x64x64, .f32⟩
  | .hbm, ⟨60, _⟩ => ⟨S32x256x64x64, .f32⟩
  | .hbm, ⟨61, _⟩ => ⟨S1x256x1x1, .f32⟩
  | .hbm, ⟨62, _⟩ => ⟨S32x256x64x64, .f32⟩
  | .hbm, ⟨63, _⟩ => ⟨S32x256x64x64, .f32⟩
  | .hbm, ⟨64, _⟩ => ⟨S1x256x1x1, .f32⟩
  | .hbm, ⟨65, _⟩ => ⟨S32x256x64x64, .f32⟩
  | .hbm, ⟨66, _⟩ => ⟨S32x256x64x64, .f32⟩
  | .hbm, ⟨67, _⟩ => ⟨S32x256x64x64, .f32⟩
  | _, _ => ⟨S32x256x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_c : Ref sig .tc := ⟨.hbm, 32, rfl⟩
abbrev main_call0_v0 : Ref sig .tc := ⟨.hbm, 33, rfl⟩
abbrev main_call0_v1 : Ref sig .tc := ⟨.hbm, 34, rfl⟩
abbrev main_call0_v2 : Ref sig .tc := ⟨.hbm, 35, rfl⟩
abbrev main_call0_v3 : Ref sig .tc := ⟨.hbm, 36, rfl⟩
abbrev main_call0_v4 : Ref sig .tc := ⟨.hbm, 37, rfl⟩
abbrev main_call0_v5 : Ref sig .tc := ⟨.hbm, 38, rfl⟩
abbrev main_call0_v6 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩

abbrev nD : Nat := 1
abbrev τ : Topo := Topo.v7x

variable {F : FTy → Type} [FloatOps F]

class Facts₀ : Prop where
  reducesTo_S32x256x64x64_S32x256_d2_3 : S32x256x64x64.ReducesTo [2, 3] S32x256
  h_S_ : 0 < S_.numel
  bcast_S_S32x256 : S_.BroadcastsInDim S32x256 (![] : Fin 0 → Fin S32x256.rank)
  bcast_S768_S1x768_1 : S768.BroadcastsInDim S1x768 (![1] : Fin 1 → Fin S1x768.rank)
  bcast_S1x768_S32x768_0_1 : S1x768.BroadcastsInDim S32x768 (![0, 1] : Fin 2 → Fin S32x768.rank)
  bcast_S_S768 : S_.BroadcastsInDim S768 (![] : Fin 0 → Fin S768.rank)
  shapeCasts_S32x768_S32x3x256 : S32x768.ShapeCasts S32x3x256
  slices_S32x256x64x64_S32x1x64x64_0_0_0_0 : S32x256x64x64.Slices ![0, 0, 0, 0] S32x1x64x64
  slices_S32x256x64x64_S32x1x64x64_0_1_0_0 : S32x256x64x64.Slices ![0, 1, 0, 0] S32x1x64x64
  concatenates_S32x1x64x64_S32x256x64x64_S32x257x64x64_d1 : Shape.Concatenates [S32x1x64x64, S32x256x64x64] S32x257x64x64 1
  slices_S32x257x64x64_S32x1x64x64_0_256_0_0 : S32x257x64x64.Slices ![0, 256, 0, 0] S32x1x64x64
  slices_S32x257x64x64_S32x1x64x64_0_255_0_0 : S32x257x64x64.Slices ![0, 255, 0, 0] S32x1x64x64
  concatenates_S32x257x64x64_S32x1x64x64_S32x258x64x64_d1 : Shape.Concatenates [S32x257x64x64, S32x1x64x64] S32x258x64x64 1
  slices_S32x3x256_S32x1x256_0_0_0 : S32x3x256.Slices ![0, 0, 0] S32x1x256
  shapeCasts_S32x1x256_S32x256 : S32x1x256.ShapeCasts S32x256
  bcast_S32x256_S32x256x1x1_0_1 : S32x256.BroadcastsInDim S32x256x1x1 (![0, 1] : Fin 2 → Fin S32x256x1x1.rank)
  slices_S32x258x64x64_S32x256x64x64_0_0_0_0 : S32x258x64x64.Slices ![0, 0, 0, 0] S32x256x64x64
  bcast_S32x256x1x1_S32x256x64x64_0_1_2_3 : S32x256x1x1.BroadcastsInDim S32x256x64x64 (![0, 1, 2, 3] : Fin 4 → Fin S32x256x64x64.rank)
  slices_S32x3x256_S32x1x256_0_1_0 : S32x3x256.Slices ![0, 1, 0] S32x1x256
  slices_S32x258x64x64_S32x256x64x64_0_1_0_0 : S32x258x64x64.Slices ![0, 1, 0, 0] S32x256x64x64
  slices_S32x3x256_S32x1x256_0_2_0 : S32x3x256.Slices ![0, 2, 0] S32x1x256
  slices_S32x258x64x64_S32x256x64x64_0_2_0_0 : S32x258x64x64.Slices ![0, 2, 0, 0] S32x256x64x64
  bcast_S256x1x1_S1x256x1x1_1_2_3 : S256x1x1.BroadcastsInDim S1x256x1x1 (![1, 2, 3] : Fin 3 → Fin S1x256x1x1.rank)
  bcast_S1x256x1x1_S32x256x64x64_0_1_2_3 : S1x256x1x1.BroadcastsInDim S32x256x64x64 (![0, 1, 2, 3] : Fin 4 → Fin S32x256x64x64.rank)
  dot_S32x256_S768x256_S32x768_1_1_0_0_n_n_wf : DotDims.WF S32x256 S768x256 S32x768 [1] [1] [0] [0] [] []

variable [Facts₀]

def dot_S32x256_S768x256_S32x768_1_1_0_0_n_n : DotDims S32x256 S768x256 S32x768 where
  lhsContracting := [1]
  rhsContracting := [1]
  lhsNonContracting := [0]
  rhsNonContracting := [0]
  lhsBatch := []
  rhsBatch := []
  wf := dot_S32x256_S768x256_S32x768_1_1_0_0_n_n_wf

class Facts : Prop extends Facts₀ where

variable [Facts]
-- ==== Proof.Body0K.lean ====
/-
  The first kernel region (the global average pool), at the buffer contents V it is entered from.

  Its grid is 4 x 2 x 2; the innermost axis walks the two tiles of 32 rows of a block of 8 x 128 channels. At the first tile
  (even positions) the body clears its scratch accumulator, adds the tile's sum over rows and columns into it, and stores
  nothing into the output window; at the second tile (odd positions) it adds that tile's sum and stores the accumulator
  times 2^-12 into the output window's block, which the pipeline then writes back. So there are two control cases, the
  scratch is carried from an even position to the next odd one, and the output window is idle at the even positions.
  Here: the two cases' runs (what each leaves in the scratch and in the output's staging buffer, as store pieces), those
  contents position by position, the region invariant that carries the scratch, the pipeline's proof data and the body's obligation.
-/
import proofs.«121701_j44332652430130_2_alg».proof.Proof.Gen.Kernel.Launch
import proofs.«121701_j44332652430130_2_alg».proof.Proof.Gen.Kernel.Skeleton
import proofs.«121701_j44332652430130_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current staging buffer holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The body's two branch conditions, in closed form over the grid -/

/-- The first conditional (clear the accumulator): the innermost coordinate is 0. -/
abbrev cond0_0 (i : grid0.Coords) : Prop := (Scalar.cmpi .ne (Scalar.extui (Scalar.cmpi .eq (BitVec.ofNat 32 (i 2).val) 0#32)) 0#32) = 1#1
theorem hcond0_0 : ∀ t : Fin cfg0.N, cond0_0 (grid0.coords t) ↔ t.val % 2 = 0 :=
  (by decide +kernel : ∀ t : Fin grid0.N, cond0_0 (grid0.coords t) ↔ t.val % 2 = 0)

/-- The second conditional (store the mean): the innermost coordinate is 1. -/
abbrev cond0_1 (i : grid0.Coords) : Prop := k0_cond2 i = 1#1
theorem hcond0_1 : ∀ t : Fin cfg0.N, cond0_1 (grid0.coords t) ↔ t.val % 2 = 1 :=
  (by decide +kernel : ∀ t : Fin grid0.N, cond0_1 (grid0.coords t) ↔ t.val % 2 = 1)

/-! ## Where the windows are idle -/

theorem liveAt0_0 : ∀ t : Fin cfg0.N, cfg0.idle 0 (grid0.coords t) = false := by decide +kernel
theorem idleAt0_1_A : ∀ t : Fin cfg0.N, cond0_0 (grid0.coords t) → ¬cond0_1 (grid0.coords t) → cfg0.idle 1 (grid0.coords t) = true := by decide +kernel
theorem noFlush0_1_A : ∀ t : Fin cfg0.N, cond0_0 (grid0.coords t) → ¬cond0_1 (grid0.coords t) → (cfg0.win 1).flush t = false := by decide +kernel
theorem liveAt0_1_B : ∀ t : Fin cfg0.N, ¬cond0_0 (grid0.coords t) → cond0_1 (grid0.coords t) → cfg0.idle 1 (grid0.coords t) = false := by decide +kernel

/-! ## The memrefs the body is called with -/

abbrev VO0_1 : View sig .tc .vmem S8x128 .f32 := (Memref.whole cc0_stg1_0 : Memref sig .tc .vmem S8x128 .f32).view
abbrev ms0_0 (t : Fin cfg0.N) : Memref sig .tc .vmem S8x128x32x64 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8x128 .f32 := win0_1.stage (cfg0.slots t 1)
abbrev hs0_1 (t : Fin cfg0.N) : (ms0_1 t).IsWhole := hstage0_1 ((cfg0.slots t 1).cast nbuf0_1)
/-- The scratch accumulator: a whole scoped buffer of the kernel's own. -/
abbrev scM0_0 : Memref sig .tc .vmem S8x128 .f32 := Memref.whole cc0_scratch0
abbrev VS0_0 : View sig .tc .vmem S8x128 .f32 := scM0_0.view

/-- The scoped buffers that are neither this region's staging buffers nor its scratch (the other region's staging buffers), each at some contents. -/
def restS (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f))

/-- The class invariant with the scratch as a memref owned at some contents. -/
theorem PhiA0_eq (c : Dev nD) :
    (Pipeline.ΦA spec0 c : sProp 𝕄)
      = iprop(iprop((∃ d, owns (c : Thread nD τ) scM0_0 fullShare d) ∗ restS (F := F) c) ∗ (∃ r, prngReg c r)) := by
  unfold Pipeline.ΦA restS; rw [scopedRest0_eq]; simp only [scM0_0, owns_whole]; try rfl

/-! ## The body's run in each case: the store pieces are the witness the run finds -/

set_option maxHeartbeats 1000000 in
/-- FIRST TILE (clear, accumulate, no store into the output). -/
noncomputable def kernelRun0_A (c : Dev nD) (i : grid0.Coords) (arg3 : Memref sig .tc .vmem S8x128x32x64 .f32) (harg3 : arg3.IsWhole) (arg4 : Memref sig .tc .vmem S8x128 .f32) (harg4 : arg4.IsWhole) (arg5 : Memref sig .tc .vmem S8x128 .f32) (harg5 : arg5.IsWhole) (hc0 : cond0_0 i) (hc1 : ¬cond0_1 i)
    (x0 : Vec F S8x128x32x64 .f32) :
    Σ' (L1 : List (View.Piece (Elt F) S8x128 .f32)), { LS0 : List (View.Piece (Elt F) S8x128 .f32) //
      ∀ (xi1 : Vec F S8x128 .f32) (E : Set ℕ) (K : PUnit → sProp 𝕄),
        iprop(owns (c : Thread nD τ) arg3 fullShare x0 ∗ owns (c : Thread nD τ) arg4 fullShare xi1 ∗ (∃ d, owns (c : Thread nD τ) arg5 fullShare d)
            ∗ (iprop(owns (c : Thread nD τ) arg3 fullShare x0 ∗ owns (c : Thread nD τ) arg4 fullShare xi1 ∗ (∃ f, arg5.view.loc (c : Thread nD τ) ↦[arg5.view.set]{fullShare} arg5.view.writes (Elt F) f LS0)) -∗ K ⟨⟩))
          ⊢ wp frame (wpE (defs₀ (F := F)) Variants.none c none) E (cc0_kernel i arg3 harg3 arg4 harg4 arg5 harg5) K } := by
  refine ⟨[], ?_, fun xi1 E K => ?run⟩
  case run =>
    simp only [cc0_kernel_eq_skeleton]; unfold cc0_kernel_skel
    unfold owns
    iintro ⟨⟨%f0, %hf0, H0⟩, ⟨%f1, %hf1, H1⟩, ⟨%ds0, %fs0, -, HS0⟩, Hk⟩
    obtain rfl := harg3.eq_unread hf0; obtain rfl := harg4.eq_unread hf1
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    iexists _; iexact HS0

set_option maxHeartbeats 1000000 in
/-- SECOND TILE (accumulate onto what the first tile left, store the scaled accumulator into the output). -/
noncomputable def kernelRun0_B (c : Dev nD) (i : grid0.Coords) (arg3 : Memref sig .tc .vmem S8x128x32x64 .f32) (harg3 : arg3.IsWhole) (arg4 : Memref sig .tc .vmem S8x128 .f32) (harg4 : arg4.IsWhole) (arg5 : Memref sig .tc .vmem S8x128 .f32) (harg5 : arg5.IsWhole) (hc0 : ¬cond0_0 i) (hc1 : cond0_1 i)
    (x0 : Vec F S8x128x32x64 .f32) (xs0 : Vec F S8x128 .f32) :
    Σ' (L1 : List (View.Piece (Elt F) S8x128 .f32)), { LS0 : List (View.Piece (Elt F) S8x128 .f32) //
      ∀ (E : Set ℕ) (K : PUnit → sProp 𝕄),
        iprop(owns (c : Thread nD τ) arg3 fullShare x0 ∗ (∃ d, owns (c : Thread nD τ) arg4 fullShare d) ∗ owns (c : Thread nD τ) arg5 fullShare xs0
            ∗ (iprop(owns (c : Thread nD τ) arg3 fullShare x0 ∗ (∃ f, arg4.view.loc (c : Thread nD τ) ↦[arg4.view.set]{fullShare} arg4.view.writes (Elt F) f L1) ∗ (∃ f, arg5.view.loc (c : Thread nD τ) ↦[arg5.view.set]{fullShare} arg5.view.writes (Elt F) f LS0)) -∗ K ⟨⟩))
          ⊢ wp frame (wpE (defs₀ (F := F)) Variants.none c none) E (cc0_kernel i arg3 harg3 arg4 harg4 arg5 harg5) K } := by
  refine ⟨?_, ?_, fun E K => ?run⟩
  case run =>
    simp only [cc0_kernel_eq_skeleton]; unfold cc0_kernel_skel
    unfold owns
    iintro ⟨⟨%f0, %hf0, H0⟩, ⟨%d1, %f1, -, H1⟩, ⟨%fs0, %hfs0, HS0⟩, Hk⟩
    obtain rfl := harg3.eq_unread hf0; obtain rfl := harg5.eq_unread hfs0
    sl_exec (disch := first | exact hc0 | exact hc1)
    sl_step
    iapply Hk
    isplitl [H0]
    · iexists _; isplitr; · ipureintro; exact harg3.read_unread _
      iexact H0
    isplitl [H1]; · iexists _; iexact H1
    iexists _; iexact HS0

/-! ## What each case leaves -/

/-- The first tile stores nothing into the output window: a placeholder nothing consults (the window is idle there). -/
def out0_A_1 (c : Dev nD) (i : grid0.Coords) (arg3 : Memref sig .tc .vmem S8x128x32x64 .f32) (harg3 : arg3.IsWhole) (arg4 : Memref sig .tc .vmem S8x128 .f32) (harg4 : arg4.IsWhole) (arg5 : Memref sig .tc .vmem S8x128 .f32) (harg5 : arg5.IsWhole) (hc0 : cond0_0 i) (hc1 : ¬cond0_1 i)
    (x0 : Vec F S8x128x32x64 .f32) : Vec F S8x128 .f32 :=
  VO0_1.read (Elt F) (VO0_1.writes (Elt F) VO0_1.junk (kernelRun0_A c i arg3 harg3 arg4 harg4 arg5 harg5 hc0 hc1 x0).1)

/-- The first tile's stores into the scratch cover it. -/
theorem scover0_A_0 (c : Dev nD) (i : grid0.Coords) (arg3 : Memref sig .tc .vmem S8x128x32x64 .f32) (harg3 : arg3.IsWhole) (arg4 : Memref sig .tc .vmem S8x128 .f32) (harg4 : arg4.IsWhole) (arg5 : Memref sig .tc .vmem S8x128 .f32) (harg5 : arg5.IsWhole) (hc0 : cond0_0 i) (hc1 : ¬cond0_1 i)
    (x0 : Vec F S8x128x32x64 .f32) (y : S8x128.Idx) :
    ∃ pc ∈ (kernelRun0_A c i arg3 harg3 arg4 harg4 arg5 harg5 hc0 hc1 x0).2.1, y ∈ pc.1.set :=
  View.cover_of_tiledL (kernelRun0_A c i arg3 harg3 arg4 harg4 arg5 harg5 hc0 hc1 x0).2.1 S8x128.size (by sl_kernel_rfl) y

/-- What the first tile leaves in the scratch. -/
def sout0_A_0 (c : Dev nD) (i : grid0.Coords) (arg3 : Memref sig .tc .vmem S8x128x32x64 .f32) (harg3 : arg3.IsWhole) (arg4 : Memref sig .tc .vmem S8x128 .f32) (harg4 : arg4.IsWhole) (arg5 : Memref sig .tc .vmem S8x128 .f32) (harg5 : arg5.IsWhole) (hc0 : cond0_0 i) (hc1 : ¬cond0_1 i)
    (x0 : Vec F S8x128x32x64 .f32) : Vec F S8x128 .f32 :=
  VS0_0.read (Elt F) (VS0_0.writes (Elt F) VS0_0.junk (kernelRun0_A c i arg3 harg3 arg4 harg4 arg5 harg5 hc0 hc1 x0).2.1)

/-- The second tile's store into the output window covers its block. -/
theorem cover0_B_1 (c : Dev nD) (i : grid0.Coords) (arg3 : Memref sig .tc .vmem S8x128x32x64 .f32) (harg3 : arg3.IsWhole) (arg4 : Memref sig .tc .vmem S8x128 .f32) (harg4 : arg4.IsWhole) (arg5 : Memref sig .tc .vmem S8x128 .f32) (harg5 : arg5.IsWhole) (hc0 : ¬cond0_0 i) (hc1 : cond0_1 i)
    (x0 : Vec F S8x128x32x64 .f32) (xs0 : Vec F S8x128 .f32) (y : S8x128.Idx) :
    ∃ pc ∈ (kernelRun0_B c i arg3 harg3 arg4 harg4 arg5 harg5 hc0 hc1 x0 xs0).1, y ∈ pc.1.set :=
  View.cover_of_tiledL (kernelRun0_B c i arg3 harg3 arg4 harg4 arg5 harg5 hc0 hc1 x0 xs0).1 S8x128.size (by sl_kernel_rfl) y

/-- What the second tile leaves in the output window's staging buffer. -/
def out0_B_1 (c : Dev nD) (i : grid0.Coords) (arg3 : Memref sig .tc .vmem S8x128x32x64 .f32) (harg3 : arg3.IsWhole) (arg4 : Memref sig .tc .vmem S8x128 .f32) (harg4 : arg4.IsWhole) (arg5 : Memref sig .tc .vmem S8x128 .f32) (harg5 : arg5.IsWhole) (hc0 : ¬cond0_0 i) (hc1 : cond0_1 i)
    (x0 : Vec F S8x128x32x64 .f32) (xs0 : Vec F S8x128 .f32) : Vec F S8x128 .f32 :=
  VO0_1.read (Elt F) (VO0_1.writes (Elt F) VO0_1.junk (kernelRun0_B c i arg3 harg3 arg4 harg4 arg5 harg5 hc0 hc1 x0 xs0).1)

/-- The second tile's store into the scratch covers it. -/
theorem scover0_B_0 (c : Dev nD) (i : grid0.Coords) (arg3 : Memref sig .tc .vmem S8x128x32x64 .f32) (harg3 : arg3.IsWhole) (arg4 : Memref sig .tc .vmem S8x128 .f32) (harg4 : arg4.IsWhole) (arg5 : Memref sig .tc .vmem S8x128 .f32) (harg5 : arg5.IsWhole) (hc0 : ¬cond0_0 i) (hc1 : cond0_1 i)
    (x0 : Vec F S8x128x32x64 .f32) (xs0 : Vec F S8x128 .f32) (y : S8x128.Idx) :
    ∃ pc ∈ (kernelRun0_B c i arg3 harg3 arg4 harg4 arg5 harg5 hc0 hc1 x0 xs0).2.1, y ∈ pc.1.set :=
  View.cover_of_tiledL (kernelRun0_B c i arg3 harg3 arg4 harg4 arg5 harg5 hc0 hc1 x0 xs0).2.1 S8x128.size (by sl_kernel_rfl) y

/-- What the second tile leaves in the scratch. -/
def sout0_B_0 (c : Dev nD) (i : grid0.Coords) (arg3 : Memref sig .tc .vmem S8x128x32x64 .f32) (harg3 : arg3.IsWhole) (arg4 : Memref sig .tc .vmem S8x128 .f32) (harg4 : arg4.IsWhole) (arg5 : Memref sig .tc .vmem S8x128 .f32) (harg5 : arg5.IsWhole) (hc0 : ¬cond0_0 i) (hc1 : cond0_1 i)
    (x0 : Vec F S8x128x32x64 .f32) (xs0 : Vec F S8x128 .f32) : Vec F S8x128 .f32 :=
  VS0_0.read (Elt F) (VS0_0.writes (Elt F) VS0_0.junk (kernelRun0_B c i arg3 harg3 arg4 harg4 arg5 harg5 hc0 hc1 x0 xs0).2.1)

/-! ## The accumulation, position by position -/

/-- What the output window's staging buffer and the scratch hold after the body at position n: at an even position the first
    tile's contents, at an odd one the second tile's over the scratch the position before left. -/
def outsAt0 (c : Dev nD) : (n : ℕ) → n < cfg0.N → Vec F S8x128 .f32 × Vec F S8x128 .f32
  | 0, hn => (out0_A_1 c (grid0.coords ⟨0, hn⟩) (ms0_0 ⟨0, hn⟩) (hs0_0 ⟨0, hn⟩) (ms0_1 ⟨0, hn⟩) (hs0_1 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩),
      sout0_A_0 c (grid0.coords ⟨0, hn⟩) (ms0_0 ⟨0, hn⟩) (hs0_0 ⟨0, hn⟩) (ms0_1 ⟨0, hn⟩) (hs0_1 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩))
  | n + 1, hn =>
    if h0 : (n + 1) % 2 = 0 then
      (out0_A_1 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) ((hcond0_0 ⟨n + 1, hn⟩).mpr h0) (fun h => (fun h => by (try dsimp only at h); omega) ((hcond0_1 ⟨n + 1, hn⟩).mp h)) (iblk0 V c 0 ⟨n + 1, hn⟩),
        sout0_A_0 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) ((hcond0_0 ⟨n + 1, hn⟩).mpr h0) (fun h => (fun h => by (try dsimp only at h); omega) ((hcond0_1 ⟨n + 1, hn⟩).mp h)) (iblk0 V c 0 ⟨n + 1, hn⟩))
    else
      (out0_B_1 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => h0 ((hcond0_0 ⟨n + 1, hn⟩).mp h)) ((hcond0_1 ⟨n + 1, hn⟩).mpr (by (try dsimp only); omega)) (iblk0 V c 0 ⟨n + 1, hn⟩) (outsAt0 c n (Nat.lt_of_succ_lt hn)).2,
        sout0_B_0 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => h0 ((hcond0_0 ⟨n + 1, hn⟩).mp h)) ((hcond0_1 ⟨n + 1, hn⟩).mpr (by (try dsimp only); omega)) (iblk0 V c 0 ⟨n + 1, hn⟩) (outsAt0 c n (Nat.lt_of_succ_lt hn)).2)

/-- At an even position: the first tile's contents. -/
theorem outsAt0_A (c : Dev nD) (t : Fin cfg0.N) (h0 : t.val % 2 = 0) (h1 : ¬t.val % 2 = 1) :
    outsAt0 V c t.val t.isLt = (out0_A_1 c (grid0.coords t) (ms0_0 t) (hs0_0 t) (ms0_1 t) (hs0_1 t) scM0_0 (Memref.isWhole_whole _) ((hcond0_0 t).mpr h0) (fun h => h1 ((hcond0_1 t).mp h)) (iblk0 V c 0 t),
      sout0_A_0 c (grid0.coords t) (ms0_0 t) (hs0_0 t) (ms0_1 t) (hs0_1 t) scM0_0 (Memref.isWhole_whole _) ((hcond0_0 t).mpr h0) (fun h => h1 ((hcond0_1 t).mp h)) (iblk0 V c 0 t)) := by
  obtain ⟨n, hn⟩ := t
  cases n with
  | zero => exact rfl
  | succ n => exact (dif_pos h0).trans rfl

/-- At an odd position: the second tile's contents over what the position before left in the scratch. -/
theorem outsAt0_B (c : Dev nD) (t : Fin cfg0.N) (h0 : ¬t.val % 2 = 0) (h1 : t.val % 2 = 1) :
    outsAt0 V c t.val t.isLt = (out0_B_1 c (grid0.coords t) (ms0_0 t) (hs0_0 t) (ms0_1 t) (hs0_1 t) scM0_0 (Memref.isWhole_whole _) (fun h => h0 ((hcond0_0 t).mp h)) ((hcond0_1 t).mpr h1) (iblk0 V c 0 t) (outsAt0 V c (t.val - 1) (Nat.lt_of_le_of_lt (Nat.sub_le _ _) t.isLt)).2,
      sout0_B_0 c (grid0.coords t) (ms0_0 t) (hs0_0 t) (ms0_1 t) (hs0_1 t) scM0_0 (Memref.isWhole_whole _) (fun h => h0 ((hcond0_0 t).mp h)) ((hcond0_1 t).mpr h1) (iblk0 V c 0 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-! ## The region invariant -/

/-- Before position n: before the first point the class invariant (every scratch at anything); afterwards the scratch at what
    the position before left in it, the other region's staging buffers at anything, the generator register at some state. -/
def Phi0 (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ restS (F := F) c) ∗ (∃ r, prngReg c r))

theorem Phi0_zero (c : Dev nD) (n : ℕ) (h : n ≤ cfg0.N) (hz : n = 0) : Phi0 V c n h = Pipeline.ΦA spec0 c := by
  subst hz; rfl

theorem Phi0_succ (c : Dev nD) (n : ℕ) (hn : n < cfg0.N) :
    Phi0 V c (n + 1) hn = iprop(iprop(owns (c : Thread nD τ) scM0_0 fullShare ((outsAt0 V c n hn).2) ∗ restS (F := F) c) ∗ (∃ r, prngReg c r)) := rfl

theorem Phi0_pos (c : Dev nD) (n : ℕ) (h : n ≤ cfg0.N) (hz : n ≠ 0) :
    Phi0 V c n h = iprop(iprop(owns (c : Thread nD τ) scM0_0 fullShare ((outsAt0 V c (n - 1) (by omega)).2) ∗ restS (F := F) c) ∗ (∃ r, prngReg c r)) := by
  cases n with
  | zero => exact absurd rfl hz
  | succ n => rfl

/-! ## The pipeline's proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => (outsAt0 V c t.val t.isLt).1
  Φ t := Phi0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem Phi0_castSucc (c : Dev nD) (t : Fin cfg0.N) :
    (dat0 V c).Φ t.castSucc = Phi0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d

/-! ## The body's obligation, at a generic point -/

def bodyPre (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d)))

def bodyPost (c : Dev nD) (t : Fin cfg0.N) : sProp 𝕄 :=
  iprop((dat0 V c).Φ t.succ ∗ (dat0 V c).owesAt () t.succ
    ∗ (dat0 V c).leavesExact 0 t
    ∗ (dat0 V c).leavesExact 1 t)

set_option maxHeartbeats 4800000 in
/-- The body at any point: the input's staging buffer holds its block; the parity of the position says which tile it is; the
    invariant hands the body the scratch (at anything before an even position, at what the even position left before an odd
    one) and takes it back at this position's contents; the core owes nothing throughout. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0_0]
  rw [show (dat0 V c).owesAt () t.succ = (dat0 V c).owesAt () t.castSucc from rfl]
  rw [show (dat0 V c).Φ t.succ = Phi0 V c (t.val + 1) t.isLt from rfl, Phi0_succ]
  have hN : t.val < 16 := lt_of_lt_of_eq t.isLt (show cfg0.N = 16 from N_0)
  by_cases h0 : t.val % 2 = 0
  · have h1 : ¬t.val % 2 = 1 := by omega
    rw [show (dat0 V c).leavesExact 0 t = owns (c : Thread nD τ) (ms0_0 t) fullShare ((dat0 V c).after 0 t) from by
      unfold Dat.leavesExact; rw [liveAt0_0 t], after0_0]
    rw [Dat.leavesExact_idle (dat0 V c) 1 t (idleAt0_1_A t ((hcond0_0 t).mpr h0) (fun h => h1 ((hcond0_1 t).mp h))) (noFlush0_1_A t ((hcond0_0 t).mpr h0) (fun h => h1 ((hcond0_1 t).mp h)))]
    rw [outsAt0_A V c t h0 h1]
    unfold sout0_A_0; (try dsimp only)
    by_cases hz : t.val = 0
    · rw [Phi0_castSucc V c t, Phi0_zero V c _ _ hz, PhiA0_eq]
      iintro ⟨⟨⟨HS0, HR⟩, Hg⟩, Ho, ⟨%d0, H0⟩, ⟨%d1, H1⟩⟩
      iapply ((kernelRun0_A c (grid0.coords t) _ _ _ _ _ _ ((hcond0_0 t).mpr h0) (fun h => h1 ((hcond0_1 t).mp h)) (iblk0 V c 0 t)).2.2 _ Set.univ _)
      isplitl [H0]; · iexact H0
      isplitl [H1]; · iexact H1
      isplitl [HS0]; · iexact HS0
      iintro ⟨H0, H1, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_A_0 c _ _ _ _ _ _ _ _ _ _)
          iexact HR
        iexact Hg
      isplitl [Ho]; · iexact Ho
      isplitl [H0]; · iexact H0
      iexists _; iexact H1
    · rw [Phi0_castSucc V c t, Phi0_pos V c _ _ hz]
      iintro ⟨⟨⟨HS0, HR⟩, Hg⟩, Ho, ⟨%d0, H0⟩, ⟨%d1, H1⟩⟩
      iapply ((kernelRun0_A c (grid0.coords t) _ _ _ _ _ _ ((hcond0_0 t).mpr h0) (fun h => h1 ((hcond0_1 t).mp h)) (iblk0 V c 0 t)).2.2 _ Set.univ _)
      isplitl [H0]; · iexact H0
      isplitl [H1]; · iexact H1
      isplitl [HS0]; · iexists _; iexact HS0
      iintro ⟨H0, H1, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_A_0 c _ _ _ _ _ _ _ _ _ _)
          iexact HR
        iexact Hg
      isplitl [Ho]; · iexact Ho
      isplitl [H0]; · iexact H0
      iexists _; iexact H1
  · have h1 : t.val % 2 = 1 := by omega
    rw [show (dat0 V c).leavesExact 0 t = owns (c : Thread nD τ) (ms0_0 t) fullShare ((dat0 V c).after 0 t) from by
      unfold Dat.leavesExact; rw [liveAt0_0 t], after0_0]
    rw [show (dat0 V c).leavesExact 1 t = owns (c : Thread nD τ) (ms0_1 t) fullShare ((dat0 V c).after 1 t) from by
      unfold Dat.leavesExact; rw [liveAt0_1_B t (fun h => h0 ((hcond0_0 t).mp h)) ((hcond0_1 t).mpr h1)], after0_1]
    rw [outsAt0_B V c t h0 h1]
    unfold out0_B_1 sout0_B_0; (try dsimp only)
    have hz : t.val ≠ 0 := by omega
    rw [Phi0_castSucc V c t, Phi0_pos V c _ _ hz]
    iintro ⟨⟨⟨HS0, HR⟩, Hg⟩, Ho, ⟨%d0, H0⟩, ⟨%d1, H1⟩⟩
    iapply ((kernelRun0_B c (grid0.coords t) _ _ _ _ _ _ (fun h => h0 ((hcond0_0 t).mp h)) ((hcond0_1 t).mpr h1) (iblk0 V c 0 t) _).2.2 Set.univ _)
    isplitl [H0]; · iexact H0
    isplitl [H1]; · iexists _; iexact H1
    isplitl [HS0]; · iexact HS0
    iintro ⟨H0, ⟨%e1, H1⟩, ⟨%es0, HS0⟩⟩
    isplitl [HS0 HR Hg]
    · isplitl [HS0 HR]
      · isplitl [HS0]
        · unfold owns; iexists _; isplitr
          swap; · iexact HS0
          ipureintro; exact View.read_writes_of_cover _ _ _ _ _ (scover0_B_0 c _ _ _ _ _ _ _ _ _ _ _)
        iexact HR
      iexact Hg
    isplitl [Ho]; · iexact Ho
    isplitl [H0]; · iexact H0
    unfold owns; iexists _; isplitr
    swap; · iexact H1
    ipureintro; exact View.read_writes_of_cover _ _ _ _ _ (cover0_B_1 c _ _ _ _ _ _ _ _ _ _ _)

/-- The body's obligation, at every point. -/
theorem body_obligation0 (c : Dev nD) : BodyObligation (dat0 (F := F) V c) (defs₀ (F := F)) Variants.none () Set.univ := fun t => by
  rw [bigSep_W0, bigSep_W0]
  exact sound_body V c t

/-- What the launch hands the region (the class invariant) is the invariant before the first point. -/
theorem hin0 (c : Dev nD) : Pipeline.ΦA spec0 c ⊢ (dat0 V c).Φ 0 := by
  rw [show (dat0 V c).Φ 0 = Phi0 V c 0 (Nat.zero_le _) from rfl, Phi0_zero V c 0 _ rfl]
  try exact Idealize.SL.BI.Entails.refl _

/-- After any point but the first the invariant gives the class invariant back: the scratch's named contents are forgotten. -/
theorem Phi0_out (c : Dev nD) (t : Fin (cfg0.N + 1)) (ht : t.val ≠ 0) : (dat0 V c).Φ t ⊢ Pipeline.ΦA spec0 c := by
  rw [show (dat0 V c).Φ t = Phi0 V c t.val (Nat.le_of_lt_succ t.isLt) from rfl, Phi0_pos V c _ _ ht, PhiA0_eq]
  iintro ⟨⟨HS0, HR⟩, Hg⟩
  isplitl [HS0 HR]
  · isplitl [HS0]
    · iexists _; iexact HS0
    iexact HR
  iexact Hg

/-- After the last point the invariant gives the class invariant back. -/
theorem hout0 (c : Dev nD) : (dat0 V c).Φ (Fin.last cfg0.N) ⊢ Pipeline.ΦA spec0 c :=
  Phi0_out V c _ (by rw [Fin.val_last]; have : cfg0.N = 16 := N_0; omega)

end Cert.Kernel.Hand

end
-- ==== Proof.Body1K.lean ====
/-
  The second kernel region (the three-tap channel filter), at the buffer contents V it is entered from: the blocks its
  five windows stage at a grid point, what its body leaves in the output window's staging buffer as one function of the
  four input blocks, the proof data of its pipeline, and the body's obligation at every grid point.
-/
import proofs.«121701_j44332652430130_2_alg».proof.Proof.Gen.Kernel.Launch
import proofs.«121701_j44332652430130_2_alg».proof.Proof.Gen.Kernel.Skeleton
import proofs.«121701_j44332652430130_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The rectangles the body reads and writes: the whole image block, the three taps' rows of the filter block, a whole per-channel column. -/
abbrev rX1 : Rect S1x256x32x64 := Rect.unit (s := S1x256x32x64) ![0, 0, 0, 0] S1x256x32x64.size inb_S1x256x32x64_S1x256x32x64_0_0_0_0
abbrev rF0 : Rect S1x3x256x1x1 := Rect.unit (s := S1x3x256x1x1) ![0, 0, 0, 0, 0] S1x1x256x1x1.size inb_S1x3x256x1x1_S1x1x256x1x1_0_0_0_0_0
abbrev rF1 : Rect S1x3x256x1x1 := Rect.unit (s := S1x3x256x1x1) ![0, 1, 0, 0, 0] S1x1x256x1x1.size inb_S1x3x256x1x1_S1x1x256x1x1_0_1_0_0_0
abbrev rF2 : Rect S1x3x256x1x1 := Rect.unit (s := S1x3x256x1x1) ![0, 2, 0, 0, 0] S1x1x256x1x1.size inb_S1x3x256x1x1_S1x1x256x1x1_0_2_0_0_0
abbrev rC1 : Rect S256x1x1 := Rect.unit (s := S256x1x1) ![0, 0, 0] S256x1x1.size inb_S256x1x1_S256x1x1_0_0_0

/-- The output window's staging buffer after the body, from the four input blocks: its one whole-block store. -/
def out1_4 (x0 : Vec F S1x256x32x64 .f32) (x1 : Vec F S1x3x256x1x1 .f32) (x2 x3 : Vec F S256x1x1 .f32) : Vec F S1x256x32x64 .f32 :=
  View.canon [⟨rX1, k1_pay1 (k1_pay2 (View.ld x0 rX1) (View.ld x1 rF0) (View.ld x1 rF1) (View.ld x1 rF2) (View.ld x2 rC1) (View.ld x3 rC1))⟩]

/-- The pipeline's proof data: the arrays as the region finds them; after the body each input's buffer at its block and the
    output's at out1_4 of the input blocks; the class invariant; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_4 (c : Dev nD) (t : Fin cfg1.N) :
    (dat1 V c).after 4 t = out1_4 (iblk1 V c 0 t) (iblk1 V c 1 t) (iblk1 V c 2 t) (iblk1 V c 3 t) := by dsimp only [dat1]

/-! ## Each input's staging buffer at a point -/

/-- Input window 0's current staging buffer holds its block at every point, fetched there or not, for any proof data
    whose array is V's and whose body leaves the block in place: unfetched, the block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof data
    whose array is V's and whose body leaves the block in place: unfetched, the block index has not moved. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof data
    whose array is V's and whose body leaves the block in place: unfetched, the block index has not moved. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for any proof data
    whose array is V's and whose body leaves the block in place: unfetched, the block index has not moved. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The output's one store covers its buffer -/

/-- The whole-block store tiles the output buffer, so it covers it. -/
theorem cover1_4 (p0 : Vec F S1x256x32x64 .f32) (y : S1x256x32x64.Idx) :
    ∃ pc ∈ ([⟨rX1, p0⟩] : List (View.Piece (Elt F) S1x256x32x64 .f32)), y ∈ pc.1.set :=
  View.cover_of_tiled [⟨rX1, p0⟩] S1x256x32x64.size (by rfl) y

/-! ## The body's triple -/

set_option maxHeartbeats 1000000 in
/-- The kernel body on whole staging memrefs, the four inputs' at read contents and the output's at anything, runs to the
    continuation holding the inputs' as they were and the output's at out1_4 of the inputs'. -/
theorem sound_kernel1 (c : Dev nD) (E : Set ℕ) (i : grid1.Coords)
    (arg2 : Memref sig .tc .vmem S1x256x32x64 .f32) (harg2 : arg2.IsWhole)
    (arg3 : Memref sig .tc .vmem S1x3x256x1x1 .f32) (harg3 : arg3.IsWhole)
    (arg4 : Memref sig .tc .vmem S256x1x1 .f32) (harg4 : arg4.IsWhole)
    (arg5 : Memref sig .tc .vmem S256x1x1 .f32) (harg5 : arg5.IsWhole)
    (arg6 : Memref sig .tc .vmem S1x256x32x64 .f32) (harg6 : arg6.IsWhole)
    (x0 : Vec F S1x256x32x64 .f32) (x1 : Vec F S1x3x256x1x1 .f32) (x2 x3 : Vec F S256x1x1 .f32) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ (∃ d, owns (c : Thread nD τ) arg6 fullShare d)
        ∗ (iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare (out1_4 x0 x1 x2 x3)) -∗ K ⟨⟩))
      ⊢ wp frame (wpE (defs₀ (F := F)) Variants.none c none) E
          (cc1_kernel i arg2 harg2 arg3 harg3 arg4 harg4 arg5 harg5 arg6 harg6) K := by
  simp only [cc1_kernel_eq_skeleton]; unfold cc1_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  try dsimp only
  exact View.read_writes_eq_canon _ _ _ (cover1_4 _)

/-! ## What the body finds and leaves, window by window -/

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' memrefs hold their blocks, so the body's triple applies; the invariant and the
    core's owed term pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body's obligation at every grid point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.RunK.lean ====
/-
  The kernel program's entry function as ONE run over three segments: the first kernel region (the average pool), the
  stretch of host operations between the two regions, and the second kernel region (the three-tap channel filter).
  The buffer contents at every boundary are a fold from the launch memory: a region leaves each of its windows' arrays at
  what its write-backs fold to and every other buffer as entered; the host stretch leaves what its operations compute.
  The run ends with every unscoped buffer of every core named; the eight arguments read back to their launch contents.
-/
import proofs.«121701_j44332652430130_2_alg».proof.Proof.Body0K
import proofs.«121701_j44332652430130_2_alg».proof.Proof.Body1K
import proofs.«121701_j44332652430130_2_alg».proof.Proof.Gen.Kernel.Launch
import proofs.«121701_j44332652430130_2_alg».proof.Proof.Gen.Kernel.Skeleton
import proofs.«121701_j44332652430130_2_alg».proof.Proof.Gen.Kernel.Points
import proofs.«121701_j44332652430130_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary: a fold through the entry function -/

/-- Core c's buffers at launch: what the first region is entered from. -/
abbrev W0 : Dev nD → Valuation τ sig (Elt F) := fun c b => (s₀ m ρ).mem ((c : Dev nD), b)
/-- The same read at the TensorCore's references (what the first region's proof data take). -/
abbrev Vbefore0 : (c : Dev nD) → (b : Ref sig .tc) → Buf (Elt F) ((c : Thread nD τ).loc b) := fun c b => W0 m ρ c b
/-- At the first region's exit: its two arrays at what the pipeline leaves (the input as entered, the output's
    write-backs folded), every other buffer as entered. -/
def W1 (c : Dev nD) : Valuation τ sig (Elt F) :=
  Pipeline.withArrays spec0 c (W0 m ρ c) fun w => (dat0 (Vbefore0 m ρ) c).arrAt w cfg0.N
theorem W1_arr (c : Dev nD) (w : Fin cfg0.W) :
    W1 m ρ c (Proc.devRef .tc (Pipeline.arrRef spec0 w)) = (dat0 (Vbefore0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
/-- The same read at the TensorCore's references (the first region's exit contents). -/
abbrev Vafter0 : (c : Dev nD) → (b : Ref sig .tc) → Buf (Elt F) ((c : Thread nD τ).loc b) := fun c b => W1 m ρ c b
/-- At the first region's exit each of its arrays holds what the pipeline leaves and every other buffer what it held at entry. -/
theorem hF0 (c : Dev nD) (w : Fin cfg0.W) : (dat0 (Vbefore0 m ρ) c).arrAt w cfg0.N = Vafter0 m ρ c (Pipeline.arrRef spec0 w) :=
  (W1_arr m ρ c w).symm
theorem hrest0 (c : Dev nD) : ∀ b, b ∉ Finset.univ.image (Pipeline.arrRef spec0) → Vafter0 m ρ c b = Vbefore0 m ρ c b :=
  fun b hb => W1_of_ne m ρ c b fun w e => hb (Finset.mem_image.mpr ⟨w, Finset.mem_univ _, e⟩)

/-- After the host stretch: what the second region is entered from. -/
abbrev W2 : Dev nD → Valuation τ sig (Elt F) := fun c => StableHlo.after hostOps1 (W1 m ρ c)
/-- The same read at the TensorCore's references (what the second region's proof data take). -/
abbrev Vbefore1 : (c : Dev nD) → (b : Ref sig .tc) → Buf (Elt F) ((c : Thread nD τ).loc b) := fun c b => W2 m ρ c b
/-- A buffer no host operation writes is after the stretch what it was before it. -/
theorem W2_of (c : Dev nD) (r : Ref sig .tc) (h : r ∉ (hostOps1_W : List (Ref sig .tc))) :
    W2 m ρ c (Proc.devRef .tc r) = W1 m ρ c (Proc.devRef .tc r) :=
  StableHlo.after_of_writes_sub hostOps1 _ hostOps1_writes h
/-- At the second region's exit, which is the end of the run: its five arrays at what the pipeline leaves, every other
    buffer as entered. -/
def Wlast (c : Dev nD) : Valuation τ sig (Elt F) :=
  Pipeline.withArrays spec1 c (W2 m ρ c) fun w => (dat1 (Vbefore1 m ρ) c).arrAt w cfg1.N
theorem Wlast_arr (c : Dev nD) (w : Fin cfg1.W) :
    Wlast m ρ c (Proc.devRef .tc (Pipeline.arrRef spec1 w)) = (dat1 (Vbefore1 m ρ) c).arrAt w cfg1.N := by
  unfold Wlast; exact Pipeline.withArrays_arr spec1 launch1.win.arr_inj c _ _ w
theorem Wlast_of_ne (c : Dev nD) (b : Ref sig .tc) (hb : ∀ w, Pipeline.arrRef spec1 w ≠ b) :
    Wlast m ρ c (Proc.devRef .tc b) = W2 m ρ c (Proc.devRef .tc b) := by
  unfold Wlast; exact Pipeline.withArrays_of_ne spec1 c _ _ b hb
/-- The same read at the TensorCore's references (the second region's exit contents). -/
abbrev Vafter1 : (c : Dev nD) → (b : Ref sig .tc) → Buf (Elt F) ((c : Thread nD τ).loc b) := fun c b => Wlast m ρ c b
theorem hF1 (c : Dev nD) (w : Fin cfg1.W) : (dat1 (Vbefore1 m ρ) c).arrAt w cfg1.N = Vafter1 m ρ c (Pipeline.arrRef spec1 w) :=
  (Wlast_arr m ρ c w).symm
theorem hrest1 (c : Dev nD) : ∀ b, b ∉ Finset.univ.image (Pipeline.arrRef spec1) → Vafter1 m ρ c b = Vbefore1 m ρ c b :=
  fun b hb => Wlast_of_ne m ρ c b fun w e => hb (Finset.mem_image.mpr ⟨w, Finset.mem_univ _, e⟩)

/-! ## Reading the fold back

No host operation and no region writes an argument (a region reads one through an input window, whose array is never
written, or bypasses it), so the fold at an argument's buffer walks back to the launch memory. -/

/-- After the first region the image is as launched: it is the region's input window's array. -/
theorem W1_main_arg0 (c : Dev nD) : W1 m ρ c (Proc.devRef .tc main_arg0) = m ((c : Thread nD τ).loc main_arg0) :=
  (W1_arr m ρ c 0).trans (((dat0 (Vbefore0 m ρ) c).arrAt_in 0 rfl _).trans (A_eq0 (Vbefore0 m ρ) c 0))
/-- After the first region argument 1 is as launched: the region bypasses it. -/
theorem W1_main_arg1 (c : Dev nD) : W1 m ρ c (Proc.devRef .tc main_arg1) = m ((c : Thread nD τ).loc main_arg1) :=
  W1_of_ne m ρ c main_arg1 (by decide)
/-- After the first region argument 2 is as launched: the region bypasses it. -/
theorem W1_main_arg2 (c : Dev nD) : W1 m ρ c (Proc.devRef .tc main_arg2) = m ((c : Thread nD τ).loc main_arg2) :=
  W1_of_ne m ρ c main_arg2 (by decide)
/-- After the first region argument 3 is as launched: the region bypasses it. -/
theorem W1_main_arg3 (c : Dev nD) : W1 m ρ c (Proc.devRef .tc main_arg3) = m ((c : Thread nD τ).loc main_arg3) :=
  W1_of_ne m ρ c main_arg3 (by decide)
/-- After the first region argument 4 is as launched: the region bypasses it. -/
theorem W1_main_arg4 (c : Dev nD) : W1 m ρ c (Proc.devRef .tc main_arg4) = m ((c : Thread nD τ).loc main_arg4) :=
  W1_of_ne m ρ c main_arg4 (by decide)
/-- After the first region argument 5 is as launched: the region bypasses it. -/
theorem W1_main_arg5 (c : Dev nD) : W1 m ρ c (Proc.devRef .tc main_arg5) = m ((c : Thread nD τ).loc main_arg5) :=
  W1_of_ne m ρ c main_arg5 (by decide)
/-- After the first region argument 6 is as launched: the region bypasses it. -/
theorem W1_main_arg6 (c : Dev nD) : W1 m ρ c (Proc.devRef .tc main_arg6) = m ((c : Thread nD τ).loc main_arg6) :=
  W1_of_ne m ρ c main_arg6 (by decide)
/-- After the first region argument 7 is as launched: the region bypasses it. -/
theorem W1_main_arg7 (c : Dev nD) : W1 m ρ c (Proc.devRef .tc main_arg7) = m ((c : Thread nD τ).loc main_arg7) :=
  W1_of_ne m ρ c main_arg7 (by decide)
/-- After the first region its output array holds what its write-backs fold to. -/
theorem Wmid_v0 (c : Dev nD) : W1 m ρ c (Proc.devRef .tc main_v0) = (dat0 (Vbefore0 m ρ) c).arrAt 1 cfg0.N :=
  W1_arr m ρ c 1

/-- The second region is entered with argument 0 as launched: no host operation writes it. -/
theorem W2_main_arg0 (c : Dev nD) : W2 m ρ c (Proc.devRef .tc main_arg0) = m ((c : Thread nD τ).loc main_arg0) :=
  (W2_of m ρ c main_arg0 (by decide)).trans (W1_main_arg0 m ρ c)
/-- The second region is entered with argument 1 as launched: no host operation writes it. -/
theorem W2_main_arg1 (c : Dev nD) : W2 m ρ c (Proc.devRef .tc main_arg1) = m ((c : Thread nD τ).loc main_arg1) :=
  (W2_of m ρ c main_arg1 (by decide)).trans (W1_main_arg1 m ρ c)
/-- The second region is entered with argument 2 as launched: no host operation writes it. -/
theorem W2_main_arg2 (c : Dev nD) : W2 m ρ c (Proc.devRef .tc main_arg2) = m ((c : Thread nD τ).loc main_arg2) :=
  (W2_of m ρ c main_arg2 (by decide)).trans (W1_main_arg2 m ρ c)
/-- The second region is entered with argument 3 as launched: no host operation writes it. -/
theorem W2_main_arg3 (c : Dev nD) : W2 m ρ c (Proc.devRef .tc main_arg3) = m ((c : Thread nD τ).loc main_arg3) :=
  (W2_of m ρ c main_arg3 (by decide)).trans (W1_main_arg3 m ρ c)
/-- The second region is entered with argument 4 as launched: no host operation writes it. -/
theorem W2_main_arg4 (c : Dev nD) : W2 m ρ c (Proc.devRef .tc main_arg4) = m ((c : Thread nD τ).loc main_arg4) :=
  (W2_of m ρ c main_arg4 (by decide)).trans (W1_main_arg4 m ρ c)
/-- The second region is entered with argument 5 as launched: no host operation writes it. -/
theorem W2_main_arg5 (c : Dev nD) : W2 m ρ c (Proc.devRef .tc main_arg5) = m ((c : Thread nD τ).loc main_arg5) :=
  (W2_of m ρ c main_arg5 (by decide)).trans (W1_main_arg5 m ρ c)
/-- The second region is entered with argument 6 as launched: no host operation writes it. -/
theorem W2_main_arg6 (c : Dev nD) : W2 m ρ c (Proc.devRef .tc main_arg6) = m ((c : Thread nD τ).loc main_arg6) :=
  (W2_of m ρ c main_arg6 (by decide)).trans (W1_main_arg6 m ρ c)
/-- The second region is entered with argument 7 as launched: no host operation writes it. -/
theorem W2_main_arg7 (c : Dev nD) : W2 m ρ c (Proc.devRef .tc main_arg7) = m ((c : Thread nD τ).loc main_arg7) :=
  (W2_of m ρ c main_arg7 (by decide)).trans (W1_main_arg7 m ρ c)

/-- The second region's entry contents at the image, the two per-channel columns and the filter: the first three are
    the launch memory, the filter is what the host stretch computes from the first region's exit contents. -/
theorem Vbefore1_main_arg0 (c : Dev nD) : Vbefore1 m ρ c main_arg0 = m ((c : Thread nD τ).loc main_arg0) := W2_main_arg0 m ρ c
theorem Vbefore1_main_arg6 (c : Dev nD) : Vbefore1 m ρ c main_arg6 = m ((c : Thread nD τ).loc main_arg6) := W2_main_arg6 m ρ c
theorem Vbefore1_main_arg7 (c : Dev nD) : Vbefore1 m ρ c main_arg7 = m ((c : Thread nD τ).loc main_arg7) := W2_main_arg7 m ρ c
theorem Vbefore1_main_v20 (c : Dev nD) :
    Vbefore1 m ρ c main_v20 = StableHlo.after hostOps1 (W1 m ρ c) (Proc.devRef .tc main_v20) := rfl

theorem Wlast_main_arg0 (c : Dev nD) : Wlast m ρ c (Proc.devRef .tc main_arg0) = m ((c : Thread nD τ).loc main_arg0) :=
  calc Wlast m ρ c (Proc.devRef .tc main_arg0)
    _ = W2 m ρ c (Proc.devRef .tc main_arg0) :=
          (Wlast_arr m ρ c 0).trans (((dat1 (Vbefore1 m ρ) c).arrAt_in 0 rfl _).trans (A_eq1 (Vbefore1 m ρ) c 0))
    _ = m ((c : Thread nD τ).loc main_arg0) := W2_main_arg0 m ρ c

theorem Wlast_main_arg1 (c : Dev nD) : Wlast m ρ c (Proc.devRef .tc main_arg1) = m ((c : Thread nD τ).loc main_arg1) :=
  (Wlast_of_ne m ρ c main_arg1 (by decide)).trans (W2_main_arg1 m ρ c)
theorem Wlast_main_arg2 (c : Dev nD) : Wlast m ρ c (Proc.devRef .tc main_arg2) = m ((c : Thread nD τ).loc main_arg2) :=
  (Wlast_of_ne m ρ c main_arg2 (by decide)).trans (W2_main_arg2 m ρ c)
theorem Wlast_main_arg3 (c : Dev nD) : Wlast m ρ c (Proc.devRef .tc main_arg3) = m ((c : Thread nD τ).loc main_arg3) :=
  (Wlast_of_ne m ρ c main_arg3 (by decide)).trans (W2_main_arg3 m ρ c)
theorem Wlast_main_arg4 (c : Dev nD) : Wlast m ρ c (Proc.devRef .tc main_arg4) = m ((c : Thread nD τ).loc main_arg4) :=
  (Wlast_of_ne m ρ c main_arg4 (by decide)).trans (W2_main_arg4 m ρ c)
theorem Wlast_main_arg5 (c : Dev nD) : Wlast m ρ c (Proc.devRef .tc main_arg5) = m ((c : Thread nD τ).loc main_arg5) :=
  (Wlast_of_ne m ρ c main_arg5 (by decide)).trans (W2_main_arg5 m ρ c)

theorem Wlast_main_arg6 (c : Dev nD) : Wlast m ρ c (Proc.devRef .tc main_arg6) = m ((c : Thread nD τ).loc main_arg6) :=
  calc Wlast m ρ c (Proc.devRef .tc main_arg6)
    _ = W2 m ρ c (Proc.devRef .tc main_arg6) :=
          (Wlast_arr m ρ c 2).trans (((dat1 (Vbefore1 m ρ) c).arrAt_in 2 rfl _).trans (A_eq1 (Vbefore1 m ρ) c 2))
    _ = m ((c : Thread nD τ).loc main_arg6) := W2_main_arg6 m ρ c

theorem Wlast_main_arg7 (c : Dev nD) : Wlast m ρ c (Proc.devRef .tc main_arg7) = m ((c : Thread nD τ).loc main_arg7) :=
  calc Wlast m ρ c (Proc.devRef .tc main_arg7)
    _ = W2 m ρ c (Proc.devRef .tc main_arg7) :=
          (Wlast_arr m ρ c 3).trans (((dat1 (Vbefore1 m ρ) c).arrAt_in 3 rfl _).trans (A_eq1 (Vbefore1 m ρ) c 3))
    _ = m ((c : Thread nD τ).loc main_arg7) := W2_main_arg7 m ρ c

/-- At the end the result array holds what the second region's write-backs fold to. -/
theorem Wlast_out (c : Dev nD) : Wlast m ρ c (Proc.devRef .tc main_v21) = (dat1 (Vbefore1 m ρ) c).arrAt 4 cfg1.N :=
  Wlast_arr m ρ c 4

/-! ## The proof data family and the thread state -/

/-- Both pipelines' proof data, each at its region's entry contents: a literal match on the pipeline's index. -/
def pdats : (p : Fin 2) → (c : Dev nD) → Dat τ (Elt F) Unit ℕ (UR sig nD τ) ℕ (Pipeline.pin (pcfgs (F := F)) adm p) c
  | ⟨0, _⟩ => fun c => dat0 (Vbefore0 m ρ) c
  | ⟨1, _⟩ => fun c => dat1 (Vbefore1 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues, at nothing. -/
abbrev R (c : Dev nD) : sProp 𝕄 := iprop((∃ r, prngReg c r) ∗ ∃ W, owes (c : Thread nD τ) (0 : CellTallies nD τ sig Unit) W)
/-- The host stretch as a segment over the unscoped references from the contents W, R riding along: it ends with those
    references at the stretch's fold of W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator
    register at some state. -/
abbrev Tₙ (c : Dev nD) : sProp 𝕄 := iprop(StableHlo.held (c : Thread nD τ) (Pipeline.ucRefs τ sig) (Wlast m ρ c) ∗ ∃ r, prngReg c r)

/-! ## The regions as segments -/

set_option backward.isDefEq.respectTransparency.types false in
/-- The first region over the thread state: entered from every unscoped buffer at the launch contents, left at W1. Its
    arrays split out of the unscoped buffers and put back at the exit contents; the generator register and the scoped
    buffers no window stages go into the region's invariant at the first point and come back from it at the last;
    nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vbefore0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (Vbefore0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (Vbefore0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have hΦ : Pipeline.ΦA spec0 c ⊢ (pdats m ρ 0 c).Φ 0 := hin0 (Vbefore0 m ρ) c
    refine .trans ?_ hΦ
    unfold Pipeline.ΦA
    iintro ⟨Hp, -, Hr⟩
    isplitl [Hr]; · iexact Hr
    iexact Hp
  hout c := by
    rw [Pipeline.ownSems0_none]
    have hΦ : (pdats m ρ 0 c).Φ (Fin.last _) ⊢ Pipeline.ΦA spec0 c := hout0 (Vbefore0 m ρ) c
    refine hΦ.trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (Vbefore0 m ρ c) (Vafter0 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region over the thread state: entered from every unscoped buffer at W2, left at the last contents. Its
    arrays split out of the unscoped buffers and put back at the exit contents; the generator register into the
    region's invariant and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vbefore1 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (Vbefore1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (Vbefore1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (Vbefore1 m ρ c) (Vafter1 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The entry function as segments, and the launch -/

/-- The three segments in order: the first region, the host stretch from the first region's exit contents, the second region. -/
abbrev runSegs : List (Pipeline.Seg (pcfgs (F := F)) adm (pdats m ρ) () defs₀ 𝒱₀ L lv) :=
  [ .region (reg0 m ρ),
    .host (hseg hostOps1 hostOps1_sub hostOps1_fresh (W1 m ρ)),
    .region (reg1 m ρ) ]
/-- The entry function IS the run of the segments. -/
theorem main_run (c : Dev nD) : main (F := F) c = Pipeline.Seg.run (runSegs m ρ) :=
  main_segs adm (pdats m ρ) () 𝒱₀ L lv (hseg hostOps1 hostOps1_sub hostOps1_fresh (W1 m ρ)) (reg0 m ρ) (reg1 m ρ) rfl c

set_option backward.isDefEq.respectTransparency.types false in
/-- THE RUN. From any memory with zero counters, every weakly fair execution of the entry function on the TensorCores
    terminates, nothing faulting, and every final state holds, on every core, every unscoped buffer at the last
    boundary's contents. -/
theorem run : θ_run defs (onTc (τ := τ) (main (F := F))) ⟨m, fun _ => 0, ρ⟩
    (fun r => ∀ c : Dev nD, ∀ b ∈ Pipeline.ucRefs τ sig, r.2.mem (((c : Thread nD τ)).1, b) = Wlast m ρ c b) :=
  Pipeline.θ_run_regions_kit (pcfgs (F := F)) adm (pdats m ρ) () cellOf_inj emb₁ defs₀ 𝒱₀ L lv m ρ main (runSegs m ρ)
    (fun c Q => by rw [main_run m ρ c])
    (by simp only [runSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wlast m ρ c b)
    (hfin := fun c s' => by
      iintro ⟨⟨Hh, -⟩, HSI⟩
      unfold StableHlo.held
      imodintro
      iapply (pointsTo_read_all (Pipeline.ucRefs τ sig) (fun b => (((c : Thread nD τ)).1, b)) (Wlast m ρ c) s')
      isplitl [Hh] <;> iassumption)
    (hQ := fun s h => h)

/-- THE FRAME: the run, read at the eight arguments, each of which the fold walks back to the launch memory. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
    ⟨(h c _ (mem_uc main_arg0 (by decide))).trans (Wlast_main_arg0 m ρ c),
     (h c _ (mem_uc main_arg1 (by decide))).trans (Wlast_main_arg1 m ρ c),
     (h c _ (mem_uc main_arg2 (by decide))).trans (Wlast_main_arg2 m ρ c),
     (h c _ (mem_uc main_arg3 (by decide))).trans (Wlast_main_arg3 m ρ c),
     (h c _ (mem_uc main_arg4 (by decide))).trans (Wlast_main_arg4 m ρ c),
     (h c _ (mem_uc main_arg5 (by decide))).trans (Wlast_main_arg5 m ρ c),
     (h c _ (mem_uc main_arg6 (by decide))).trans (Wlast_main_arg6 m ρ c),
     (h c _ (mem_uc main_arg7 (by decide))).trans (Wlast_main_arg7 m ρ c)⟩) (run m ρ)

end Cert.Kernel.Hand

end
-- ==== Proof.Body0.lean ====
/-
  The first kernel region (the global average pool), at the buffer contents V it is entered from.

  Its grid is 4 x 2 x 2; the innermost axis walks the two tiles of 32 rows of a block of 8 x 128 channels. At the first tile
  (even positions) the body clears its scratch accumulator, adds the tile's sum over rows and columns into it, and stores
  nothing into the output window; at the second tile (odd positions) it adds that tile's sum and stores the accumulator
  times 2^-12 into the output window's block, which the pipeline then writes back. So there are two control cases, the
  scratch is carried from an even position to the next odd one, and the output window is idle at the even positions.
  Here: the two cases' runs (what each leaves in the scratch and in the output's staging buffer, as store pieces), those
  contents position by position, the region invariant that carries the scratch, the pipeline's proof data and the body's obligation.
-/
import proofs.«121701_j44332652430130_2_alg».proof.Proof.Gen.KernelIdeal.Launch
import proofs.«121701_j44332652430130_2_alg».proof.Proof.Gen.KernelIdeal.Skeleton
import proofs.«121701_j44332652430130_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current staging buffer holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The body's two branch conditions, in closed form over the grid -/

/-- The first conditional (clear the accumulator): the innermost coordinate is 0. -/
abbrev cond0_0 (i : grid0.Coords) : Prop := (Scalar.cmpi .ne (Scalar.extui (Scalar.cmpi .eq (BitVec.ofNat 32 (i 2).val) 0#32)) 0#32) = 1#1
theorem hcond0_0 : ∀ t : Fin cfg0.N, cond0_0 (grid0.coords t) ↔ t.val % 2 = 0 :=
  (by decide +kernel : ∀ t : Fin grid0.N, cond0_0 (grid0.coords t) ↔ t.val % 2 = 0)

/-- The second conditional (store the mean): the innermost coordinate is 1. -/
abbrev cond0_1 (i : grid0.Coords) : Prop := k0_cond2 i = 1#1
theorem hcond0_1 : ∀ t : Fin cfg0.N, cond0_1 (grid0.coords t) ↔ t.val % 2 = 1 :=
  (by decide +kernel : ∀ t : Fin grid0.N, cond0_1 (grid0.coords t) ↔ t.val % 2 = 1)

/-! ## Where the windows are idle -/

theorem liveAt0_0 : ∀ t : Fin cfg0.N, cfg0.idle 0 (grid0.coords t) = false := by decide +kernel
theorem idleAt0_1_A : ∀ t : Fin cfg0.N, cond0_0 (grid0.coords t) → ¬cond0_1 (grid0.coords t) → cfg0.idle 1 (grid0.coords t) = true := by decide +kernel
theorem noFlush0_1_A : ∀ t : Fin cfg0.N, cond0_0 (grid0.coords t) → ¬cond0_1 (grid0.coords t) → (cfg0.win 1).flush t = false := by decide +kernel
theorem liveAt0_1_B : ∀ t : Fin cfg0.N, ¬cond0_0 (grid0.coords t) → cond0_1 (grid0.coords t) → cfg0.idle 1 (grid0.coords t) = false := by decide +kernel

/-! ## The memrefs the body is called with -/

abbrev VO0_1 : View sig .tc .vmem S8x128 .f32 := (Memref.whole cc0_stg1_0 : Memref sig .tc .vmem S8x128 .f32).view
abbrev ms0_0 (t : Fin cfg0.N) : Memref sig .tc .vmem S8x128x32x64 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8x128 .f32 := win0_1.stage (cfg0.slots t 1)
abbrev hs0_1 (t : Fin cfg0.N) : (ms0_1 t).IsWhole := hstage0_1 ((cfg0.slots t 1).cast nbuf0_1)
/-- The scratch accumulator: a whole scoped buffer of the kernel's own. -/
abbrev scM0_0 : Memref sig .tc .vmem S8x128 .f32 := Memref.whole cc0_scratch0
abbrev VS0_0 : View sig .tc .vmem S8x128 .f32 := scM0_0.view

/-- The scoped buffers that are neither this region's staging buffers nor its scratch (the other region's staging buffers), each at some contents. -/
def restS (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f))

/-- The class invariant with the scratch as a memref owned at some contents. -/
theorem PhiA0_eq (c : Dev nD) :
    (Pipeline.ΦA spec0 c : sProp 𝕄)
      = iprop(iprop((∃ d, owns (c : Thread nD τ) scM0_0 fullShare d) ∗ restS (F := F) c) ∗ (∃ r, prngReg c r)) := by
  unfold Pipeline.ΦA restS; rw [scopedRest0_eq]; simp only [scM0_0, owns_whole]; try rfl

/-! ## The body's run in each case: the store pieces are the witness the run finds -/

set_option maxHeartbeats 1000000 in
/-- FIRST TILE (clear, accumulate, no store into the output). -/
noncomputable def kernelRun0_A (c : Dev nD) (i : grid0.Coords) (arg3 : Memref sig .tc .vmem S8x128x32x64 .f32) (harg3 : arg3.IsWhole) (arg4 : Memref sig .tc .vmem S8x128 .f32) (harg4 : arg4.IsWhole) (arg5 : Memref sig .tc .vmem S8x128 .f32) (harg5 : arg5.IsWhole) (hc0 : cond0_0 i) (hc1 : ¬cond0_1 i)
    (x0 : Vec F S8x128x32x64 .f32) :
    Σ' (L1 : List (View.Piece (Elt F) S8x128 .f32)), { LS0 : List (View.Piece (Elt F) S8x128 .f32) //
      ∀ (xi1 : Vec F S8x128 .f32) (E : Set ℕ) (K : PUnit → sProp 𝕄),
        iprop(owns (c : Thread nD τ) arg3 fullShare x0 ∗ owns (c : Thread nD τ) arg4 fullShare xi1 ∗ (∃ d, owns (c : Thread nD τ) arg5 fullShare d)
            ∗ (iprop(owns (c : Thread nD τ) arg3 fullShare x0 ∗ owns (c : Thread nD τ) arg4 fullShare xi1 ∗ (∃ f, arg5.view.loc (c : Thread nD τ) ↦[arg5.view.set]{fullShare} arg5.view.writes (Elt F) f LS0)) -∗ K ⟨⟩))
          ⊢ wp frame (wpE (defs₀ (F := F)) Variants.none c none) E (cc0_kernel i arg3 harg3 arg4 harg4 arg5 harg5) K } := by
  refine ⟨[], ?_, fun xi1 E K => ?run⟩
  case run =>
    simp only [cc0_kernel_eq_skeleton]; unfold cc0_kernel_skel
    unfold owns
    iintro ⟨⟨%f0, %hf0, H0⟩, ⟨%f1, %hf1, H1⟩, ⟨%ds0, %fs0, -, HS0⟩, Hk⟩
    obtain rfl := harg3.eq_unread hf0; obtain rfl := harg4.eq_unread hf1
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    iexists _; iexact HS0

set_option maxHeartbeats 1000000 in
/-- SECOND TILE (accumulate onto what the first tile left, store the scaled accumulator into the output). -/
noncomputable def kernelRun0_B (c : Dev nD) (i : grid0.Coords) (arg3 : Memref sig .tc .vmem S8x128x32x64 .f32) (harg3 : arg3.IsWhole) (arg4 : Memref sig .tc .vmem S8x128 .f32) (harg4 : arg4.IsWhole) (arg5 : Memref sig .tc .vmem S8x128 .f32) (harg5 : arg5.IsWhole) (hc0 : ¬cond0_0 i) (hc1 : cond0_1 i)
    (x0 : Vec F S8x128x32x64 .f32) (xs0 : Vec F S8x128 .f32) :
    Σ' (L1 : List (View.Piece (Elt F) S8x128 .f32)), { LS0 : List (View.Piece (Elt F) S8x128 .f32) //
      ∀ (E : Set ℕ) (K : PUnit → sProp 𝕄),
        iprop(owns (c : Thread nD τ) arg3 fullShare x0 ∗ (∃ d, owns (c : Thread nD τ) arg4 fullShare d) ∗ owns (c : Thread nD τ) arg5 fullShare xs0
            ∗ (iprop(owns (c : Thread nD τ) arg3 fullShare x0 ∗ (∃ f, arg4.view.loc (c : Thread nD τ) ↦[arg4.view.set]{fullShare} arg4.view.writes (Elt F) f L1) ∗ (∃ f, arg5.view.loc (c : Thread nD τ) ↦[arg5.view.set]{fullShare} arg5.view.writes (Elt F) f LS0)) -∗ K ⟨⟩))
          ⊢ wp frame (wpE (defs₀ (F := F)) Variants.none c none) E (cc0_kernel i arg3 harg3 arg4 harg4 arg5 harg5) K } := by
  refine ⟨?_, ?_, fun E K => ?run⟩
  case run =>
    simp only [cc0_kernel_eq_skeleton]; unfold cc0_kernel_skel
    unfold owns
    iintro ⟨⟨%f0, %hf0, H0⟩, ⟨%d1, %f1, -, H1⟩, ⟨%fs0, %hfs0, HS0⟩, Hk⟩
    obtain rfl := harg3.eq_unread hf0; obtain rfl := harg5.eq_unread hfs0
    sl_exec (disch := first | exact hc0 | exact hc1)
    sl_step
    iapply Hk
    isplitl [H0]
    · iexists _; isplitr; · ipureintro; exact harg3.read_unread _
      iexact H0
    isplitl [H1]; · iexists _; iexact H1
    iexists _; iexact HS0

/-! ## What each case leaves -/

/-- The first tile stores nothing into the output window: a placeholder nothing consults (the window is idle there). -/
def out0_A_1 (c : Dev nD) (i : grid0.Coords) (arg3 : Memref sig .tc .vmem S8x128x32x64 .f32) (harg3 : arg3.IsWhole) (arg4 : Memref sig .tc .vmem S8x128 .f32) (harg4 : arg4.IsWhole) (arg5 : Memref sig .tc .vmem S8x128 .f32) (harg5 : arg5.IsWhole) (hc0 : cond0_0 i) (hc1 : ¬cond0_1 i)
    (x0 : Vec F S8x128x32x64 .f32) : Vec F S8x128 .f32 :=
  VO0_1.read (Elt F) (VO0_1.writes (Elt F) VO0_1.junk (kernelRun0_A c i arg3 harg3 arg4 harg4 arg5 harg5 hc0 hc1 x0).1)

/-- The first tile's stores into the scratch cover it. -/
theorem scover0_A_0 (c : Dev nD) (i : grid0.Coords) (arg3 : Memref sig .tc .vmem S8x128x32x64 .f32) (harg3 : arg3.IsWhole) (arg4 : Memref sig .tc .vmem S8x128 .f32) (harg4 : arg4.IsWhole) (arg5 : Memref sig .tc .vmem S8x128 .f32) (harg5 : arg5.IsWhole) (hc0 : cond0_0 i) (hc1 : ¬cond0_1 i)
    (x0 : Vec F S8x128x32x64 .f32) (y : S8x128.Idx) :
    ∃ pc ∈ (kernelRun0_A c i arg3 harg3 arg4 harg4 arg5 harg5 hc0 hc1 x0).2.1, y ∈ pc.1.set :=
  View.cover_of_tiledL (kernelRun0_A c i arg3 harg3 arg4 harg4 arg5 harg5 hc0 hc1 x0).2.1 S8x128.size (by sl_kernel_rfl) y

/-- What the first tile leaves in the scratch. -/
def sout0_A_0 (c : Dev nD) (i : grid0.Coords) (arg3 : Memref sig .tc .vmem S8x128x32x64 .f32) (harg3 : arg3.IsWhole) (arg4 : Memref sig .tc .vmem S8x128 .f32) (harg4 : arg4.IsWhole) (arg5 : Memref sig .tc .vmem S8x128 .f32) (harg5 : arg5.IsWhole) (hc0 : cond0_0 i) (hc1 : ¬cond0_1 i)
    (x0 : Vec F S8x128x32x64 .f32) : Vec F S8x128 .f32 :=
  VS0_0.read (Elt F) (VS0_0.writes (Elt F) VS0_0.junk (kernelRun0_A c i arg3 harg3 arg4 harg4 arg5 harg5 hc0 hc1 x0).2.1)

/-- The second tile's store into the output window covers its block. -/
theorem cover0_B_1 (c : Dev nD) (i : grid0.Coords) (arg3 : Memref sig .tc .vmem S8x128x32x64 .f32) (harg3 : arg3.IsWhole) (arg4 : Memref sig .tc .vmem S8x128 .f32) (harg4 : arg4.IsWhole) (arg5 : Memref sig .tc .vmem S8x128 .f32) (harg5 : arg5.IsWhole) (hc0 : ¬cond0_0 i) (hc1 : cond0_1 i)
    (x0 : Vec F S8x128x32x64 .f32) (xs0 : Vec F S8x128 .f32) (y : S8x128.Idx) :
    ∃ pc ∈ (kernelRun0_B c i arg3 harg3 arg4 harg4 arg5 harg5 hc0 hc1 x0 xs0).1, y ∈ pc.1.set :=
  View.cover_of_tiledL (kernelRun0_B c i arg3 harg3 arg4 harg4 arg5 harg5 hc0 hc1 x0 xs0).1 S8x128.size (by sl_kernel_rfl) y

/-- What the second tile leaves in the output window's staging buffer. -/
def out0_B_1 (c : Dev nD) (i : grid0.Coords) (arg3 : Memref sig .tc .vmem S8x128x32x64 .f32) (harg3 : arg3.IsWhole) (arg4 : Memref sig .tc .vmem S8x128 .f32) (harg4 : arg4.IsWhole) (arg5 : Memref sig .tc .vmem S8x128 .f32) (harg5 : arg5.IsWhole) (hc0 : ¬cond0_0 i) (hc1 : cond0_1 i)
    (x0 : Vec F S8x128x32x64 .f32) (xs0 : Vec F S8x128 .f32) : Vec F S8x128 .f32 :=
  VO0_1.read (Elt F) (VO0_1.writes (Elt F) VO0_1.junk (kernelRun0_B c i arg3 harg3 arg4 harg4 arg5 harg5 hc0 hc1 x0 xs0).1)

/-- The second tile's store into the scratch covers it. -/
theorem scover0_B_0 (c : Dev nD) (i : grid0.Coords) (arg3 : Memref sig .tc .vmem S8x128x32x64 .f32) (harg3 : arg3.IsWhole) (arg4 : Memref sig .tc .vmem S8x128 .f32) (harg4 : arg4.IsWhole) (arg5 : Memref sig .tc .vmem S8x128 .f32) (harg5 : arg5.IsWhole) (hc0 : ¬cond0_0 i) (hc1 : cond0_1 i)
    (x0 : Vec F S8x128x32x64 .f32) (xs0 : Vec F S8x128 .f32) (y : S8x128.Idx) :
    ∃ pc ∈ (kernelRun0_B c i arg3 harg3 arg4 harg4 arg5 harg5 hc0 hc1 x0 xs0).2.1, y ∈ pc.1.set :=
  View.cover_of_tiledL (kernelRun0_B c i arg3 harg3 arg4 harg4 arg5 harg5 hc0 hc1 x0 xs0).2.1 S8x128.size (by sl_kernel_rfl) y

/-- What the second tile leaves in the scratch. -/
def sout0_B_0 (c : Dev nD) (i : grid0.Coords) (arg3 : Memref sig .tc .vmem S8x128x32x64 .f32) (harg3 : arg3.IsWhole) (arg4 : Memref sig .tc .vmem S8x128 .f32) (harg4 : arg4.IsWhole) (arg5 : Memref sig .tc .vmem S8x128 .f32) (harg5 : arg5.IsWhole) (hc0 : ¬cond0_0 i) (hc1 : cond0_1 i)
    (x0 : Vec F S8x128x32x64 .f32) (xs0 : Vec F S8x128 .f32) : Vec F S8x128 .f32 :=
  VS0_0.read (Elt F) (VS0_0.writes (Elt F) VS0_0.junk (kernelRun0_B c i arg3 harg3 arg4 harg4 arg5 harg5 hc0 hc1 x0 xs0).2.1)

/-! ## The accumulation, position by position -/

/-- What the output window's staging buffer and the scratch hold after the body at position n: at an even position the first
    tile's contents, at an odd one the second tile's over the scratch the position before left. -/
def outsAt0 (c : Dev nD) : (n : ℕ) → n < cfg0.N → Vec F S8x128 .f32 × Vec F S8x128 .f32
  | 0, hn => (out0_A_1 c (grid0.coords ⟨0, hn⟩) (ms0_0 ⟨0, hn⟩) (hs0_0 ⟨0, hn⟩) (ms0_1 ⟨0, hn⟩) (hs0_1 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩),
      sout0_A_0 c (grid0.coords ⟨0, hn⟩) (ms0_0 ⟨0, hn⟩) (hs0_0 ⟨0, hn⟩) (ms0_1 ⟨0, hn⟩) (hs0_1 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩))
  | n + 1, hn =>
    if h0 : (n + 1) % 2 = 0 then
      (out0_A_1 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) ((hcond0_0 ⟨n + 1, hn⟩).mpr h0) (fun h => (fun h => by (try dsimp only at h); omega) ((hcond0_1 ⟨n + 1, hn⟩).mp h)) (iblk0 V c 0 ⟨n + 1, hn⟩),
        sout0_A_0 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) ((hcond0_0 ⟨n + 1, hn⟩).mpr h0) (fun h => (fun h => by (try dsimp only at h); omega) ((hcond0_1 ⟨n + 1, hn⟩).mp h)) (iblk0 V c 0 ⟨n + 1, hn⟩))
    else
      (out0_B_1 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => h0 ((hcond0_0 ⟨n + 1, hn⟩).mp h)) ((hcond0_1 ⟨n + 1, hn⟩).mpr (by (try dsimp only); omega)) (iblk0 V c 0 ⟨n + 1, hn⟩) (outsAt0 c n (Nat.lt_of_succ_lt hn)).2,
        sout0_B_0 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => h0 ((hcond0_0 ⟨n + 1, hn⟩).mp h)) ((hcond0_1 ⟨n + 1, hn⟩).mpr (by (try dsimp only); omega)) (iblk0 V c 0 ⟨n + 1, hn⟩) (outsAt0 c n (Nat.lt_of_succ_lt hn)).2)

/-- At an even position: the first tile's contents. -/
theorem outsAt0_A (c : Dev nD) (t : Fin cfg0.N) (h0 : t.val % 2 = 0) (h1 : ¬t.val % 2 = 1) :
    outsAt0 V c t.val t.isLt = (out0_A_1 c (grid0.coords t) (ms0_0 t) (hs0_0 t) (ms0_1 t) (hs0_1 t) scM0_0 (Memref.isWhole_whole _) ((hcond0_0 t).mpr h0) (fun h => h1 ((hcond0_1 t).mp h)) (iblk0 V c 0 t),
      sout0_A_0 c (grid0.coords t) (ms0_0 t) (hs0_0 t) (ms0_1 t) (hs0_1 t) scM0_0 (Memref.isWhole_whole _) ((hcond0_0 t).mpr h0) (fun h => h1 ((hcond0_1 t).mp h)) (iblk0 V c 0 t)) := by
  obtain ⟨n, hn⟩ := t
  cases n with
  | zero => exact rfl
  | succ n => exact (dif_pos h0).trans rfl

/-- At an odd position: the second tile's contents over what the position before left in the scratch. -/
theorem outsAt0_B (c : Dev nD) (t : Fin cfg0.N) (h0 : ¬t.val % 2 = 0) (h1 : t.val % 2 = 1) :
    outsAt0 V c t.val t.isLt = (out0_B_1 c (grid0.coords t) (ms0_0 t) (hs0_0 t) (ms0_1 t) (hs0_1 t) scM0_0 (Memref.isWhole_whole _) (fun h => h0 ((hcond0_0 t).mp h)) ((hcond0_1 t).mpr h1) (iblk0 V c 0 t) (outsAt0 V c (t.val - 1) (Nat.lt_of_le_of_lt (Nat.sub_le _ _) t.isLt)).2,
      sout0_B_0 c (grid0.coords t) (ms0_0 t) (hs0_0 t) (ms0_1 t) (hs0_1 t) scM0_0 (Memref.isWhole_whole _) (fun h => h0 ((hcond0_0 t).mp h)) ((hcond0_1 t).mpr h1) (iblk0 V c 0 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-! ## The region invariant -/

/-- Before position n: before the first point the class invariant (every scratch at anything); afterwards the scratch at what
    the position before left in it, the other region's staging buffers at anything, the generator register at some state. -/
def Phi0 (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ restS (F := F) c) ∗ (∃ r, prngReg c r))

theorem Phi0_zero (c : Dev nD) (n : ℕ) (h : n ≤ cfg0.N) (hz : n = 0) : Phi0 V c n h = Pipeline.ΦA spec0 c := by
  subst hz; rfl

theorem Phi0_succ (c : Dev nD) (n : ℕ) (hn : n < cfg0.N) :
    Phi0 V c (n + 1) hn = iprop(iprop(owns (c : Thread nD τ) scM0_0 fullShare ((outsAt0 V c n hn).2) ∗ restS (F := F) c) ∗ (∃ r, prngReg c r)) := rfl

theorem Phi0_pos (c : Dev nD) (n : ℕ) (h : n ≤ cfg0.N) (hz : n ≠ 0) :
    Phi0 V c n h = iprop(iprop(owns (c : Thread nD τ) scM0_0 fullShare ((outsAt0 V c (n - 1) (by omega)).2) ∗ restS (F := F) c) ∗ (∃ r, prngReg c r)) := by
  cases n with
  | zero => exact absurd rfl hz
  | succ n => rfl

/-! ## The pipeline's proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => (outsAt0 V c t.val t.isLt).1
  Φ t := Phi0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem Phi0_castSucc (c : Dev nD) (t : Fin cfg0.N) :
    (dat0 V c).Φ t.castSucc = Phi0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d

/-! ## The body's obligation, at a generic point -/

def bodyPre (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d)))

def bodyPost (c : Dev nD) (t : Fin cfg0.N) : sProp 𝕄 :=
  iprop((dat0 V c).Φ t.succ ∗ (dat0 V c).owesAt () t.succ
    ∗ (dat0 V c).leavesExact 0 t
    ∗ (dat0 V c).leavesExact 1 t)

set_option maxHeartbeats 4800000 in
/-- The body at any point: the input's staging buffer holds its block; the parity of the position says which tile it is; the
    invariant hands the body the scratch (at anything before an even position, at what the even position left before an odd
    one) and takes it back at this position's contents; the core owes nothing throughout. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0_0]
  rw [show (dat0 V c).owesAt () t.succ = (dat0 V c).owesAt () t.castSucc from rfl]
  rw [show (dat0 V c).Φ t.succ = Phi0 V c (t.val + 1) t.isLt from rfl, Phi0_succ]
  have hN : t.val < 16 := lt_of_lt_of_eq t.isLt (show cfg0.N = 16 from N_0)
  by_cases h0 : t.val % 2 = 0
  · have h1 : ¬t.val % 2 = 1 := by omega
    rw [show (dat0 V c).leavesExact 0 t = owns (c : Thread nD τ) (ms0_0 t) fullShare ((dat0 V c).after 0 t) from by
      unfold Dat.leavesExact; rw [liveAt0_0 t], after0_0]
    rw [Dat.leavesExact_idle (dat0 V c) 1 t (idleAt0_1_A t ((hcond0_0 t).mpr h0) (fun h => h1 ((hcond0_1 t).mp h))) (noFlush0_1_A t ((hcond0_0 t).mpr h0) (fun h => h1 ((hcond0_1 t).mp h)))]
    rw [outsAt0_A V c t h0 h1]
    unfold sout0_A_0; (try dsimp only)
    by_cases hz : t.val = 0
    · rw [Phi0_castSucc V c t, Phi0_zero V c _ _ hz, PhiA0_eq]
      iintro ⟨⟨⟨HS0, HR⟩, Hg⟩, Ho, ⟨%d0, H0⟩, ⟨%d1, H1⟩⟩
      iapply ((kernelRun0_A c (grid0.coords t) _ _ _ _ _ _ ((hcond0_0 t).mpr h0) (fun h => h1 ((hcond0_1 t).mp h)) (iblk0 V c 0 t)).2.2 _ Set.univ _)
      isplitl [H0]; · iexact H0
      isplitl [H1]; · iexact H1
      isplitl [HS0]; · iexact HS0
      iintro ⟨H0, H1, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_A_0 c _ _ _ _ _ _ _ _ _ _)
          iexact HR
        iexact Hg
      isplitl [Ho]; · iexact Ho
      isplitl [H0]; · iexact H0
      iexists _; iexact H1
    · rw [Phi0_castSucc V c t, Phi0_pos V c _ _ hz]
      iintro ⟨⟨⟨HS0, HR⟩, Hg⟩, Ho, ⟨%d0, H0⟩, ⟨%d1, H1⟩⟩
      iapply ((kernelRun0_A c (grid0.coords t) _ _ _ _ _ _ ((hcond0_0 t).mpr h0) (fun h => h1 ((hcond0_1 t).mp h)) (iblk0 V c 0 t)).2.2 _ Set.univ _)
      isplitl [H0]; · iexact H0
      isplitl [H1]; · iexact H1
      isplitl [HS0]; · iexists _; iexact HS0
      iintro ⟨H0, H1, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_A_0 c _ _ _ _ _ _ _ _ _ _)
          iexact HR
        iexact Hg
      isplitl [Ho]; · iexact Ho
      isplitl [H0]; · iexact H0
      iexists _; iexact H1
  · have h1 : t.val % 2 = 1 := by omega
    rw [show (dat0 V c).leavesExact 0 t = owns (c : Thread nD τ) (ms0_0 t) fullShare ((dat0 V c).after 0 t) from by
      unfold Dat.leavesExact; rw [liveAt0_0 t], after0_0]
    rw [show (dat0 V c).leavesExact 1 t = owns (c : Thread nD τ) (ms0_1 t) fullShare ((dat0 V c).after 1 t) from by
      unfold Dat.leavesExact; rw [liveAt0_1_B t (fun h => h0 ((hcond0_0 t).mp h)) ((hcond0_1 t).mpr h1)], after0_1]
    rw [outsAt0_B V c t h0 h1]
    unfold out0_B_1 sout0_B_0; (try dsimp only)
    have hz : t.val ≠ 0 := by omega
    rw [Phi0_castSucc V c t, Phi0_pos V c _ _ hz]
    iintro ⟨⟨⟨HS0, HR⟩, Hg⟩, Ho, ⟨%d0, H0⟩, ⟨%d1, H1⟩⟩
    iapply ((kernelRun0_B c (grid0.coords t) _ _ _ _ _ _ (fun h => h0 ((hcond0_0 t).mp h)) ((hcond0_1 t).mpr h1) (iblk0 V c 0 t) _).2.2 Set.univ _)
    isplitl [H0]; · iexact H0
    isplitl [H1]; · iexists _; iexact H1
    isplitl [HS0]; · iexact HS0
    iintro ⟨H0, ⟨%e1, H1⟩, ⟨%es0, HS0⟩⟩
    isplitl [HS0 HR Hg]
    · isplitl [HS0 HR]
      · isplitl [HS0]
        · unfold owns; iexists _; isplitr
          swap; · iexact HS0
          ipureintro; exact View.read_writes_of_cover _ _ _ _ _ (scover0_B_0 c _ _ _ _ _ _ _ _ _ _ _)
        iexact HR
      iexact Hg
    isplitl [Ho]; · iexact Ho
    isplitl [H0]; · iexact H0
    unfold owns; iexists _; isplitr
    swap; · iexact H1
    ipureintro; exact View.read_writes_of_cover _ _ _ _ _ (cover0_B_1 c _ _ _ _ _ _ _ _ _ _ _)

/-- The body's obligation, at every point. -/
theorem body_obligation0 (c : Dev nD) : BodyObligation (dat0 (F := F) V c) (defs₀ (F := F)) Variants.none () Set.univ := fun t => by
  rw [bigSep_W0, bigSep_W0]
  exact sound_body V c t

/-- What the launch hands the region (the class invariant) is the invariant before the first point. -/
theorem hin0 (c : Dev nD) : Pipeline.ΦA spec0 c ⊢ (dat0 V c).Φ 0 := by
  rw [show (dat0 V c).Φ 0 = Phi0 V c 0 (Nat.zero_le _) from rfl, Phi0_zero V c 0 _ rfl]
  try exact Idealize.SL.BI.Entails.refl _

/-- After any point but the first the invariant gives the class invariant back: the scratch's named contents are forgotten. -/
theorem Phi0_out (c : Dev nD) (t : Fin (cfg0.N + 1)) (ht : t.val ≠ 0) : (dat0 V c).Φ t ⊢ Pipeline.ΦA spec0 c := by
  rw [show (dat0 V c).Φ t = Phi0 V c t.val (Nat.le_of_lt_succ t.isLt) from rfl, Phi0_pos V c _ _ ht, PhiA0_eq]
  iintro ⟨⟨HS0, HR⟩, Hg⟩
  isplitl [HS0 HR]
  · isplitl [HS0]
    · iexists _; iexact HS0
    iexact HR
  iexact Hg

/-- After the last point the invariant gives the class invariant back. -/
theorem hout0 (c : Dev nD) : (dat0 V c).Φ (Fin.last cfg0.N) ⊢ Pipeline.ΦA spec0 c :=
  Phi0_out V c _ (by rw [Fin.val_last]; have : cfg0.N = 16 := N_0; omega)

end Cert.KernelIdeal.Hand

end
-- ==== Proof.Body1.lean ====
/-
  The second kernel region (the three-tap channel filter), at the buffer contents V it is entered from: the blocks its
  five windows stage at a grid point, what its body leaves in the output window's staging buffer as one function of the
  four input blocks, the proof data of its pipeline, and the body's obligation at every grid point.
-/
import proofs.«121701_j44332652430130_2_alg».proof.Proof.Gen.KernelIdeal.Launch
import proofs.«121701_j44332652430130_2_alg».proof.Proof.Gen.KernelIdeal.Skeleton
import proofs.«121701_j44332652430130_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The rectangles the body reads and writes: the whole image block, the three taps' rows of the filter block, a whole per-channel column. -/
abbrev rX1 : Rect S1x256x32x64 := Rect.unit (s := S1x256x32x64) ![0, 0, 0, 0] S1x256x32x64.size inb_S1x256x32x64_S1x256x32x64_0_0_0_0
abbrev rF0 : Rect S1x3x256x1x1 := Rect.unit (s := S1x3x256x1x1) ![0, 0, 0, 0, 0] S1x1x256x1x1.size inb_S1x3x256x1x1_S1x1x256x1x1_0_0_0_0_0
abbrev rF1 : Rect S1x3x256x1x1 := Rect.unit (s := S1x3x256x1x1) ![0, 1, 0, 0, 0] S1x1x256x1x1.size inb_S1x3x256x1x1_S1x1x256x1x1_0_1_0_0_0
abbrev rF2 : Rect S1x3x256x1x1 := Rect.unit (s := S1x3x256x1x1) ![0, 2, 0, 0, 0] S1x1x256x1x1.size inb_S1x3x256x1x1_S1x1x256x1x1_0_2_0_0_0
abbrev rC1 : Rect S256x1x1 := Rect.unit (s := S256x1x1) ![0, 0, 0] S256x1x1.size inb_S256x1x1_S256x1x1_0_0_0

/-- The output window's staging buffer after the body, from the four input blocks: its one whole-block store. -/
def out1_4 (x0 : Vec F S1x256x32x64 .f32) (x1 : Vec F S1x3x256x1x1 .f32) (x2 x3 : Vec F S256x1x1 .f32) : Vec F S1x256x32x64 .f32 :=
  View.canon [⟨rX1, k1_pay1 (k1_pay2 (View.ld x0 rX1) (View.ld x1 rF0) (View.ld x1 rF1) (View.ld x1 rF2) (View.ld x2 rC1) (View.ld x3 rC1))⟩]

/-- The pipeline's proof data: the arrays as the region finds them; after the body each input's buffer at its block and the
    output's at out1_4 of the input blocks; the class invariant; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_4 (c : Dev nD) (t : Fin cfg1.N) :
    (dat1 V c).after 4 t = out1_4 (iblk1 V c 0 t) (iblk1 V c 1 t) (iblk1 V c 2 t) (iblk1 V c 3 t) := by dsimp only [dat1]

/-! ## Each input's staging buffer at a point -/

/-- Input window 0's current staging buffer holds its block at every point, fetched there or not, for any proof data
    whose array is V's and whose body leaves the block in place: unfetched, the block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof data
    whose array is V's and whose body leaves the block in place: unfetched, the block index has not moved. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof data
    whose array is V's and whose body leaves the block in place: unfetched, the block index has not moved. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for any proof data
    whose array is V's and whose body leaves the block in place: unfetched, the block index has not moved. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The output's one store covers its buffer -/

/-- The whole-block store tiles the output buffer, so it covers it. -/
theorem cover1_4 (p0 : Vec F S1x256x32x64 .f32) (y : S1x256x32x64.Idx) :
    ∃ pc ∈ ([⟨rX1, p0⟩] : List (View.Piece (Elt F) S1x256x32x64 .f32)), y ∈ pc.1.set :=
  View.cover_of_tiled [⟨rX1, p0⟩] S1x256x32x64.size (by rfl) y

/-! ## The body's triple -/

set_option maxHeartbeats 1000000 in
/-- The kernel body on whole staging memrefs, the four inputs' at read contents and the output's at anything, runs to the
    continuation holding the inputs' as they were and the output's at out1_4 of the inputs'. -/
theorem sound_kernel1 (c : Dev nD) (E : Set ℕ) (i : grid1.Coords)
    (arg2 : Memref sig .tc .vmem S1x256x32x64 .f32) (harg2 : arg2.IsWhole)
    (arg3 : Memref sig .tc .vmem S1x3x256x1x1 .f32) (harg3 : arg3.IsWhole)
    (arg4 : Memref sig .tc .vmem S256x1x1 .f32) (harg4 : arg4.IsWhole)
    (arg5 : Memref sig .tc .vmem S256x1x1 .f32) (harg5 : arg5.IsWhole)
    (arg6 : Memref sig .tc .vmem S1x256x32x64 .f32) (harg6 : arg6.IsWhole)
    (x0 : Vec F S1x256x32x64 .f32) (x1 : Vec F S1x3x256x1x1 .f32) (x2 x3 : Vec F S256x1x1 .f32) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ (∃ d, owns (c : Thread nD τ) arg6 fullShare d)
        ∗ (iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare (out1_4 x0 x1 x2 x3)) -∗ K ⟨⟩))
      ⊢ wp frame (wpE (defs₀ (F := F)) Variants.none c none) E
          (cc1_kernel i arg2 harg2 arg3 harg3 arg4 harg4 arg5 harg5 arg6 harg6) K := by
  simp only [cc1_kernel_eq_skeleton]; unfold cc1_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  try dsimp only
  exact View.read_writes_eq_canon _ _ _ (cover1_4 _)

/-! ## What the body finds and leaves, window by window -/

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' memrefs hold their blocks, so the body's triple applies; the invariant and the
    core's owed term pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body's obligation at every grid point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.Run.lean ====
/-
  The kernel program's entry function as ONE run over three segments: the first kernel region (the average pool), the
  stretch of host operations between the two regions, and the second kernel region (the three-tap channel filter).
  The buffer contents at every boundary are a fold from the launch memory: a region leaves each of its windows' arrays at
  what its write-backs fold to and every other buffer as entered; the host stretch leaves what its operations compute.
  The run ends with every unscoped buffer of every core named; the eight arguments read back to their launch contents.
-/
import proofs.«121701_j44332652430130_2_alg».proof.Proof.Body0
import proofs.«121701_j44332652430130_2_alg».proof.Proof.Body1
import proofs.«121701_j44332652430130_2_alg».proof.Proof.Gen.KernelIdeal.Launch
import proofs.«121701_j44332652430130_2_alg».proof.Proof.Gen.KernelIdeal.Skeleton
import proofs.«121701_j44332652430130_2_alg».proof.Proof.Gen.KernelIdeal.Points
import proofs.«121701_j44332652430130_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary: a fold through the entry function -/

/-- Core c's buffers at launch: what the first region is entered from. -/
abbrev W0 : Dev nD → Valuation τ sig (Elt F) := fun c b => (s₀ m ρ).mem ((c : Dev nD), b)
/-- The same read at the TensorCore's references (what the first region's proof data take). -/
abbrev Vbefore0 : (c : Dev nD) → (b : Ref sig .tc) → Buf (Elt F) ((c : Thread nD τ).loc b) := fun c b => W0 m ρ c b
/-- At the first region's exit: its two arrays at what the pipeline leaves (the input as entered, the output's
    write-backs folded), every other buffer as entered. -/
def W1 (c : Dev nD) : Valuation τ sig (Elt F) :=
  Pipeline.withArrays spec0 c (W0 m ρ c) fun w => (dat0 (Vbefore0 m ρ) c).arrAt w cfg0.N
theorem W1_arr (c : Dev nD) (w : Fin cfg0.W) :
    W1 m ρ c (Proc.devRef .tc (Pipeline.arrRef spec0 w)) = (dat0 (Vbefore0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
/-- The same read at the TensorCore's references (the first region's exit contents). -/
abbrev Vafter0 : (c : Dev nD) → (b : Ref sig .tc) → Buf (Elt F) ((c : Thread nD τ).loc b) := fun c b => W1 m ρ c b
/-- At the first region's exit each of its arrays holds what the pipeline leaves and every other buffer what it held at entry. -/
theorem hF0 (c : Dev nD) (w : Fin cfg0.W) : (dat0 (Vbefore0 m ρ) c).arrAt w cfg0.N = Vafter0 m ρ c (Pipeline.arrRef spec0 w) :=
  (W1_arr m ρ c w).symm
theorem hrest0 (c : Dev nD) : ∀ b, b ∉ Finset.univ.image (Pipeline.arrRef spec0) → Vafter0 m ρ c b = Vbefore0 m ρ c b :=
  fun b hb => W1_of_ne m ρ c b fun w e => hb (Finset.mem_image.mpr ⟨w, Finset.mem_univ _, e⟩)

/-- After the host stretch: what the second region is entered from. -/
abbrev W2 : Dev nD → Valuation τ sig (Elt F) := fun c => StableHlo.after hostOps1 (W1 m ρ c)
/-- The same read at the TensorCore's references (what the second region's proof data take). -/
abbrev Vbefore1 : (c : Dev nD) → (b : Ref sig .tc) → Buf (Elt F) ((c : Thread nD τ).loc b) := fun c b => W2 m ρ c b
/-- A buffer no host operation writes is after the stretch what it was before it. -/
theorem W2_of (c : Dev nD) (r : Ref sig .tc) (h : r ∉ (hostOps1_W : List (Ref sig .tc))) :
    W2 m ρ c (Proc.devRef .tc r) = W1 m ρ c (Proc.devRef .tc r) :=
  StableHlo.after_of_writes_sub hostOps1 _ hostOps1_writes h
/-- At the second region's exit, which is the end of the run: its five arrays at what the pipeline leaves, every other
    buffer as entered. -/
def Wlast (c : Dev nD) : Valuation τ sig (Elt F) :=
  Pipeline.withArrays spec1 c (W2 m ρ c) fun w => (dat1 (Vbefore1 m ρ) c).arrAt w cfg1.N
theorem Wlast_arr (c : Dev nD) (w : Fin cfg1.W) :
    Wlast m ρ c (Proc.devRef .tc (Pipeline.arrRef spec1 w)) = (dat1 (Vbefore1 m ρ) c).arrAt w cfg1.N := by
  unfold Wlast; exact Pipeline.withArrays_arr spec1 launch1.win.arr_inj c _ _ w
theorem Wlast_of_ne (c : Dev nD) (b : Ref sig .tc) (hb : ∀ w, Pipeline.arrRef spec1 w ≠ b) :
    Wlast m ρ c (Proc.devRef .tc b) = W2 m ρ c (Proc.devRef .tc b) := by
  unfold Wlast; exact Pipeline.withArrays_of_ne spec1 c _ _ b hb
/-- The same read at the TensorCore's references (the second region's exit contents). -/
abbrev Vafter1 : (c : Dev nD) → (b : Ref sig .tc) → Buf (Elt F) ((c : Thread nD τ).loc b) := fun c b => Wlast m ρ c b
theorem hF1 (c : Dev nD) (w : Fin cfg1.W) : (dat1 (Vbefore1 m ρ) c).arrAt w cfg1.N = Vafter1 m ρ c (Pipeline.arrRef spec1 w) :=
  (Wlast_arr m ρ c w).symm
theorem hrest1 (c : Dev nD) : ∀ b, b ∉ Finset.univ.image (Pipeline.arrRef spec1) → Vafter1 m ρ c b = Vbefore1 m ρ c b :=
  fun b hb => Wlast_of_ne m ρ c b fun w e => hb (Finset.mem_image.mpr ⟨w, Finset.mem_univ _, e⟩)

/-! ## Reading the fold back

No host operation and no region writes an argument (a region reads one through an input window, whose array is never
written, or bypasses it), so the fold at an argument's buffer walks back to the launch memory. -/

/-- After the first region the image is as launched: it is the region's input window's array. -/
theorem W1_main_arg0 (c : Dev nD) : W1 m ρ c (Proc.devRef .tc main_arg0) = m ((c : Thread nD τ).loc main_arg0) :=
  (W1_arr m ρ c 0).trans (((dat0 (Vbefore0 m ρ) c).arrAt_in 0 rfl _).trans (A_eq0 (Vbefore0 m ρ) c 0))
/-- After the first region argument 1 is as launched: the region bypasses it. -/
theorem W1_main_arg1 (c : Dev nD) : W1 m ρ c (Proc.devRef .tc main_arg1) = m ((c : Thread nD τ).loc main_arg1) :=
  W1_of_ne m ρ c main_arg1 (by decide)
/-- After the first region argument 2 is as launched: the region bypasses it. -/
theorem W1_main_arg2 (c : Dev nD) : W1 m ρ c (Proc.devRef .tc main_arg2) = m ((c : Thread nD τ).loc main_arg2) :=
  W1_of_ne m ρ c main_arg2 (by decide)
/-- After the first region argument 3 is as launched: the region bypasses it. -/
theorem W1_main_arg3 (c : Dev nD) : W1 m ρ c (Proc.devRef .tc main_arg3) = m ((c : Thread nD τ).loc main_arg3) :=
  W1_of_ne m ρ c main_arg3 (by decide)
/-- After the first region argument 4 is as launched: the region bypasses it. -/
theorem W1_main_arg4 (c : Dev nD) : W1 m ρ c (Proc.devRef .tc main_arg4) = m ((c : Thread nD τ).loc main_arg4) :=
  W1_of_ne m ρ c main_arg4 (by decide)
/-- After the first region argument 5 is as launched: the region bypasses it. -/
theorem W1_main_arg5 (c : Dev nD) : W1 m ρ c (Proc.devRef .tc main_arg5) = m ((c : Thread nD τ).loc main_arg5) :=
  W1_of_ne m ρ c main_arg5 (by decide)
/-- After the first region argument 6 is as launched: the region bypasses it. -/
theorem W1_main_arg6 (c : Dev nD) : W1 m ρ c (Proc.devRef .tc main_arg6) = m ((c : Thread nD τ).loc main_arg6) :=
  W1_of_ne m ρ c main_arg6 (by decide)
/-- After the first region argument 7 is as launched: the region bypasses it. -/
theorem W1_main_arg7 (c : Dev nD) : W1 m ρ c (Proc.devRef .tc main_arg7) = m ((c : Thread nD τ).loc main_arg7) :=
  W1_of_ne m ρ c main_arg7 (by decide)
/-- After the first region its output array holds what its write-backs fold to. -/
theorem Wmid_v0 (c : Dev nD) : W1 m ρ c (Proc.devRef .tc main_v0) = (dat0 (Vbefore0 m ρ) c).arrAt 1 cfg0.N :=
  W1_arr m ρ c 1

/-- The second region is entered with argument 0 as launched: no host operation writes it. -/
theorem W2_main_arg0 (c : Dev nD) : W2 m ρ c (Proc.devRef .tc main_arg0) = m ((c : Thread nD τ).loc main_arg0) :=
  (W2_of m ρ c main_arg0 (by decide)).trans (W1_main_arg0 m ρ c)
/-- The second region is entered with argument 1 as launched: no host operation writes it. -/
theorem W2_main_arg1 (c : Dev nD) : W2 m ρ c (Proc.devRef .tc main_arg1) = m ((c : Thread nD τ).loc main_arg1) :=
  (W2_of m ρ c main_arg1 (by decide)).trans (W1_main_arg1 m ρ c)
/-- The second region is entered with argument 2 as launched: no host operation writes it. -/
theorem W2_main_arg2 (c : Dev nD) : W2 m ρ c (Proc.devRef .tc main_arg2) = m ((c : Thread nD τ).loc main_arg2) :=
  (W2_of m ρ c main_arg2 (by decide)).trans (W1_main_arg2 m ρ c)
/-- The second region is entered with argument 3 as launched: no host operation writes it. -/
theorem W2_main_arg3 (c : Dev nD) : W2 m ρ c (Proc.devRef .tc main_arg3) = m ((c : Thread nD τ).loc main_arg3) :=
  (W2_of m ρ c main_arg3 (by decide)).trans (W1_main_arg3 m ρ c)
/-- The second region is entered with argument 4 as launched: no host operation writes it. -/
theorem W2_main_arg4 (c : Dev nD) : W2 m ρ c (Proc.devRef .tc main_arg4) = m ((c : Thread nD τ).loc main_arg4) :=
  (W2_of m ρ c main_arg4 (by decide)).trans (W1_main_arg4 m ρ c)
/-- The second region is entered with argument 5 as launched: no host operation writes it. -/
theorem W2_main_arg5 (c : Dev nD) : W2 m ρ c (Proc.devRef .tc main_arg5) = m ((c : Thread nD τ).loc main_arg5) :=
  (W2_of m ρ c main_arg5 (by decide)).trans (W1_main_arg5 m ρ c)
/-- The second region is entered with argument 6 as launched: no host operation writes it. -/
theorem W2_main_arg6 (c : Dev nD) : W2 m ρ c (Proc.devRef .tc main_arg6) = m ((c : Thread nD τ).loc main_arg6) :=
  (W2_of m ρ c main_arg6 (by decide)).trans (W1_main_arg6 m ρ c)
/-- The second region is entered with argument 7 as launched: no host operation writes it. -/
theorem W2_main_arg7 (c : Dev nD) : W2 m ρ c (Proc.devRef .tc main_arg7) = m ((c : Thread nD τ).loc main_arg7) :=
  (W2_of m ρ c main_arg7 (by decide)).trans (W1_main_arg7 m ρ c)

/-- The second region's entry contents at the image, the two per-channel columns and the filter: the first three are
    the launch memory, the filter is what the host stretch computes from the first region's exit contents. -/
theorem Vbefore1_main_arg0 (c : Dev nD) : Vbefore1 m ρ c main_arg0 = m ((c : Thread nD τ).loc main_arg0) := W2_main_arg0 m ρ c
theorem Vbefore1_main_arg6 (c : Dev nD) : Vbefore1 m ρ c main_arg6 = m ((c : Thread nD τ).loc main_arg6) := W2_main_arg6 m ρ c
theorem Vbefore1_main_arg7 (c : Dev nD) : Vbefore1 m ρ c main_arg7 = m ((c : Thread nD τ).loc main_arg7) := W2_main_arg7 m ρ c
theorem Vbefore1_main_v20 (c : Dev nD) :
    Vbefore1 m ρ c main_v20 = StableHlo.after hostOps1 (W1 m ρ c) (Proc.devRef .tc main_v20) := rfl

theorem Wlast_main_arg0 (c : Dev nD) : Wlast m ρ c (Proc.devRef .tc main_arg0) = m ((c : Thread nD τ).loc main_arg0) :=
  calc Wlast m ρ c (Proc.devRef .tc main_arg0)
    _ = W2 m ρ c (Proc.devRef .tc main_arg0) :=
          (Wlast_arr m ρ c 0).trans (((dat1 (Vbefore1 m ρ) c).arrAt_in 0 rfl _).trans (A_eq1 (Vbefore1 m ρ) c 0))
    _ = m ((c : Thread nD τ).loc main_arg0) := W2_main_arg0 m ρ c

theorem Wlast_main_arg1 (c : Dev nD) : Wlast m ρ c (Proc.devRef .tc main_arg1) = m ((c : Thread nD τ).loc main_arg1) :=
  (Wlast_of_ne m ρ c main_arg1 (by decide)).trans (W2_main_arg1 m ρ c)
theorem Wlast_main_arg2 (c : Dev nD) : Wlast m ρ c (Proc.devRef .tc main_arg2) = m ((c : Thread nD τ).loc main_arg2) :=
  (Wlast_of_ne m ρ c main_arg2 (by decide)).trans (W2_main_arg2 m ρ c)
theorem Wlast_main_arg3 (c : Dev nD) : Wlast m ρ c (Proc.devRef .tc main_arg3) = m ((c : Thread nD τ).loc main_arg3) :=
  (Wlast_of_ne m ρ c main_arg3 (by decide)).trans (W2_main_arg3 m ρ c)
theorem Wlast_main_arg4 (c : Dev nD) : Wlast m ρ c (Proc.devRef .tc main_arg4) = m ((c : Thread nD τ).loc main_arg4) :=
  (Wlast_of_ne m ρ c main_arg4 (by decide)).trans (W2_main_arg4 m ρ c)
theorem Wlast_main_arg5 (c : Dev nD) : Wlast m ρ c (Proc.devRef .tc main_arg5) = m ((c : Thread nD τ).loc main_arg5) :=
  (Wlast_of_ne m ρ c main_arg5 (by decide)).trans (W2_main_arg5 m ρ c)

theorem Wlast_main_arg6 (c : Dev nD) : Wlast m ρ c (Proc.devRef .tc main_arg6) = m ((c : Thread nD τ).loc main_arg6) :=
  calc Wlast m ρ c (Proc.devRef .tc main_arg6)
    _ = W2 m ρ c (Proc.devRef .tc main_arg6) :=
          (Wlast_arr m ρ c 2).trans (((dat1 (Vbefore1 m ρ) c).arrAt_in 2 rfl _).trans (A_eq1 (Vbefore1 m ρ) c 2))
    _ = m ((c : Thread nD τ).loc main_arg6) := W2_main_arg6 m ρ c

theorem Wlast_main_arg7 (c : Dev nD) : Wlast m ρ c (Proc.devRef .tc main_arg7) = m ((c : Thread nD τ).loc main_arg7) :=
  calc Wlast m ρ c (Proc.devRef .tc main_arg7)
    _ = W2 m ρ c (Proc.devRef .tc main_arg7) :=
          (Wlast_arr m ρ c 3).trans (((dat1 (Vbefore1 m ρ) c).arrAt_in 3 rfl _).trans (A_eq1 (Vbefore1 m ρ) c 3))
    _ = m ((c : Thread nD τ).loc main_arg7) := W2_main_arg7 m ρ c

/-- At the end the result array holds what the second region's write-backs fold to. -/
theorem Wlast_out (c : Dev nD) : Wlast m ρ c (Proc.devRef .tc main_v21) = (dat1 (Vbefore1 m ρ) c).arrAt 4 cfg1.N :=
  Wlast_arr m ρ c 4

/-! ## The proof data family and the thread state -/

/-- Both pipelines' proof data, each at its region's entry contents: a literal match on the pipeline's index. -/
def pdats : (p : Fin 2) → (c : Dev nD) → Dat τ (Elt F) Unit ℕ (UR sig nD τ) ℕ (Pipeline.pin (pcfgs (F := F)) adm p) c
  | ⟨0, _⟩ => fun c => dat0 (Vbefore0 m ρ) c
  | ⟨1, _⟩ => fun c => dat1 (Vbefore1 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues, at nothing. -/
abbrev R (c : Dev nD) : sProp 𝕄 := iprop((∃ r, prngReg c r) ∗ ∃ W, owes (c : Thread nD τ) (0 : CellTallies nD τ sig Unit) W)
/-- The host stretch as a segment over the unscoped references from the contents W, R riding along: it ends with those
    references at the stretch's fold of W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator
    register at some state. -/
abbrev Tₙ (c : Dev nD) : sProp 𝕄 := iprop(StableHlo.held (c : Thread nD τ) (Pipeline.ucRefs τ sig) (Wlast m ρ c) ∗ ∃ r, prngReg c r)

/-! ## The regions as segments -/

set_option backward.isDefEq.respectTransparency.types false in
/-- The first region over the thread state: entered from every unscoped buffer at the launch contents, left at W1. Its
    arrays split out of the unscoped buffers and put back at the exit contents; the generator register and the scoped
    buffers no window stages go into the region's invariant at the first point and come back from it at the last;
    nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vbefore0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (Vbefore0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (Vbefore0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have hΦ : Pipeline.ΦA spec0 c ⊢ (pdats m ρ 0 c).Φ 0 := hin0 (Vbefore0 m ρ) c
    refine .trans ?_ hΦ
    unfold Pipeline.ΦA
    iintro ⟨Hp, -, Hr⟩
    isplitl [Hr]; · iexact Hr
    iexact Hp
  hout c := by
    rw [Pipeline.ownSems0_none]
    have hΦ : (pdats m ρ 0 c).Φ (Fin.last _) ⊢ Pipeline.ΦA spec0 c := hout0 (Vbefore0 m ρ) c
    refine hΦ.trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (Vbefore0 m ρ c) (Vafter0 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region over the thread state: entered from every unscoped buffer at W2, left at the last contents. Its
    arrays split out of the unscoped buffers and put back at the exit contents; the generator register into the
    region's invariant and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vbefore1 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (Vbefore1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (Vbefore1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (Vbefore1 m ρ c) (Vafter1 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The entry function as segments, and the launch -/

/-- The three segments in order: the first region, the host stretch from the first region's exit contents, the second region. -/
abbrev runSegs : List (Pipeline.Seg (pcfgs (F := F)) adm (pdats m ρ) () defs₀ 𝒱₀ L lv) :=
  [ .region (reg0 m ρ),
    .host (hseg hostOps1 hostOps1_sub hostOps1_fresh (W1 m ρ)),
    .region (reg1 m ρ) ]
/-- The entry function IS the run of the segments. -/
theorem main_run (c : Dev nD) : main (F := F) c = Pipeline.Seg.run (runSegs m ρ) :=
  main_segs adm (pdats m ρ) () 𝒱₀ L lv (hseg hostOps1 hostOps1_sub hostOps1_fresh (W1 m ρ)) (reg0 m ρ) (reg1 m ρ) rfl c

set_option backward.isDefEq.respectTransparency.types false in
/-- THE RUN. From any memory with zero counters, every weakly fair execution of the entry function on the TensorCores
    terminates, nothing faulting, and every final state holds, on every core, every unscoped buffer at the last
    boundary's contents. -/
theorem run : θ_run defs (onTc (τ := τ) (main (F := F))) ⟨m, fun _ => 0, ρ⟩
    (fun r => ∀ c : Dev nD, ∀ b ∈ Pipeline.ucRefs τ sig, r.2.mem (((c : Thread nD τ)).1, b) = Wlast m ρ c b) :=
  Pipeline.θ_run_regions_kit (pcfgs (F := F)) adm (pdats m ρ) () cellOf_inj emb₁ defs₀ 𝒱₀ L lv m ρ main (runSegs m ρ)
    (fun c Q => by rw [main_run m ρ c])
    (by simp only [runSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wlast m ρ c b)
    (hfin := fun c s' => by
      iintro ⟨⟨Hh, -⟩, HSI⟩
      unfold StableHlo.held
      imodintro
      iapply (pointsTo_read_all (Pipeline.ucRefs τ sig) (fun b => (((c : Thread nD τ)).1, b)) (Wlast m ρ c) s')
      isplitl [Hh] <;> iassumption)
    (hQ := fun s h => h)

/-- THE FRAME: the run, read at the eight arguments, each of which the fold walks back to the launch memory. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
    ⟨(h c _ (mem_uc main_arg0 (by decide))).trans (Wlast_main_arg0 m ρ c),
     (h c _ (mem_uc main_arg1 (by decide))).trans (Wlast_main_arg1 m ρ c),
     (h c _ (mem_uc main_arg2 (by decide))).trans (Wlast_main_arg2 m ρ c),
     (h c _ (mem_uc main_arg3 (by decide))).trans (Wlast_main_arg3 m ρ c),
     (h c _ (mem_uc main_arg4 (by decide))).trans (Wlast_main_arg4 m ρ c),
     (h c _ (mem_uc main_arg5 (by decide))).trans (Wlast_main_arg5 m ρ c),
     (h c _ (mem_uc main_arg6 (by decide))).trans (Wlast_main_arg6 m ρ c),
     (h c _ (mem_uc main_arg7 (by decide))).trans (Wlast_main_arg7 m ρ c)⟩) (run m ρ)

end Cert.KernelIdeal.Hand

end
-- ==== Proof.Spec.lean ====
/-
  The function both programs compute, stated once over the argument arrays, entry by entry, on the extended reals.

  For an image b and a channel c, gap is the mean of the 64·64 positions of channel c (the sum times 2^-12, the
  binary word 0x39800000).  filt is the filter generator: the contraction of the means with row k of the 1x1
  convolution, normalised by the inference statistics (subtract the mean, multiply by rsqrt (var + ε) with
  ε the word 0x3727C5AC, scale, shift) and passed through tanh; entry k = 256·j + c of it is tap j of channel c.
  comb is the three-tap filter ALONG THE CHANNEL AXIS with reflected ends: channel c reads its left neighbour
  (channel 1 at c = 0), itself, and its right neighbour (channel 254 at c = 255); then the residual
  combination  (·)·γ(c) + x·β(c).  out composes the three.
-/
import Idealize.ShloMosaic.PureOps.Ideal
import Idealize.ShloMosaic.Lib.ValueIdx

noncomputable section

namespace Cert.Spec

open Idealize.ShloMosaic Idealize.ShloMosaic.ValueIdx

abbrev SX : Shape := ⟨4, ![32, 256, 64, 64]⟩
abbrev SW : Shape := ⟨2, ![768, 256]⟩
abbrev SV : Shape := ⟨1, ![768]⟩
abbrev SC : Shape := ⟨3, ![256, 1, 1]⟩

/-- The mean of channel c of image b over its 64·64 positions: the sum times 2^-12. -/
def gap (x : SX.Idx → EReal) (b : Fin 32) (c : Fin 256) : EReal :=
  (∑ h : Fin 64, ∑ w : Fin 64, x (ix4 b c h w)) * Ideal.ofBits .f32 0x39800000#32

/-- Entry k of image b's generated filter. -/
def filt (g : Fin 32 → Fin 256 → EReal) (W : SW.Idx → EReal) (wt bias mean var : SV.Idx → EReal)
    (b : Fin 32) (k : Fin 768) : EReal :=
  Ideal.tanh ((((∑ c : Fin 256, g b c * W (ix2 k c)) - mean (ix1 k))
      * Ideal.rsqrt (var (ix1 k) + Ideal.ofBits .f32 0x3727C5AC#32)) * wt (ix1 k) + bias (ix1 k))

/-- The left neighbour of channel c under reflection: c - 1, and channel 1 at the first channel. -/
def left (c : Fin 256) : Fin 256 := if h : c.val = 0 then ⟨1, by omega⟩ else ⟨c.val - 1, by omega⟩
/-- The right neighbour of channel c under reflection: c + 1, and channel 254 at the last channel. -/
def right (c : Fin 256) : Fin 256 := if h : c.val = 255 then ⟨254, by omega⟩ else ⟨c.val + 1, by omega⟩

/-- The three taps along the channel axis and the residual combination, at one entry. -/
def comb (x : SX.Idx → EReal) (f : Fin 32 → Fin 3 → Fin 256 → EReal) (γ β : SC.Idx → EReal)
    (b : Fin 32) (c : Fin 256) (h w : Fin 64) : EReal :=
  ((f b 0 c * x (ix4 b (left c) h w) + f b 1 c * x (ix4 b c h w)) + f b 2 c * x (ix4 b (right c) h w))
      * γ (ix3 c 0 0) + x (ix4 b c h w) * β (ix3 c 0 0)

/-- Tap j of channel c is entry 256·j + c of the generated filter. -/
def tap (j : Fin 3) (c : Fin 256) : Fin 768 := ⟨256 * j.val + c.val, by omega⟩

/-- The whole function, at one entry. -/
def out (x : SX.Idx → EReal) (W : SW.Idx → EReal) (wt bias mean var : SV.Idx → EReal) (γ β : SC.Idx → EReal)
    (b : Fin 32) (c : Fin 256) (h w : Fin 64) : EReal :=
  comb x (fun b j c => filt (gap x) W wt bias mean var b (tap j c)) γ β b c h w

end Cert.Spec

end
-- ==== Proof.Val0.lean ====
/-
  What the first kernel region leaves in its result array, at the ideal instance: entry (b, c) is the sum of channel c of
  image b over its 64 rows and 64 columns, times 2^-12.

  The second tile's run stores (acc + its tile's sum) * 2^-12 where acc is what the first tile's run left in the scratch,
  0 + the first tile's sum; a tile's sum is the sum over its 32 rows of the sums over the 64 columns (two lane
  reductions). The two tiles of a block are rows 0..31 and 32..63, so the two partial sums are the sum over all 64 rows.
  The grid point that writes back entry (b, c) is the odd position 4 (b / 8) + 2 (c / 128) + 1.
-/
import proofs.«121701_j44332652430130_2_alg».proof.Proof.Body0
import proofs.«121701_j44332652430130_2_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Val0

open Cert.KernelIdeal Cert.KernelIdeal.Gen Cert.KernelIdeal.Hand Idealize.ShloMosaic.ValueIdx

theorem hz2 : (![0, 0] : Fin 2 → Nat) = fun _ => 0 := funext fun a => by fin_cases a <;> rfl
theorem hz4 : (![0, 0, 0, 0] : Fin 4 → Nat) = fun _ => 0 := funext fun a => by fin_cases a <;> rfl

/-! ## The store pieces the two runs found, as payloads of the loaded blocks (any float instance) -/

section Pieces
variable {F : FTy → Type} [FloatOps F]

theorem sout_A (c : Dev nD) (i : grid0.Coords) (a3 : Memref sig .tc .vmem S8x128x32x64 .f32) (h3 : a3.IsWhole) (a4 : Memref sig .tc .vmem S8x128 .f32) (h4 : a4.IsWhole) (a5 : Memref sig .tc .vmem S8x128 .f32) (h5 : a5.IsWhole) (hc0 : cond0_0 i) (hc1 : ¬cond0_1 i)
    (x : Vec F S8x128x32x64 .f32) : sout0_A_0 c i a3 h3 a4 h4 a5 h5 hc0 hc1 x = k0_pay2 x (k0_pay1 (F := F)) := by
  unfold sout0_A_0
  rw [View.read_writes_eq_canon _ _ _ (scover0_A_0 c i a3 h3 a4 h4 a5 h5 hc0 hc1 x)]
  unfold kernelRun0_A
  dsimp only
  sl_unfold_words
  rw [View.canon_cons_unit_zero (S := S8x128) hz2, View.readCov_unit_zero (S := S8x128) _ hz2]
  simp only [View.readAt_eq_ld, h3.read_unread, View.ld_unit_zero (S := S8x128x32x64) hz4]

theorem sout_B (c : Dev nD) (i : grid0.Coords) (a3 : Memref sig .tc .vmem S8x128x32x64 .f32) (h3 : a3.IsWhole) (a4 : Memref sig .tc .vmem S8x128 .f32) (h4 : a4.IsWhole) (a5 : Memref sig .tc .vmem S8x128 .f32) (h5 : a5.IsWhole) (hc0 : ¬cond0_0 i) (hc1 : cond0_1 i)
    (x : Vec F S8x128x32x64 .f32) (xs : Vec F S8x128 .f32) : sout0_B_0 c i a3 h3 a4 h4 a5 h5 hc0 hc1 x xs = k0_pay2 x xs := by
  unfold sout0_B_0
  rw [View.read_writes_eq_canon _ _ _ (scover0_B_0 c i a3 h3 a4 h4 a5 h5 hc0 hc1 x xs)]
  unfold kernelRun0_B
  dsimp only
  sl_unfold_words
  rw [View.canon_unit_zero hz2]
  simp only [View.readAt_eq_ld, h3.read_unread, h5.read_unread, View.ld_unit_zero (S := S8x128x32x64) hz4, View.ld_unit_zero (S := S8x128) hz2]

theorem out_B (c : Dev nD) (i : grid0.Coords) (a3 : Memref sig .tc .vmem S8x128x32x64 .f32) (h3 : a3.IsWhole) (a4 : Memref sig .tc .vmem S8x128 .f32) (h4 : a4.IsWhole) (a5 : Memref sig .tc .vmem S8x128 .f32) (h5 : a5.IsWhole) (hc0 : ¬cond0_0 i) (hc1 : cond0_1 i)
    (x : Vec F S8x128x32x64 .f32) (xs : Vec F S8x128 .f32) : out0_B_1 c i a3 h3 a4 h4 a5 h5 hc0 hc1 x xs = k0_pay3 (k0_pay2 x xs) := by
  unfold out0_B_1
  rw [View.read_writes_eq_canon _ _ _ (cover0_B_1 c i a3 h3 a4 h4 a5 h5 hc0 hc1 x xs)]
  unfold kernelRun0_B
  dsimp only
  sl_unfold_words
  rw [View.canon_unit_zero hz2, View.readCov_unit_zero (S := S8x128) _ hz2]
  simp only [View.readAt_eq_ld, h3.read_unread, h5.read_unread, View.ld_unit_zero (S := S8x128x32x64) hz4, View.ld_unit_zero (S := S8x128) hz2]

end Pieces

/-! ## The payloads at an entry, over the extended reals -/

theorem pay1_apply (j : S8x128.Idx) : k0_pay1 (F := Ideal) j = 0 := by
  unfold k0_pay1
  simp only [shapeCast_self]
  exact Ideal.ofBits_zero_f32

theorem pay2_apply (x : Vec Ideal S8x128x32x64 .f32) (a : Vec Ideal S8x128 .f32) (p : Fin 8) (q : Fin 128) :
    k0_pay2 (F := Ideal) x a (ix2 p q) = a (ix2 p q) + ∑ r : Fin 32, ∑ w : Fin 64, x (ix4 p q r w) := by
  unfold k0_pay2
  simp only [shapeCast_self]
  show a (ix2 p q) + (multiReduction (F := Ideal) .add [2] S8x128 _ 0x00000000#32 reduces_S8x128x32_S8x128 (.inl rfl) rfl : S8x128.Idx → EReal) (ix2 p q) = _
  congr 1
  refine (Ideal.multiReduction_add_single _ 0x00000000#32 reduces_S8x128x32_S8x128 (.inl rfl) rfl (ix2 p q)).trans ?_
  refine Finset.sum_congr rfl fun r _ => ?_
  refine (Ideal.multiReduction_add_single x 0x00000000#32 reduces_S8x128x32x64_S8x128x32 (.inl rfl) rfl _).trans ?_
  refine Finset.sum_congr rfl fun w _ => congrArg x ?_
  funext a
  match a with
  | ⟨0, _⟩ => rfl
  | ⟨1, _⟩ => rfl
  | ⟨2, _⟩ => rfl
  | ⟨3, _⟩ => rfl

theorem pay3_apply (a : Vec Ideal S8x128 .f32) (j : S8x128.Idx) :
    k0_pay3 (F := Ideal) a j = a j * Ideal.ofBits .f32 0x39800000#32 := rfl

/-- The sum over 64 rows is the first 32 rows' sum (started from 0) plus the last 32 rows' sum. -/
theorem split64 (f : Fin 64 → EReal) :
    (0 + ∑ r : Fin 32, f ⟨r.val, by omega⟩) + ∑ r : Fin 32, f ⟨32 + r.val, by omega⟩ = ∑ h : Fin 64, f h := by
  rw [zero_add]
  exact (Fin.sum_univ_add (a := 32) (b := 32) (fun h : Fin (32 + 32) => f h)).symm

/-! ## The printed index maps in closed form, decided over the grid -/

theorem idx_facts0 : ∀ t : Fin cfg0.N, win0_0.index t (0 : Fin 4) = t.val / 4 ∧ win0_0.index t (1 : Fin 4) = t.val / 2 % 2
    ∧ win0_0.index t (2 : Fin 4) = t.val % 2 ∧ win0_0.index t (3 : Fin 4) = 0
    ∧ win0_1.index t (0 : Fin 2) = t.val / 4 ∧ win0_1.index t (1 : Fin 2) = t.val / 2 % 2 :=
  (by decide +kernel : ∀ t : Fin grid0.N, _)

variable (V : (c : Dev nD) → (b : Ref sig .tc) → Buf (Elt Ideal) ((c : Thread nD τ).loc b))

/-- The image window's block at a point, at an entry: rows 32 (t mod 2) + r of channels 128 (t / 2 mod 2) + q of images 8 (t / 4) + p. -/
theorem iblk_apply (c : Dev nD) (t : Fin cfg0.N) (p : Fin 8) (q : Fin 128) (r : Fin 32) (w : Fin 64)
    (b : Fin 32) (ch : Fin 256) (h : Fin 64) (hb : b.val = 8 * (t.val / 4) + p.val) (hch : ch.val = 128 * (t.val / 2 % 2) + q.val)
    (hh : h.val = 32 * (t.val % 2) + r.val) :
    (iblk0 V c 0 t : S8x128x32x64.Idx → EReal) (ix4 p q r w) = (V c main_arg0 : S32x256x64x64.Idx → EReal) (ix4 b ch h w) := by
  obtain ⟨e0, e1, e2, e3, -, -⟩ := idx_facts0 t
  unfold iblk0
  rw [View.read_apply]
  show V c main_arg0 (((cfg0.win 0).blk t).view.emb (ix4 p q r w)) = V c main_arg0 (ix4 b ch h w)
  refine congrArg (V c main_arg0) ?_
  funext a; apply Fin.ext
  match a with
  | ⟨0, _⟩ => show win0_0.index t (0 : Fin 4) * 8 + 1 * p.val = b.val; rw [e0, hb]; omega
  | ⟨1, _⟩ => show win0_0.index t (1 : Fin 4) * 128 + 1 * q.val = ch.val; rw [e1, hch]; omega
  | ⟨2, _⟩ => show win0_0.index t (2 : Fin 4) * 32 + 1 * r.val = h.val; rw [e2, hh]; omega
  | ⟨3, _⟩ => show win0_0.index t (3 : Fin 4) * 64 + 1 * w.val = w.val; rw [e3]; omega

/-- After an even position the scratch holds 0 + that tile's sum (as payloads). -/
theorem scratch_even (c : Dev nD) (t : Fin cfg0.N) (h0 : t.val % 2 = 0) :
    (outsAt0 V c t.val t.isLt).2 = k0_pay2 (iblk0 V c 0 t) (k0_pay1 (F := Ideal)) := by
  have h1 : ¬t.val % 2 = 1 := by omega
  refine (congrArg Prod.snd (outsAt0_A V c t h0 h1)).trans ?_
  exact sout_A (F := Ideal) c (grid0.coords t) (ms0_0 t) (hs0_0 t) (ms0_1 t) (hs0_1 t) scM0_0 (Memref.isWhole_whole _) ((hcond0_0 t).mpr h0) (fun h => h1 ((hcond0_1 t).mp h)) (iblk0 V c 0 t)

/-- After an odd position the output window's staging buffer holds the scaled accumulator (as payloads). -/
theorem out_oddv (c : Dev nD) (t : Fin cfg0.N) (h1 : t.val % 2 = 1) :
    (outsAt0 V c t.val t.isLt).1
      = k0_pay3 (k0_pay2 (iblk0 V c 0 t) (outsAt0 V c (t.val - 1) (Nat.lt_of_le_of_lt (Nat.sub_le _ _) t.isLt)).2) := by
  have h0 : ¬t.val % 2 = 0 := by omega
  refine (congrArg Prod.fst (outsAt0_B V c t h0 h1)).trans ?_
  exact out_B (F := Ideal) c (grid0.coords t) (ms0_0 t) (hs0_0 t) (ms0_1 t) (hs0_1 t) scM0_0 (Memref.isWhole_whole _) (fun h => h0 ((hcond0_0 t).mp h)) ((hcond0_1 t).mpr h1) (iblk0 V c 0 t) _

/-- The two tiles' partial sums of a block's entry, read off the image, are the whole sum over the 64 rows. -/
theorem two_tiles (x : S32x256x64x64.Idx → EReal) (y0 y1 : S8x128x32x64.Idx → EReal) (p : Fin 8) (q : Fin 128) (b : Fin 32) (ch : Fin 256)
    (h0 : ∀ (r : Fin 32) (w : Fin 64), y0 (ix4 p q r w) = x (ix4 b ch ⟨r.val, by omega⟩ w))
    (h1 : ∀ (r : Fin 32) (w : Fin 64), y1 (ix4 p q r w) = x (ix4 b ch ⟨32 + r.val, by omega⟩ w)) :
    ((0 : EReal) + ∑ r : Fin 32, ∑ w : Fin 64, y0 (ix4 p q r w)) + ∑ r : Fin 32, ∑ w : Fin 64, y1 (ix4 p q r w)
      = ∑ h : Fin 64, ∑ w : Fin 64, x (ix4 b ch h w) := by
  rw [← split64 (fun h => ∑ w : Fin 64, x (ix4 b ch h w))]
  congr 1
  · congr 1
    exact Finset.sum_congr rfl fun r _ => Finset.sum_congr rfl fun w _ => h0 r w
  · exact Finset.sum_congr rfl fun r _ => Finset.sum_congr rfl fun w _ => h1 r w

/-- What the output window's staging buffer holds after an odd position: the means of the block's channels. -/
theorem out_odd (c : Dev nD) (t : Fin cfg0.N) (h1 : t.val % 2 = 1) (p : Fin 8) (q : Fin 128)
    (b : Fin 32) (ch : Fin 256) (hb : b.val = 8 * (t.val / 4) + p.val) (hch : ch.val = 128 * (t.val / 2 % 2) + q.val) :
    ((outsAt0 V c t.val t.isLt).1 : S8x128.Idx → EReal) (ix2 p q) = Cert.Spec.gap (V c main_arg0) b ch := by
  have hN : t.val < 16 := lt_of_lt_of_eq t.isLt (show cfg0.N = 16 from N_0)
  have hlt' : t.val - 1 < cfg0.N := Nat.lt_of_le_of_lt (Nat.sub_le _ _) t.isLt
  have hs : (outsAt0 V c (t.val - 1) hlt').2 = k0_pay2 (iblk0 V c 0 ⟨t.val - 1, hlt'⟩) (k0_pay1 (F := Ideal)) :=
    scratch_even V c ⟨t.val - 1, hlt'⟩ (by show (t.val - 1) % 2 = 0; omega)
  rw [out_oddv V c t h1, pay3_apply, pay2_apply, hs, pay2_apply, pay1_apply]
  unfold Cert.Spec.gap
  refine congrArg (· * Ideal.ofBits .f32 0x39800000#32) ?_
  exact two_tiles (V c main_arg0) (iblk0 V c 0 ⟨t.val - 1, hlt'⟩) (iblk0 V c 0 t) p q b ch
    (fun r w => iblk_apply V c ⟨t.val - 1, hlt'⟩ p q r w b ch ⟨r.val, by omega⟩ (by show b.val = 8 * ((t.val - 1) / 4) + p.val; omega)
        (by show ch.val = 128 * ((t.val - 1) / 2 % 2) + q.val; omega) (by show r.val = 32 * ((t.val - 1) % 2) + r.val; omega))
    (fun r w => iblk_apply V c t p q r w b ch ⟨32 + r.val, by omega⟩ hb hch (by show 32 + r.val = 32 * (t.val % 2) + r.val; omega))

/-! ## From blocks to the array -/

/-- The result array: the mean of every channel of every image. -/
abbrev G (c : Dev nD) : Buf (Elt Ideal) ((c : Thread nD τ).loc main_v0) := fun j => Cert.Spec.gap (V c main_arg0) (j 0) (j 1)

theorem flushed_eq (c : Dev nD) (t : Fin cfg0.N) (hf : (cfg0.win 1).flush t = true) :
    (dat0 V c).flushed 1 t = ((cfg0.win 1).blk t).view.read (Elt Ideal) (G V c) := by
  have h1 : t.val % 2 = 1 := (flush0_1 t).mp hf
  have hN : t.val < 16 := lt_of_lt_of_eq t.isLt (show cfg0.N = 16 from N_0)
  obtain ⟨-, -, -, -, e4, e5⟩ := idx_facts0 t
  show (cfg0.win 1).cut (grid0.coords t) ((dat0 V c).after 1 t) = _
  rw [after0_1]
  funext j
  obtain ⟨p, q, rfl⟩ : ∃ (p : Fin 8) (q : Fin 128), j = ix2 p q := ⟨j 0, j 1, eq_ix2 j⟩
  show ((outsAt0 V c t.val t.isLt).1 : S8x128.Idx → EReal) (ix2 p q) = G V c (((cfg0.win 1).blk t).view.emb (ix2 p q))
  refine out_odd V c t h1 p q _ _ ?_ ?_
  · show win0_1.index t (0 : Fin 2) * 8 + 1 * p.val = 8 * (t.val / 4) + p.val; rw [e4]; omega
  · show win0_1.index t (1 : Fin 2) * 128 + 1 * q.val = 128 * (t.val / 2 % 2) + q.val; rw [e5]; omega

theorem mem_blk (t : Fin cfg0.N) (i : S32x256.Idx) :
    i ∈ ((cfg0.win 1).blk t).view.set ↔ ∀ a : Fin 2, win0_1.index t a * S8x128.size a ≤ (i a).val ∧ (i a).val < win0_1.index t a * S8x128.size a + S8x128.size a := by
  show i ∈ ((View.whole main_v0).slice (win0_1.rect t)).set ↔ _
  rw [View.set_slice_whole, Rect.mem_set_unit]
  exact Iff.rfl

/-- Every entry of the result array is written back by the odd position of its block. -/
theorem cover (i : S32x256.Idx) : ∃ t : Fin cfg0.N, (cfg0.win 1).flush t = true ∧ i ∈ ((cfg0.win 1).blk t).view.set := by
  have hi0 : (i 0).val < 32 := (i 0).isLt
  have hi1 : (i 1).val < 256 := (i 1).isLt
  have hN : cfg0.N = 16 := N_0
  let t : Fin cfg0.N := ⟨4 * ((i 0).val / 8) + 2 * ((i 1).val / 128) + 1, by rw [hN]; omega⟩
  have htv : t.val = 4 * ((i 0).val / 8) + 2 * ((i 1).val / 128) + 1 := rfl
  obtain ⟨-, -, -, -, e4, e5⟩ := idx_facts0 t
  refine ⟨t, (flush0_1 t).mpr (by rw [htv]; omega), ?_⟩
  rw [mem_blk]
  intro a
  match a with
  | ⟨0, _⟩ => show win0_1.index t (0 : Fin 2) * 8 ≤ (i 0).val ∧ (i 0).val < win0_1.index t (0 : Fin 2) * 8 + 8; rw [e4, htv]; omega
  | ⟨1, _⟩ => show win0_1.index t (1 : Fin 2) * 128 ≤ (i 1).val ∧ (i 1).val < win0_1.index t (1 : Fin 2) * 128 + 128; rw [e5, htv]; omega

/-- THE RESULT ARRAY of the first region: the mean of every channel of every image. -/
theorem gap_eq (c : Dev nD) : (dat0 V c).arrAt 1 cfg0.N = G V c :=
  (dat0 V c).arrAt_eq_of_cover 1 (G V c) (flushed_eq V c) (cover)

end Cert.KernelIdeal.Val0

end
-- ==== Proof.Val1.lean ====
/-
  The second kernel region's output array, at the extended reals: the three-tap channel filter with reflected ends and
  the residual combination, read entry by entry off the four arrays the region stages.
-/
import proofs.«121701_j44332652430130_2_alg».proof.Proof.Body1
import proofs.«121701_j44332652430130_2_alg».proof.Proof.Spec
import Idealize.ShloMosaic.Lib.Pipeline.Value
import Idealize.ShloMosaic.Lib.ValueLayout
import Idealize.ShloMosaic.Lib.ValueIdx

set_option maxRecDepth 16384

noncomputable section

namespace Cert.KernelIdeal.Val1

open Cert.KernelIdeal Cert.KernelIdeal.Gen
open Idealize.ShloMosaic Idealize.ShloMosaic.TcCoe Idealize.SL.Sem Idealize.ShloMosaic.ValueIdx
open Idealize.ShloMosaic.Pipeline (Dat)

/-! ## The layout operations of the body, read at an index -/

section Layout
variable {α : Type}

/-- The image block without its unit axis. -/
theorem rows_apply (x0 : S1x256x32x64.Idx → α) (ch : Fin 256) (h : Fin 32) (w : Fin 64) :
    shapeCast S256x32x64 x0 shapeCasts_S1x256x32x64_S256x32x64 (ix3 ch h w) = x0 (ix4 (0 : Fin 1) ch h w) :=
  shapeCast_1abc_abc_apply x0 _ ch h w

/-- The unit axis put back. -/
theorem unrows_apply (v : S256x32x64.Idx → α) (u : Fin 1) (ch : Fin 256) (h : Fin 32) (w : Fin 64) :
    shapeCast S1x256x32x64 v shapeCasts_S256x32x64_S1x256x32x64 (ix4 u ch h w) = v (ix3 ch h w) :=
  shapeCast_abc_1abc_apply v _ u ch h w

/-- Row 1 in front of rows 0 to 254: row ch is the left neighbour's under reflection. -/
theorem left_apply (v : S256x32x64.Idx → α) (ch : Fin 256) (h : Fin 32) (w : Fin 64) :
    concatenate S256x32x64 0 [⟨S1x32x64, extractStridedSlice S1x32x64 ![1, 0, 0] v slices_S256x32x64_o1_0_0_S1x32x64⟩,
        ⟨S255x32x64, extractStridedSlice S255x32x64 ![0, 0, 0] v slices_S256x32x64_o0_0_0_S255x32x64⟩]
        concatenates_S1x32x64_S255x32x64_S256x32x64_d0 (ix3 ch h w)
      = v (ix3 (Cert.Spec.left ch) h w) := by
  have hch : ch.val < 256 := ch.isLt
  by_cases hc : ch.val = 0
  · refine (concatenate_pair_apply_left (s₁ := S1x32x64) (s₂ := S255x32x64) (t := S256x32x64) _ _ _ _ (ix3 ch h w) rfl (ix3 (0 : Fin 1) h w) (fun b => ?_)).trans ?_
    · match b with
      | ⟨0, _⟩ => show (0 : Nat) = ch.val; omega
      | ⟨1, _⟩ => rfl
      | ⟨2, _⟩ => rfl
    · refine extractStridedSlice_apply _ v _ _ _ (fun a => ?_)
      match a with
      | ⟨0, _⟩ => show (Cert.Spec.left ch).val = 1 + 0; unfold Cert.Spec.left; rw [dif_pos hc]
      | ⟨1, _⟩ => show h.val = 0 + h.val; omega
      | ⟨2, _⟩ => show w.val = 0 + w.val; omega
  · refine (concatenate_pair_apply_right (s₁ := S1x32x64) (s₂ := S255x32x64) (t := S256x32x64) _ _ _ _ (ix3 ch h w) rfl rfl (ix3 (⟨ch.val - 1, by omega⟩ : Fin 255) h w) (fun b hb => ?_) ?_).trans ?_
    · match b with
      | ⟨0, _⟩ => exact absurd rfl hb
      | ⟨1, _⟩ => rfl
      | ⟨2, _⟩ => rfl
    · show ch.val - 1 + 1 = ch.val; omega
    · refine extractStridedSlice_apply _ v _ _ _ (fun a => ?_)
      match a with
      | ⟨0, _⟩ => show (Cert.Spec.left ch).val = 0 + (ch.val - 1); unfold Cert.Spec.left; rw [dif_neg hc]; show ch.val - 1 = _; omega
      | ⟨1, _⟩ => show h.val = 0 + h.val; omega
      | ⟨2, _⟩ => show w.val = 0 + w.val; omega

/-- Rows 1 to 255 in front of row 254: row ch is the right neighbour's under reflection. -/
theorem right_apply (v : S256x32x64.Idx → α) (ch : Fin 256) (h : Fin 32) (w : Fin 64) :
    concatenate S256x32x64 0 [⟨S255x32x64, extractStridedSlice S255x32x64 ![1, 0, 0] v slices_S256x32x64_o1_0_0_S255x32x64⟩,
        ⟨S1x32x64, extractStridedSlice S1x32x64 ![254, 0, 0] v slices_S256x32x64_o254_0_0_S1x32x64⟩]
        concatenates_S255x32x64_S1x32x64_S256x32x64_d0 (ix3 ch h w)
      = v (ix3 (Cert.Spec.right ch) h w) := by
  have hch : ch.val < 256 := ch.isLt
  by_cases hc : ch.val = 255
  · refine (concatenate_pair_apply_right (s₁ := S255x32x64) (s₂ := S1x32x64) (t := S256x32x64) _ _ _ _ (ix3 ch h w) rfl rfl (ix3 (0 : Fin 1) h w) (fun b hb => ?_) ?_).trans ?_
    · match b with
      | ⟨0, _⟩ => exact absurd rfl hb
      | ⟨1, _⟩ => rfl
      | ⟨2, _⟩ => rfl
    · show 0 + 255 = ch.val; omega
    · refine extractStridedSlice_apply _ v _ _ _ (fun a => ?_)
      match a with
      | ⟨0, _⟩ => show (Cert.Spec.right ch).val = 254 + 0; unfold Cert.Spec.right; rw [dif_pos hc]
      | ⟨1, _⟩ => show h.val = 0 + h.val; omega
      | ⟨2, _⟩ => show w.val = 0 + w.val; omega
  · refine (concatenate_pair_apply_left (s₁ := S255x32x64) (s₂ := S1x32x64) (t := S256x32x64) _ _ _ _ (ix3 ch h w) rfl (ix3 (⟨ch.val, by omega⟩ : Fin 255) h w) (fun b => ?_)).trans ?_
    · match b with
      | ⟨0, _⟩ => rfl
      | ⟨1, _⟩ => rfl
      | ⟨2, _⟩ => rfl
    · refine extractStridedSlice_apply _ v _ _ _ (fun a => ?_)
      match a with
      | ⟨0, _⟩ => show (Cert.Spec.right ch).val = 1 + ch.val; unfold Cert.Spec.right; rw [dif_neg hc]; show ch.val + 1 = _; omega
      | ⟨1, _⟩ => show h.val = 0 + h.val; omega
      | ⟨2, _⟩ => show w.val = 0 + w.val; omega

/-- One tap's row of the filter block as a per-channel column, spread over the positions. -/
theorem tapcol_apply (f : S1x1x256x1x1.Idx → α) (ch : Fin 256) (h : Fin 32) (w : Fin 64) :
    broadcastTo S256x32x64 (shapeCast S256x1x1 f shapeCasts_S1x1x256x1x1_S256x1x1) broadcasts_S256x1x1_S256x32x64 (ix3 ch h w)
      = f (ix5 (0 : Fin 1) (0 : Fin 1) ch (0 : Fin 1) (0 : Fin 1)) := by
  refine (broadcastTo_apply _ _ (ix3 ch h w) (ix3 ch (0 : Fin 1) (0 : Fin 1)) (fun a => ?_)).trans ?_
  · match a with
    | ⟨0, _⟩ => rfl
    | ⟨1, _⟩ => rfl
    | ⟨2, _⟩ => rfl
  · refine shapeCast_apply f _ _ _ ?_
    rw [Shape.rowMajor_val_five, Shape.rowMajor_val_three]
    show ((((0 : Nat) * 1 + 0) * 256 + ch.val) * 1 + 0) * 1 + 0 = (ch.val * 1 + 0) * 1 + 0
    omega

/-- A per-channel column spread over the positions. -/
theorem col_apply (g : S256x1x1.Idx → α) (ch : Fin 256) (h : Fin 32) (w : Fin 64) :
    broadcastTo S256x32x64 g broadcasts_S256x1x1_S256x32x64 (ix3 ch h w) = g (ix3 ch (0 : Fin 1) (0 : Fin 1)) := by
  refine broadcastTo_apply _ _ (ix3 ch h w) (ix3 ch (0 : Fin 1) (0 : Fin 1)) (fun a => ?_)
  match a with
  | ⟨0, _⟩ => rfl
  | ⟨1, _⟩ => rfl
  | ⟨2, _⟩ => rfl

end Layout

/-! ## The body's payload at an index -/

section Payload
variable {α : Type}

/-- The five laid-out operands of the body's arithmetic. -/
def opX (x0 : S1x256x32x64.Idx → α) : S256x32x64.Idx → α := shapeCast S256x32x64 x0 shapeCasts_S1x256x32x64_S256x32x64
def opL (v : S256x32x64.Idx → α) : S256x32x64.Idx → α :=
  concatenate S256x32x64 0 [⟨S1x32x64, extractStridedSlice S1x32x64 ![1, 0, 0] v slices_S256x32x64_o1_0_0_S1x32x64⟩,
    ⟨S255x32x64, extractStridedSlice S255x32x64 ![0, 0, 0] v slices_S256x32x64_o0_0_0_S255x32x64⟩]
    concatenates_S1x32x64_S255x32x64_S256x32x64_d0
def opR (v : S256x32x64.Idx → α) : S256x32x64.Idx → α :=
  concatenate S256x32x64 0 [⟨S255x32x64, extractStridedSlice S255x32x64 ![1, 0, 0] v slices_S256x32x64_o1_0_0_S255x32x64⟩,
    ⟨S1x32x64, extractStridedSlice S1x32x64 ![254, 0, 0] v slices_S256x32x64_o254_0_0_S1x32x64⟩]
    concatenates_S255x32x64_S1x32x64_S256x32x64_d0
def opT (f : S1x1x256x1x1.Idx → α) : S256x32x64.Idx → α :=
  broadcastTo S256x32x64 (shapeCast S256x1x1 f shapeCasts_S1x1x256x1x1_S256x1x1) broadcasts_S256x1x1_S256x32x64
def opC (g : S256x1x1.Idx → α) : S256x32x64.Idx → α := broadcastTo S256x32x64 g broadcasts_S256x1x1_S256x32x64

theorem opX_apply (x0 : S1x256x32x64.Idx → α) (ch : Fin 256) (h : Fin 32) (w : Fin 64) :
    opX x0 (ix3 ch h w) = x0 (ix4 (0 : Fin 1) ch h w) := rows_apply x0 ch h w
theorem opL_apply (v : S256x32x64.Idx → α) (ch : Fin 256) (h : Fin 32) (w : Fin 64) :
    opL v (ix3 ch h w) = v (ix3 (Cert.Spec.left ch) h w) := left_apply v ch h w
theorem opR_apply (v : S256x32x64.Idx → α) (ch : Fin 256) (h : Fin 32) (w : Fin 64) :
    opR v (ix3 ch h w) = v (ix3 (Cert.Spec.right ch) h w) := right_apply v ch h w
theorem opT_apply (f : S1x1x256x1x1.Idx → α) (ch : Fin 256) (h : Fin 32) (w : Fin 64) :
    opT f (ix3 ch h w) = f (ix5 (0 : Fin 1) (0 : Fin 1) ch (0 : Fin 1) (0 : Fin 1)) := tapcol_apply f ch h w
theorem opC_apply (g : S256x1x1.Idx → α) (ch : Fin 256) (h : Fin 32) (w : Fin 64) :
    opC g (ix3 ch h w) = g (ix3 ch (0 : Fin 1) (0 : Fin 1)) := col_apply g ch h w

end Payload

/-- The body's arithmetic, entry by entry over the laid-out operands: the extended reals' sums and products. -/
theorem pay2_raw (x0 : Vec Ideal S1x256x32x64 .f32) (f0 f1 f2 : Vec Ideal S1x1x256x1x1 .f32) (g bt : Vec Ideal S256x1x1 .f32)
    (i : S256x32x64.Idx) :
    (k1_pay2 x0 f0 f1 f2 g bt : S256x32x64.Idx → EReal) i
      = ((opT f0 i * opL (opX x0) i + opT f1 i * opX x0 i) + opT f2 i * opR (opX x0) i) * opC g i + opX x0 i * opC bt i := rfl

/-- The stored value at channel ch and position (h, w) of the block: the three taps over the channel's reflected
    neighbours, times the scale, plus the residual. -/
theorem pay_apply (x0 : Vec Ideal S1x256x32x64 .f32) (f0 f1 f2 : Vec Ideal S1x1x256x1x1 .f32) (g bt : Vec Ideal S256x1x1 .f32)
    (u : Fin 1) (ch : Fin 256) (h : Fin 32) (w : Fin 64) :
    (k1_pay1 (k1_pay2 x0 f0 f1 f2 g bt) : S1x256x32x64.Idx → EReal) (ix4 u ch h w)
      = ((f0 (ix5 (0 : Fin 1) (0 : Fin 1) ch (0 : Fin 1) (0 : Fin 1)) * x0 (ix4 (0 : Fin 1) (Cert.Spec.left ch) h w)
            + f1 (ix5 (0 : Fin 1) (0 : Fin 1) ch (0 : Fin 1) (0 : Fin 1)) * x0 (ix4 (0 : Fin 1) ch h w))
          + f2 (ix5 (0 : Fin 1) (0 : Fin 1) ch (0 : Fin 1) (0 : Fin 1)) * x0 (ix4 (0 : Fin 1) (Cert.Spec.right ch) h w))
          * g (ix3 ch (0 : Fin 1) (0 : Fin 1))
        + x0 (ix4 (0 : Fin 1) ch h w) * bt (ix3 ch (0 : Fin 1) (0 : Fin 1)) := by
  unfold k1_pay1
  refine (unrows_apply _ u ch h w).trans ?_
  refine (pay2_raw x0 f0 f1 f2 g bt (ix3 ch h w)).trans ?_
  simp only [opT_apply, opL_apply, opR_apply, opX_apply, opC_apply]

/-! ## The body's loads through its rectangles -/

section Loads
variable {Val : EltTy → Type} {e : EltTy}

/-- Each tap's load reads that tap's row of the filter block. -/
theorem ld_tap0 (x1 : S1x3x256x1x1.Idx → Val e) (ch : Fin 256) :
    View.ld x1 Hand.rF0 (ix5 (0 : Fin 1) (0 : Fin 1) ch (0 : Fin 1) (0 : Fin 1)) = x1 (ix5 (0 : Fin 1) (0 : Fin 3) ch (0 : Fin 1) (0 : Fin 1)) := by
  show x1 _ = x1 _
  refine congrArg x1 (funext fun a => Fin.ext ?_)
  match a with
  | ⟨0, _⟩ => rfl
  | ⟨1, _⟩ => rfl
  | ⟨2, _⟩ => show 0 + 1 * ch.val = ch.val; omega
  | ⟨3, _⟩ => rfl
  | ⟨4, _⟩ => rfl
theorem ld_tap1 (x1 : S1x3x256x1x1.Idx → Val e) (ch : Fin 256) :
    View.ld x1 Hand.rF1 (ix5 (0 : Fin 1) (0 : Fin 1) ch (0 : Fin 1) (0 : Fin 1)) = x1 (ix5 (0 : Fin 1) (1 : Fin 3) ch (0 : Fin 1) (0 : Fin 1)) := by
  show x1 _ = x1 _
  refine congrArg x1 (funext fun a => Fin.ext ?_)
  match a with
  | ⟨0, _⟩ => rfl
  | ⟨1, _⟩ => rfl
  | ⟨2, _⟩ => show 0 + 1 * ch.val = ch.val; omega
  | ⟨3, _⟩ => rfl
  | ⟨4, _⟩ => rfl
theorem ld_tap2 (x1 : S1x3x256x1x1.Idx → Val e) (ch : Fin 256) :
    View.ld x1 Hand.rF2 (ix5 (0 : Fin 1) (0 : Fin 1) ch (0 : Fin 1) (0 : Fin 1)) = x1 (ix5 (0 : Fin 1) (2 : Fin 3) ch (0 : Fin 1) (0 : Fin 1)) := by
  show x1 _ = x1 _
  refine congrArg x1 (funext fun a => Fin.ext ?_)
  match a with
  | ⟨0, _⟩ => rfl
  | ⟨1, _⟩ => rfl
  | ⟨2, _⟩ => show 0 + 1 * ch.val = ch.val; omega
  | ⟨3, _⟩ => rfl
  | ⟨4, _⟩ => rfl

end Loads

theorem hz4 : (![0, 0, 0, 0] : Fin 4 → Nat) = fun _ => 0 := funext fun a => by fin_cases a <;> rfl
theorem hz3 : (![0, 0, 0] : Fin 3 → Nat) = fun _ => 0 := funext fun a => by fin_cases a <;> rfl

/-- What the body leaves in the output's buffer at channel ch and position (h, w), over the four staged blocks. -/
theorem out_apply (x0 : Vec Ideal S1x256x32x64 .f32) (x1 : Vec Ideal S1x3x256x1x1 .f32) (x2 x3 : Vec Ideal S256x1x1 .f32)
    (u : Fin 1) (ch : Fin 256) (h : Fin 32) (w : Fin 64) :
    (Hand.out1_4 x0 x1 x2 x3 : S1x256x32x64.Idx → EReal) (ix4 u ch h w)
      = ((x1 (ix5 (0 : Fin 1) (0 : Fin 3) ch (0 : Fin 1) (0 : Fin 1)) * x0 (ix4 (0 : Fin 1) (Cert.Spec.left ch) h w)
            + x1 (ix5 (0 : Fin 1) (1 : Fin 3) ch (0 : Fin 1) (0 : Fin 1)) * x0 (ix4 (0 : Fin 1) ch h w))
          + x1 (ix5 (0 : Fin 1) (2 : Fin 3) ch (0 : Fin 1) (0 : Fin 1)) * x0 (ix4 (0 : Fin 1) (Cert.Spec.right ch) h w))
          * x2 (ix3 ch (0 : Fin 1) (0 : Fin 1))
        + x0 (ix4 (0 : Fin 1) ch h w) * x3 (ix3 ch (0 : Fin 1) (0 : Fin 1)) := by
  unfold Hand.out1_4
  rw [View.canon_unit_zero hz4]
  refine (pay_apply _ _ _ _ _ _ u ch h w).trans ?_
  rw [View.ld_unit_zero (S := S1x256x32x64) hz4, View.ld_unit_zero (S := S256x1x1) hz3, View.ld_unit_zero (S := S256x1x1) hz3,
    ld_tap0, ld_tap1, ld_tap2]

/-! ## From blocks to the array -/

section Blocks
variable (V : (c : Dev nD) → (b : Ref sig .tc) → Buf (Elt Ideal) ((c : Thread nD τ).loc b))

/-- The index maps over the grid: at point t the image's and the output's block is image t / 2, rows 32 (t % 2) on; the
    filter's block is image t / 2's; the two per-channel columns are whole. -/
theorem idx_facts : ∀ t : Fin cfg1.N,
    win1_0.index t (0 : Fin 4) = t.val / 2 ∧ win1_0.index t (1 : Fin 4) = 0 ∧ win1_0.index t (2 : Fin 4) = t.val % 2 ∧ win1_0.index t (3 : Fin 4) = 0
    ∧ win1_1.index t (0 : Fin 5) = t.val / 2 ∧ win1_1.index t (1 : Fin 5) = 0 ∧ win1_1.index t (2 : Fin 5) = 0 ∧ win1_1.index t (3 : Fin 5) = 0 ∧ win1_1.index t (4 : Fin 5) = 0
    ∧ win1_2.index t (0 : Fin 3) = 0 ∧ win1_2.index t (1 : Fin 3) = 0 ∧ win1_2.index t (2 : Fin 3) = 0
    ∧ win1_3.index t (0 : Fin 3) = 0 ∧ win1_3.index t (1 : Fin 3) = 0 ∧ win1_3.index t (2 : Fin 3) = 0
    ∧ win1_4.index t (0 : Fin 4) = t.val / 2 ∧ win1_4.index t (1 : Fin 4) = 0 ∧ win1_4.index t (2 : Fin 4) = t.val % 2 ∧ win1_4.index t (3 : Fin 4) = 0 :=
  (by decide +kernel : ∀ t : Fin grid1.N, _)

/-- The image block at point t is image t / 2, rows 32 (t % 2) on, of the image array. -/
theorem blk0_apply (c : Dev nD) (t : Fin cfg1.N) (u : Fin 1) (ch : Fin 256) (h : Fin 32) (w : Fin 64) (k : S32x256x64x64.Idx)
    (hk0 : (k 0).val = t.val / 2) (hk1 : (k 1).val = ch.val) (hk2 : (k 2).val = 32 * (t.val % 2) + h.val) (hk3 : (k 3).val = w.val) :
    (Hand.iblk1 V c 0 t : Vec Ideal S1x256x32x64 .f32) (ix4 u ch h w) = (V c main_arg0 : S32x256x64x64.Idx → EReal) k := by
  obtain ⟨e0, e1, e2, e3, -⟩ := idx_facts t
  have hu : u.val = 0 := by omega
  show (V c main_arg0 : S32x256x64x64.Idx → EReal) (((cfg1.win 0).blk t).view.emb (ix4 u ch h w)) = _
  refine congrArg _ (funext fun a => Fin.ext ?_)
  match a with
  | ⟨0, _⟩ => show win1_0.index t (0 : Fin 4) * 1 + 1 * u.val = (k 0).val; omega
  | ⟨1, _⟩ => show win1_0.index t (1 : Fin 4) * 256 + 1 * ch.val = (k 1).val; omega
  | ⟨2, _⟩ => show win1_0.index t (2 : Fin 4) * 32 + 1 * h.val = (k 2).val; omega
  | ⟨3, _⟩ => show win1_0.index t (3 : Fin 4) * 64 + 1 * w.val = (k 3).val; omega

/-- The filter block at point t is image t / 2's three rows of taps. -/
theorem blk1_apply (c : Dev nD) (t : Fin cfg1.N) (j : Fin 3) (ch : Fin 256) (k : S32x3x256x1x1.Idx)
    (hk0 : (k 0).val = t.val / 2) (hk1 : (k 1).val = j.val) (hk2 : (k 2).val = ch.val) (hk3 : (k 3).val = 0) (hk4 : (k 4).val = 0) :
    (Hand.iblk1 V c 1 t : Vec Ideal S1x3x256x1x1 .f32) (ix5 (0 : Fin 1) j ch (0 : Fin 1) (0 : Fin 1)) = (V c main_v20 : S32x3x256x1x1.Idx → EReal) k := by
  obtain ⟨-, -, -, -, e0, e1, e2, e3, e4, -⟩ := idx_facts t
  show (V c main_v20 : S32x3x256x1x1.Idx → EReal) (((cfg1.win 1).blk t).view.emb (ix5 (0 : Fin 1) j ch (0 : Fin 1) (0 : Fin 1))) = _
  refine congrArg _ (funext fun a => Fin.ext ?_)
  match a with
  | ⟨0, _⟩ => show win1_1.index t (0 : Fin 5) * 1 + 1 * 0 = (k 0).val; omega
  | ⟨1, _⟩ => show win1_1.index t (1 : Fin 5) * 3 + 1 * j.val = (k 1).val; omega
  | ⟨2, _⟩ => show win1_1.index t (2 : Fin 5) * 256 + 1 * ch.val = (k 2).val; omega
  | ⟨3, _⟩ => show win1_1.index t (3 : Fin 5) * 1 + 1 * 0 = (k 3).val; omega
  | ⟨4, _⟩ => show win1_1.index t (4 : Fin 5) * 1 + 1 * 0 = (k 4).val; omega

/-- The scale's block is the whole column. -/
theorem blk2_apply (c : Dev nD) (t : Fin cfg1.N) (ch : Fin 256) :
    (Hand.iblk1 V c 2 t : Vec Ideal S256x1x1 .f32) (ix3 ch (0 : Fin 1) (0 : Fin 1)) = (V c main_arg6 : S256x1x1.Idx → EReal) (ix3 ch (0 : Fin 1) (0 : Fin 1)) := by
  obtain ⟨-, -, -, -, -, -, -, -, -, e0, e1, e2, -⟩ := idx_facts t
  show (V c main_arg6 : S256x1x1.Idx → EReal) (((cfg1.win 2).blk t).view.emb (ix3 ch (0 : Fin 1) (0 : Fin 1))) = _
  refine congrArg _ (funext fun a => Fin.ext ?_)
  match a with
  | ⟨0, _⟩ => show win1_2.index t (0 : Fin 3) * 256 + 1 * ch.val = ch.val; omega
  | ⟨1, _⟩ => show win1_2.index t (1 : Fin 3) * 1 + 1 * 0 = 0; omega
  | ⟨2, _⟩ => show win1_2.index t (2 : Fin 3) * 1 + 1 * 0 = 0; omega

/-- The shift's block is the whole column. -/
theorem blk3_apply (c : Dev nD) (t : Fin cfg1.N) (ch : Fin 256) :
    (Hand.iblk1 V c 3 t : Vec Ideal S256x1x1 .f32) (ix3 ch (0 : Fin 1) (0 : Fin 1)) = (V c main_arg7 : S256x1x1.Idx → EReal) (ix3 ch (0 : Fin 1) (0 : Fin 1)) := by
  obtain ⟨-, -, -, -, -, -, -, -, -, -, -, -, e0, e1, e2, -⟩ := idx_facts t
  show (V c main_arg7 : S256x1x1.Idx → EReal) (((cfg1.win 3).blk t).view.emb (ix3 ch (0 : Fin 1) (0 : Fin 1))) = _
  refine congrArg _ (funext fun a => Fin.ext ?_)
  match a with
  | ⟨0, _⟩ => show win1_3.index t (0 : Fin 3) * 256 + 1 * ch.val = ch.val; omega
  | ⟨1, _⟩ => show win1_3.index t (1 : Fin 3) * 1 + 1 * 0 = 0; omega
  | ⟨2, _⟩ => show win1_3.index t (2 : Fin 3) * 1 + 1 * 0 = 0; omega

/-- The output array as one function of the four arrays the region stages. -/
abbrev G (c : Dev nD) : S32x256x64x64.Idx → EReal := fun i =>
  Cert.Spec.comb (V c main_arg0) (fun b j ch => (V c main_v20 : S32x3x256x1x1.Idx → EReal) (ix5 b j ch 0 0))
    (V c main_arg6) (V c main_arg7) (i 0) (i 1) (i 2) (i 3)

/-- What point t writes back is its block of that function. -/
theorem flushed_eq (c : Dev nD) (t : Fin cfg1.N) :
    (Hand.dat1 V c).flushed 4 t = ((cfg1.win 4).blk t).view.read (Elt Ideal) (G V c) := by
  show (cfg1.win 4).cut (grid1.coords t) ((Hand.dat1 V c).after 4 t) = _
  rw [Hand.after1_4]
  refine funext fun (y : S1x256x32x64.Idx) => ?_
  obtain ⟨u, ch, h, w, rfl⟩ : ∃ (u : Fin 1) (ch : Fin 256) (h : Fin 32) (w : Fin 64), y = ix4 u ch h w :=
    ⟨y 0, y 1, y 2, y 3, eq_ix4 y⟩
  have ht : t.val < 64 := lt_of_lt_of_eq t.isLt N_1
  have hu : u.val = 0 := by omega
  obtain ⟨-, -, -, -, -, -, -, -, -, -, -, -, -, -, -, e0, e1, e2, e3⟩ := idx_facts t
  have hemb : ((cfg1.win 4).blk t).view.emb (ix4 u ch h w)
      = (ix4 (⟨t.val / 2, by omega⟩ : Fin 32) ch (⟨32 * (t.val % 2) + h.val, by omega⟩ : Fin 64) w : S32x256x64x64.Idx) := by
    funext a; apply Fin.ext
    match a with
    | ⟨0, _⟩ => show win1_4.index t (0 : Fin 4) * 1 + 1 * u.val = t.val / 2; omega
    | ⟨1, _⟩ => show win1_4.index t (1 : Fin 4) * 256 + 1 * ch.val = ch.val; omega
    | ⟨2, _⟩ => show win1_4.index t (2 : Fin 4) * 32 + 1 * h.val = 32 * (t.val % 2) + h.val; omega
    | ⟨3, _⟩ => show win1_4.index t (3 : Fin 4) * 64 + 1 * w.val = w.val; omega
  show (Hand.out1_4 (Hand.iblk1 V c 0 t) (Hand.iblk1 V c 1 t) (Hand.iblk1 V c 2 t) (Hand.iblk1 V c 3 t) : S1x256x32x64.Idx → EReal) (ix4 u ch h w)
    = G V c (((cfg1.win 4).blk t).view.emb (ix4 u ch h w))
  rw [hemb]
  refine (out_apply (Hand.iblk1 V c 0 t) (Hand.iblk1 V c 1 t) (Hand.iblk1 V c 2 t) (Hand.iblk1 V c 3 t) u ch h w).trans ?_
  rw [blk0_apply V c t 0 (Cert.Spec.left ch) h w (ix4 (⟨t.val / 2, by omega⟩ : Fin 32) (Cert.Spec.left ch) (⟨32 * (t.val % 2) + h.val, by omega⟩ : Fin 64) w) rfl rfl rfl rfl,
    blk0_apply V c t 0 ch h w (ix4 (⟨t.val / 2, by omega⟩ : Fin 32) ch (⟨32 * (t.val % 2) + h.val, by omega⟩ : Fin 64) w) rfl rfl rfl rfl,
    blk0_apply V c t 0 (Cert.Spec.right ch) h w (ix4 (⟨t.val / 2, by omega⟩ : Fin 32) (Cert.Spec.right ch) (⟨32 * (t.val % 2) + h.val, by omega⟩ : Fin 64) w) rfl rfl rfl rfl,
    blk1_apply V c t 0 ch (ix5 (⟨t.val / 2, by omega⟩ : Fin 32) (0 : Fin 3) ch (0 : Fin 1) (0 : Fin 1)) rfl rfl rfl rfl rfl,
    blk1_apply V c t 1 ch (ix5 (⟨t.val / 2, by omega⟩ : Fin 32) (1 : Fin 3) ch (0 : Fin 1) (0 : Fin 1)) rfl rfl rfl rfl rfl,
    blk1_apply V c t 2 ch (ix5 (⟨t.val / 2, by omega⟩ : Fin 32) (2 : Fin 3) ch (0 : Fin 1) (0 : Fin 1)) rfl rfl rfl rfl rfl,
    blk2_apply V c t ch, blk3_apply V c t ch]
  rfl

/-- An index of the output array is in point t's block iff each coordinate is in the block's range on its axis. -/
theorem mem_blk (t : Fin cfg1.N) (i : S32x256x64x64.Idx) :
    i ∈ ((cfg1.win 4).blk t).view.set ↔ ∀ a : Fin 4, win1_4.index t a * S1x256x32x64.size a ≤ (i a).val
      ∧ (i a).val < win1_4.index t a * S1x256x32x64.size a + S1x256x32x64.size a := by
  show i ∈ ((View.whole main_v21).slice (win1_4.rect t)).set ↔ _
  rw [View.set_slice_whole, Rect.mem_set_unit]
  exact Iff.rfl

/-- Every index of the output array is in some point's block: image b, row h is point 2 b + h / 32's. -/
theorem cover (i : S32x256x64x64.Idx) : ∃ t : Fin cfg1.N, (cfg1.win 4).flush t = true ∧ i ∈ ((cfg1.win 4).blk t).view.set := by
  have h0 : (i 0).val < 32 := (i 0).isLt
  have h1 : (i 1).val < 256 := (i 1).isLt
  have h2 : (i 2).val < 64 := (i 2).isLt
  have h3 : (i 3).val < 64 := (i 3).isLt
  have hN : 2 * (i 0).val + (i 2).val / 32 < cfg1.N := lt_of_lt_of_eq (by omega : 2 * (i 0).val + (i 2).val / 32 < 64) N_1.symm
  refine ⟨⟨2 * (i 0).val + (i 2).val / 32, hN⟩, flush1_4 _, ?_⟩
  rw [mem_blk]
  obtain ⟨-, -, -, -, -, -, -, -, -, -, -, -, -, -, -, e0, e1, e2, e3⟩ := idx_facts ⟨2 * (i 0).val + (i 2).val / 32, hN⟩
  have tv : (⟨2 * (i 0).val + (i 2).val / 32, hN⟩ : Fin cfg1.N).val = 2 * (i 0).val + (i 2).val / 32 := rfl
  rw [tv] at e0 e2
  intro a
  match a with
  | ⟨0, _⟩ => show win1_4.index _ (0 : Fin 4) * 1 ≤ (i 0).val ∧ (i 0).val < win1_4.index _ (0 : Fin 4) * 1 + 1; omega
  | ⟨1, _⟩ => show win1_4.index _ (1 : Fin 4) * 256 ≤ (i 1).val ∧ (i 1).val < win1_4.index _ (1 : Fin 4) * 256 + 256; omega
  | ⟨2, _⟩ => show win1_4.index _ (2 : Fin 4) * 32 ≤ (i 2).val ∧ (i 2).val < win1_4.index _ (2 : Fin 4) * 32 + 32; omega
  | ⟨3, _⟩ => show win1_4.index _ (3 : Fin 4) * 64 ≤ (i 3).val ∧ (i 3).val < win1_4.index _ (3 : Fin 4) * 64 + 64; omega

/-- The region's output array: the three-tap filter along the channels with reflected ends, and the residual. -/
theorem out_eq (c : Dev nD) :
    ((Hand.dat1 V c).arrAt 4 cfg1.N : S32x256x64x64.Idx → EReal) = fun i => Cert.Spec.comb (V c main_arg0) (fun b j ch => (V c main_v20 : S32x3x256x1x1.Idx → EReal) (ValueIdx.ix5 b j ch 0 0)) (V c main_arg6) (V c main_arg7) (i 0) (i 1) (i 2) (i 3) :=
  (Hand.dat1 V c).arrAt_eq_of_cover 4 (G V c) (fun t _ => flushed_eq V c t) (cover)

end Blocks

end Cert.KernelIdeal.Val1

end
-- ==== Proof.ValHost.lean ====
/-
  What the kernel program's 21 host operations between its two regions compute, entry by entry, on the extended reals.

  The operations transpose the filter matrix, contract the first region's means with it, subtract the running mean,
  multiply by rsqrt (variance + ε), by the weight, add the bias, apply tanh, and reshape [32,768] to [32,3,256] and to
  [32,3,256,1,1].  Entry (b, j, c, 0, 0) of the result is entry 256·j + c of image b's generated filter, the
  specification's filt at tap j of channel c.
-/
import proofs.«121701_j44332652430130_2_alg».proof.Proof.Gen.KernelIdeal.Launch
import proofs.«121701_j44332652430130_2_alg».proof.Proof.Spec
import Idealize.ShloMosaic.Lib.StableHlo.Run
import Idealize.ShloMosaic.Lib.Pipeline.Value
import Idealize.ShloMosaic.Lib.ValueLayout
import Idealize.ShloMosaic.PureOps.Ideal.Laws

noncomputable section

namespace Cert.KernelIdeal.ValHost

open Idealize.ShloMosaic Idealize.ShloMosaic.ValueIdx
open Cert.KernelIdeal Cert.KernelIdeal.Gen

/-! ## The layout operations at an index -/

/-- A vector of 768 entries broadcast to one row and then to 32 rows: entry (b, k) is the vector's entry k. -/
theorem rows_apply (h1 : S768.BroadcastsInDim S1x768 (![1] : Fin 1 → Fin S1x768.rank))
    (h2 : S1x768.BroadcastsInDim S32x768 (![0, 1] : Fin 2 → Fin S32x768.rank))
    (v : S768.Idx → EReal) (b : Fin 32) (k : Fin 768) :
    broadcastInDim S32x768 ![0, 1] h2 (broadcastInDim S1x768 ![1] h1 v) (ix2 b k) = v (ix1 k) := by
  rw [broadcastInDim_apply _ h2 _ (ix2 b k) (ix2 (0 : Fin 1) k) (fun a => by
        match a with
        | ⟨0, _⟩ => rfl
        | ⟨1, _⟩ => rfl),
      broadcastInDim_apply _ h1 v (ix2 (0 : Fin 1) k) (ix1 k) (fun a => by
        match a with
        | ⟨0, _⟩ => rfl)]

/-- A scalar broadcast to 768 entries reads the scalar everywhere. -/
theorem scalar_apply (h0 : S_.BroadcastsInDim S768 (![] : Fin 0 → Fin S768.rank)) (v : S_.Idx → EReal) (k : Fin 768) :
    broadcastInDim S768 ![] h0 v (ix1 k) = v ix0 :=
  broadcastInDim_apply _ h0 v (ix1 k) ix0 (fun a => a.elim0)

/-- The two reshapes [32,768] → [32,3,256] → [32,3,256,1,1]: entry (b, j, c, 0, 0) is entry (b, 256·j + c). -/
theorem reshapes_apply (h1 : S32x768.ShapeCasts S32x3x256) (h2 : S32x3x256.ShapeCasts S32x3x256x1x1)
    (v : S32x768.Idx → EReal) (b : Fin 32) (j : Fin 3) (c : Fin 256) :
    shapeCast S32x3x256x1x1 (shapeCast S32x3x256 v h1) h2 (ix5 b j c (0 : Fin 1) (0 : Fin 1)) = v (ix2 b (Cert.Spec.tap j c)) := by
  rw [shapeCast_apply _ h2 (ix5 b j c (0 : Fin 1) (0 : Fin 1)) (ix3 b j c) (by
        rw [Shape.rowMajor_val_three, Shape.rowMajor_val_five]
        show (b.val * 3 + j.val) * 256 + c.val = ((((b.val * 3 + j.val) * 256 + c.val) * 1 + 0) * 1 + 0)
        omega),
      shapeCast_apply _ h1 (ix3 b j c) (ix2 b (Cert.Spec.tap j c)) (by
        rw [Shape.rowMajor_val_two, Shape.rowMajor_val_three]
        show b.val * 768 + (256 * j.val + c.val) = (b.val * 3 + j.val) * 256 + c.val
        omega)]

/-! ## The contraction at an index -/

theorem lhs_0 (i : S32x768.Idx) (q : dot_S32x256_S256x768_S32x768_1_0_0_1_n_n.contr.Idx) :
    (dot_S32x256_S256x768_S32x768_1_0_0_1_n_n.lhsIdx i q 0).val = (i 0).val := by
  unfold DotDims.lhsIdx
  rw [dif_neg (show ¬(0 : Fin S32x256.rank) ∈ dot_S32x256_S256x768_S32x768_1_0_0_1_n_n.lhsBatch by decide),
    dif_pos (show (0 : Fin S32x256.rank) ∈ dot_S32x256_S256x768_S32x768_1_0_0_1_n_n.lhsNonContracting by decide)]
  rfl
theorem lhs_1 (i : S32x768.Idx) (q : dot_S32x256_S256x768_S32x768_1_0_0_1_n_n.contr.Idx) :
    (dot_S32x256_S256x768_S32x768_1_0_0_1_n_n.lhsIdx i q 1).val = (q ⟨0, by decide⟩).val :=
  dot_S32x256_S256x768_S32x768_1_0_0_1_n_n.lhsIdx_val_of_single rfl i q
theorem rhs_0 (i : S32x768.Idx) (q : dot_S32x256_S256x768_S32x768_1_0_0_1_n_n.contr.Idx) :
    (dot_S32x256_S256x768_S32x768_1_0_0_1_n_n.rhsIdx i q 0).val = (q ⟨0, by decide⟩).val :=
  dot_S32x256_S256x768_S32x768_1_0_0_1_n_n.rhsIdx_val_of_single rfl i q
theorem rhs_1 (i : S32x768.Idx) (q : dot_S32x256_S256x768_S32x768_1_0_0_1_n_n.contr.Idx) :
    (dot_S32x256_S256x768_S32x768_1_0_0_1_n_n.rhsIdx i q 1).val = (i 1).val := by
  unfold DotDims.rhsIdx
  rw [dif_neg (show ¬(1 : Fin S256x768.rank) ∈ dot_S32x256_S256x768_S32x768_1_0_0_1_n_n.rhsBatch by decide),
    dif_pos (show (1 : Fin S256x768.rank) ∈ dot_S32x256_S256x768_S32x768_1_0_0_1_n_n.rhsNonContracting by decide)]
  rfl

/-- The host contraction [32,256] · [256,768] at (b, k): the sum over the 256 channels. -/
theorem dot_apply (g : FVec Ideal S32x256 .f32) (Wt : FVec Ideal S256x768 .f32) (b : Fin 32) (k : Fin 768) :
    Host.dotGeneral (F := Ideal) dot_S32x256_S256x768_S32x768_1_0_0_1_n_n none g Wt (ix2 b k)
      = ∑ c : Fin 256, g (ix2 b c) * Wt (ix2 c k) := by
  simp only [Host.dotGeneral]
  rw [Ideal.dotGeneral_apply, ← Equiv.sum_comp (contrEquiv1 dot_S32x256_S256x768_S32x768_1_0_0_1_n_n 256 rfl rfl).symm]
  refine Finset.sum_congr rfl fun c _ => ?_
  have hk := contrEquiv1_symm_val dot_S32x256_S256x768_S32x768_1_0_0_1_n_n 256 rfl rfl c
  have el : dot_S32x256_S256x768_S32x768_1_0_0_1_n_n.lhsIdx (ix2 b k)
      ((contrEquiv1 dot_S32x256_S256x768_S32x768_1_0_0_1_n_n 256 rfl rfl).symm c) = ix2 b c := funext fun a => Fin.ext (by
    match a with
    | ⟨0, _⟩ => exact lhs_0 _ _
    | ⟨1, _⟩ => exact (lhs_1 _ _).trans hk)
  have er : dot_S32x256_S256x768_S32x768_1_0_0_1_n_n.rhsIdx (ix2 b k)
      ((contrEquiv1 dot_S32x256_S256x768_S32x768_1_0_0_1_n_n 256 rfl rfl).symm c) = ix2 c k := funext fun a => Fin.ext (by
    match a with
    | ⟨0, _⟩ => exact (rhs_0 _ _).trans hk
    | ⟨1, _⟩ => exact rhs_1 _ _)
  rw [el, er]

/-- The filter matrix transposed reads, at (c, k), the matrix at (k, c). -/
theorem transposed_apply (h : S768x256.Transposes [1, 0] S256x768) (W1 : S768x256.Idx → EReal) (c : Fin 256) (k : Fin 768) :
    transpose S256x768 [1, 0] W1 h (ix2 c k) = W1 (ix2 k c) :=
  transpose_apply _ W1 h _ _ fun a => match a with | ⟨0, _⟩ => rfl | ⟨1, _⟩ => rfl

/-- The contraction with the transposed filter matrix at (b, k): the sum over the channels against row k of the matrix. -/
theorem dotT_apply (h : S768x256.Transposes [1, 0] S256x768) (g : FVec Ideal S32x256 .f32) (W1 : FVec Ideal S768x256 .f32)
    (b : Fin 32) (k : Fin 768) :
    Host.dotGeneral (F := Ideal) dot_S32x256_S256x768_S32x768_1_0_0_1_n_n none g (transpose S256x768 [1, 0] W1 h) (ix2 b k)
      = ∑ c : Fin 256, g (ix2 b c) * W1 (ix2 k c) := by
  rw [dot_apply]
  exact Finset.sum_congr rfl fun c _ => by rw [transposed_apply]

/-! ## The 21 operations as one term, and the term at an index -/

/-- The host's tanh at an index is the extended reals' tanh of the entry. -/
theorem tanh_apply {s : Shape} (x : FVec Ideal s .f32) (i : s.Idx) : Host.tanh (F := Ideal) x i = Ideal.tanh (x i) := rfl
/-- The host's rsqrt at an index is the extended reals' rsqrt of the entry. -/
theorem rsqrt_apply {s : Shape} (x : FVec Ideal s .f32) (i : s.Idx) : Host.rsqrt (F := Ideal) x i = Ideal.rsqrt (x i) := rfl

/-- What the host operations leave before the two reshapes: the contraction of the means with the transposed filter
    matrix, minus the running mean, times rsqrt (variance + ε), times the weight, plus the bias, through tanh. -/
def hostTerm (g : FVec Ideal S32x256 .f32) (W1 : FVec Ideal S768x256 .f32) (a2 a3 a4 a5 : FVec Ideal S768 .f32) :
    FVec Ideal S32x768 .f32 :=
  Host.tanh (F := Ideal)
    (addf (F := Ideal)
      (mulf (F := Ideal)
        (mulf (F := Ideal)
          (subf (F := Ideal)
            (Host.dotGeneral (F := Ideal) dot_S32x256_S256x768_S32x768_1_0_0_1_n_n none g
              (transpose S256x768 [1, 0] W1 transposes_S768x256_S256x768_1_0))
            (broadcastInDim S32x768 ![0, 1] bcast_S1x768_S32x768_0_1 (broadcastInDim S1x768 ![1] bcast_S768_S1x768_1 a4)))
          (broadcastInDim S32x768 ![0, 1] bcast_S1x768_S32x768_0_1
            (broadcastInDim S1x768 ![1] bcast_S768_S1x768_1
              (Host.rsqrt (F := Ideal)
                (addf (F := Ideal) a5 (broadcastInDim S768 ![] bcast_S_S768 (constant (F := Ideal) S_ .f32 0x3727C5AC#32)))))))
        (broadcastInDim S32x768 ![0, 1] bcast_S1x768_S32x768_0_1 (broadcastInDim S1x768 ![1] bcast_S768_S1x768_1 a2)))
      (broadcastInDim S32x768 ![0, 1] bcast_S1x768_S32x768_0_1 (broadcastInDim S1x768 ![1] bcast_S768_S1x768_1 a3)))

/-- Entry (b, k) of that term is entry k of image b's generated filter. -/
theorem hostTerm_apply (g : FVec Ideal S32x256 .f32) (W1 : FVec Ideal S768x256 .f32) (a2 a3 a4 a5 : FVec Ideal S768 .f32)
    (b : Fin 32) (k : Fin 768) :
    hostTerm g W1 a2 a3 a4 a5 (ix2 b k) = Cert.Spec.filt (fun b' c' => g (ix2 b' c')) W1 a2 a3 a4 a5 b k := by
  unfold hostTerm Cert.Spec.filt
  rw [tanh_apply, addf_apply, mulf_apply, mulf_apply, subf_apply, rows_apply, rows_apply, rows_apply, rows_apply,
    rsqrt_apply, addf_apply, scalar_apply, constant_apply, dotT_apply]

/-! ## The array the second region reads -/

/-- After the host operations, entry (b, j, c, 0, 0) of the filter array is tap j of channel c of image b's generated
    filter, computed from the first region's means and the five parameter arrays. -/
theorem v20_eq (W : Valuation τ sig (Elt Ideal)) (b : Fin 32) (j : Fin 3) (c : Fin 256) :
    (StableHlo.after (hostOps1 (F := Ideal)) W (Proc.devRef .tc main_v20) : S32x3x256x1x1.Idx → EReal) (ix5 b j c 0 0)
      = Cert.Spec.filt (fun b' c' => (W (Proc.devRef .tc main_v0) : S32x256.Idx → EReal) (ix2 b' c'))
          (W (Proc.devRef .tc main_arg1)) (W (Proc.devRef .tc main_arg2)) (W (Proc.devRef .tc main_arg3))
          (W (Proc.devRef .tc main_arg4)) (W (Proc.devRef .tc main_arg5)) b (Cert.Spec.tap j c) := by
  have e : (StableHlo.after (hostOps1 (F := Ideal)) W (Proc.devRef .tc main_v20) : S32x3x256x1x1.Idx → EReal)
      = shapeCast S32x3x256x1x1 (shapeCast S32x3x256
          (hostTerm (W (Proc.devRef .tc main_v0)) (W (Proc.devRef .tc main_arg1)) (W (Proc.devRef .tc main_arg2))
            (W (Proc.devRef .tc main_arg3)) (W (Proc.devRef .tc main_arg4)) (W (Proc.devRef .tc main_arg5)))
          shapeCasts_S32x768_S32x3x256) shapeCasts_S32x3x256_S32x3x256x1x1 := by
    after_results
    rfl
  rw [e, reshapes_apply, hostTerm_apply]

end Cert.KernelIdeal.ValHost
end
-- ==== Proof.KVal.lean ====
/-
  The kernel program's result array, at the ideal instance, is the specified function of the eight argument arrays: the
  second region's output is the three-tap combination of the image with the filter it finds in its second window; that
  filter is what the host stretch computes from the first region's result array; and that array is the channel means.
-/
import proofs.«121701_j44332652430130_2_alg».proof.Proof.Run
import proofs.«121701_j44332652430130_2_alg».proof.Proof.Val0
import proofs.«121701_j44332652430130_2_alg».proof.Proof.Val1
import proofs.«121701_j44332652430130_2_alg».proof.Proof.ValHost
import proofs.«121701_j44332652430130_2_alg».proof.Proof.Spec

set_option maxRecDepth 16384

noncomputable section

open Idealize.ShloMosaic Idealize.ShloMosaic.TcCoe Idealize.SL.Sem

namespace Cert.KernelIdeal.KVal

open Cert.KernelIdeal Cert.KernelIdeal.Gen Cert.KernelIdeal.Hand Idealize.ShloMosaic.ValueIdx

variable (m : (ℓ : Loc nD τ sig) → Buf (Elt Ideal) ℓ) (ρ : Dev nD → PrngReg)

/-- The filter the second region finds: the generated filter of the channel means of the launched image. -/
theorem filter_eq (c : Dev nD) (b : Fin 32) (j : Fin 3) (ch : Fin 256) :
    (Vbefore1 m ρ c main_v20 : S32x3x256x1x1.Idx → EReal) (ix5 b j ch 0 0)
      = Cert.Spec.filt (Cert.Spec.gap (m ((c : Thread nD τ).loc main_arg0))) (m ((c : Thread nD τ).loc main_arg1)) (m ((c : Thread nD τ).loc main_arg2)) (m ((c : Thread nD τ).loc main_arg3)) (m ((c : Thread nD τ).loc main_arg4)) (m ((c : Thread nD τ).loc main_arg5)) b (Cert.Spec.tap j ch) := by
  rw [Vbefore1_main_v20, Cert.KernelIdeal.ValHost.v20_eq (W1 m ρ c) b j ch,
    W1_main_arg1, W1_main_arg2, W1_main_arg3, W1_main_arg4, W1_main_arg5, Wmid_v0, Cert.KernelIdeal.Val0.gap_eq]
  rfl

/-- The result array at the end of the run. -/
theorem out_eq (c : Dev nD) :
    (Wlast m ρ c (Proc.devRef .tc main_v21) : S32x256x64x64.Idx → EReal)
      = fun i => Cert.Spec.out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (i 0) (i 1) (i 2) (i 3) := by
  rw [Wlast_out, Cert.KernelIdeal.Val1.out_eq]
  funext i
  unfold Cert.Spec.out
  rw [Vbefore1_main_arg0, Vbefore1_main_arg6, Vbefore1_main_arg7]
  exact congrArg (fun f => Cert.Spec.comb (m ((c : Thread nD τ).loc main_arg0)) f (m ((c : Thread nD τ).loc main_arg6)) (m ((c : Thread nD τ).loc main_arg7)) (i 0) (i 1) (i 2) (i 3))
    (funext fun b => funext fun j => funext fun ch => filter_eq m ρ c b j ch)

/-- THE RUN, READ: the result array at the specified function of the arguments, the arguments unchanged. -/
theorem run : θ_run defs (onTc (τ := τ) (main (F := Ideal))) ⟨m, fun _ => 0, ρ⟩ (fun r => ∀ c : Dev nD,
      r.2.mem ((c.tc : Thread nD τ).loc main_v21) = (fun i => Cert.Spec.out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (i 0) (i 1) (i 2) (i 3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
    ⟨(h c _ (mem_uc main_v21 (by decide))).trans (out_eq m ρ c),
     (h c _ (mem_uc main_arg0 (by decide))).trans (Wlast_main_arg0 m ρ c),
     (h c _ (mem_uc main_arg1 (by decide))).trans (Wlast_main_arg1 m ρ c),
     (h c _ (mem_uc main_arg2 (by decide))).trans (Wlast_main_arg2 m ρ c),
     (h c _ (mem_uc main_arg3 (by decide))).trans (Wlast_main_arg3 m ρ c),
     (h c _ (mem_uc main_arg4 (by decide))).trans (Wlast_main_arg4 m ρ c),
     (h c _ (mem_uc main_arg5 (by decide))).trans (Wlast_main_arg5 m ρ c),
     (h c _ (mem_uc main_arg6 (by decide))).trans (Wlast_main_arg6 m ρ c),
     (h c _ (mem_uc main_arg7 (by decide))).trans (Wlast_main_arg7 m ρ c)⟩) (Hand.run m ρ)

end Cert.KernelIdeal.KVal

end
-- ==== Proof.RefTerm.lean ====
/-
  The reference function as one composed term of its eight argument arrays, by stages.

  gapS is the sum over the two position axes divided by 4096; preS is the contraction of gapS with the
  768x256 matrix over the channel axis, normalised (minus the mean row, times rsqrt (var + eps), times the
  weight row, plus the bias row); filtS is tanh of preS re-laid as 32x3x256; padL is the array with channel 1
  put before channel 0 and padS is padL with channel 254 put after channel 255 (the reflecting pad along the
  channel axis, 258 channels); coefS is one tap of filtS spread over the positions; chanS is a per-channel
  vector spread over images and positions; res is the sum over the three taps j of
  coefS j * (channels j .. j+255 of padS), times chanS gamma, plus x times chanS beta.
-/
import proofs.«121701_j44332652430130_2_alg».proof.Proof.Gen.ReferenceIdeal

noncomputable section

namespace Cert.ReferenceIdeal.RefTerm

open Cert.ReferenceIdeal Cert.ReferenceIdeal.Gen Idealize.ShloMosaic Idealize.SL.Sem

variable {F : FTy → Type} [FloatOps F]

/-- The mean over the two position axes: the sum (from zero) divided by the splat of 4096. -/
def gapS (a0 : (⟨S32x256x64x64, .f32⟩ : BufTy).Contents (Elt F)) : (⟨S32x256, .f32⟩ : BufTy).Contents (Elt F) :=
  Host.divf (Host.reduceAdd a0 (constant S_ .f32 0x00000000#32) reducesTo_S32x256x64x64_S32x256_d2_3 h_S_)
    (broadcastInDim S32x256 ![] bcast_S_S32x256 (constant S_ .f32 0x45800000#32))

/-- A 768-vector repeated along the 32 rows. -/
def rowS (v : (⟨S768, .f32⟩ : BufTy).Contents (Elt F)) : (⟨S32x768, .f32⟩ : BufTy).Contents (Elt F) :=
  broadcastInDim S32x768 ![0, 1] bcast_S1x768_S32x768_0_1 (broadcastInDim S1x768 ![1] bcast_S768_S1x768_1 v)

/-- The argument of tanh: the contraction of the means with the matrix over the channel axis, minus the mean
    row, times rsqrt (var + eps), times the weight row, plus the bias row. -/
def preS (a0 : (⟨S32x256x64x64, .f32⟩ : BufTy).Contents (Elt F)) (a1 : (⟨S768x256, .f32⟩ : BufTy).Contents (Elt F)) (a2 a3 a4 a5 : (⟨S768, .f32⟩ : BufTy).Contents (Elt F)) : (⟨S32x768, .f32⟩ : BufTy).Contents (Elt F) :=
  addf (mulf (mulf (subf (Host.dotGeneral dot_S32x256_S768x256_S32x768_1_1_0_0_n_n none (gapS a0) a1) (rowS a4))
    (rowS (Host.rsqrt (addf a5 (broadcastInDim S768 ![] bcast_S_S768 (constant S_ .f32 0x3727C5AC#32)))))) (rowS a2)) (rowS a3)

/-- The generated filter: tanh of that, re-laid as 32x3x256. -/
def filtS (a0 : (⟨S32x256x64x64, .f32⟩ : BufTy).Contents (Elt F)) (a1 : (⟨S768x256, .f32⟩ : BufTy).Contents (Elt F)) (a2 a3 a4 a5 : (⟨S768, .f32⟩ : BufTy).Contents (Elt F)) : (⟨S32x3x256, .f32⟩ : BufTy).Contents (Elt F) :=
  shapeCast S32x3x256 (Host.tanh (preS a0 a1 a2 a3 a4 a5)) shapeCasts_S32x768_S32x3x256

/-- Channel 1 put before channel 0: 257 channels. -/
def padL (a0 : (⟨S32x256x64x64, .f32⟩ : BufTy).Contents (Elt F)) : (⟨S32x257x64x64, .f32⟩ : BufTy).Contents (Elt F) :=
  concatenate S32x257x64x64 1
    [⟨S32x1x64x64, Host.reverse [1] (extractStridedSlice S32x1x64x64 ![0, 1, 0, 0] a0 slices_S32x256x64x64_S32x1x64x64_0_1_0_0)⟩,
     ⟨S32x256x64x64, a0⟩]
    concatenates_S32x1x64x64_S32x256x64x64_S32x257x64x64_d1

/-- And channel 254 (channel 255 of the 257) put after the last: 258 channels. -/
def padS (a0 : (⟨S32x256x64x64, .f32⟩ : BufTy).Contents (Elt F)) : (⟨S32x258x64x64, .f32⟩ : BufTy).Contents (Elt F) :=
  concatenate S32x258x64x64 1
    [⟨S32x257x64x64, padL a0⟩,
     ⟨S32x1x64x64, Host.reverse [1] (extractStridedSlice S32x1x64x64 ![0, 255, 0, 0] (padL a0) slices_S32x257x64x64_S32x1x64x64_0_255_0_0)⟩]
    concatenates_S32x257x64x64_S32x1x64x64_S32x258x64x64_d1

/-- One tap of the filter spread over the positions: the slice at the tap, re-laid as 32x256, broadcast. -/
def coefS (f : (⟨S32x3x256, .f32⟩ : BufTy).Contents (Elt F)) (off : Fin 3 → Nat) (h : S32x3x256.Slices off S32x1x256) : (⟨S32x256x64x64, .f32⟩ : BufTy).Contents (Elt F) :=
  broadcastInDim S32x256x64x64 ![0, 1, 2, 3] bcast_S32x256x1x1_S32x256x64x64_0_1_2_3
    (broadcastInDim S32x256x1x1 ![0, 1] bcast_S32x256_S32x256x1x1_0_1
      (shapeCast S32x256 (extractStridedSlice S32x1x256 off f h) shapeCasts_S32x1x256_S32x256))

/-- A per-channel vector spread over images and positions. -/
def chanS (v : (⟨S256x1x1, .f32⟩ : BufTy).Contents (Elt F)) : (⟨S32x256x64x64, .f32⟩ : BufTy).Contents (Elt F) :=
  broadcastInDim S32x256x64x64 ![0, 1, 2, 3] bcast_S1x256x1x1_S32x256x64x64_0_1_2_3
    (broadcastInDim S1x256x1x1 ![1, 2, 3] bcast_S256x1x1_S1x256x1x1_1_2_3 v)

/-- The result array as the composed term of the eight argument arrays. -/
def res (a0 : (⟨S32x256x64x64, .f32⟩ : BufTy).Contents (Elt F)) (a1 : (⟨S768x256, .f32⟩ : BufTy).Contents (Elt F)) (a2 : (⟨S768, .f32⟩ : BufTy).Contents (Elt F)) (a3 : (⟨S768, .f32⟩ : BufTy).Contents (Elt F)) (a4 : (⟨S768, .f32⟩ : BufTy).Contents (Elt F)) (a5 : (⟨S768, .f32⟩ : BufTy).Contents (Elt F)) (a6 : (⟨S256x1x1, .f32⟩ : BufTy).Contents (Elt F)) (a7 : (⟨S256x1x1, .f32⟩ : BufTy).Contents (Elt F)) : (⟨S32x256x64x64, .f32⟩ : BufTy).Contents (Elt F) :=
  addf
    (mulf
      (addf
        (addf
          (mulf (coefS (filtS a0 a1 a2 a3 a4 a5) ![0, 0, 0] slices_S32x3x256_S32x1x256_0_0_0)
            (extractStridedSlice S32x256x64x64 ![0, 0, 0, 0] (padS a0) slices_S32x258x64x64_S32x256x64x64_0_0_0_0))
          (mulf (coefS (filtS a0 a1 a2 a3 a4 a5) ![0, 1, 0] slices_S32x3x256_S32x1x256_0_1_0)
            (extractStridedSlice S32x256x64x64 ![0, 1, 0, 0] (padS a0) slices_S32x258x64x64_S32x256x64x64_0_1_0_0)))
        (mulf (coefS (filtS a0 a1 a2 a3 a4 a5) ![0, 2, 0] slices_S32x3x256_S32x1x256_0_2_0)
          (extractStridedSlice S32x256x64x64 ![0, 2, 0, 0] (padS a0) slices_S32x258x64x64_S32x256x64x64_0_2_0_0)))
      (chanS a6))
    (mulf a0 (chanS a7))

end Cert.ReferenceIdeal.RefTerm

end
-- ==== Proof.RefRun.lean ====
/-
  The reference function's run, operation by operation.

  @main of the reference is a straight line of sixty array operations once the two outlined functions are
  read at their call sites: the reflecting pad along the channel axis is two slices, two reversals of a
  one-channel slab and two concatenations. The list ops below is that line; main_eq says @main is the line;
  run says that every weakly fair execution from any memory with zero counters ends with the result array
  at the composed term res of the eight argument arrays (its stages are in the module RefTerm), the
  arguments unchanged.
-/
import proofs.«121701_j44332652430130_2_alg».proof.Proof.RefTerm
import Idealize.ShloMosaic.Lib.StableHlo.Run

noncomputable section

namespace Cert.ReferenceIdeal.RefRun

open Cert.ReferenceIdeal Cert.ReferenceIdeal.Gen Cert.ReferenceIdeal.RefTerm Idealize.ShloMosaic Idealize.ShloMosaic.TcCoe Idealize.SL.Sem Idealize.ShloMosaic.StableHlo

variable {F : FTy → Type} [FloatOps F]

/-- @main's sixty operations in order, the pad and its two reversals read at the call site. -/
abbrev ops : List (HloOp τ sig (Elt F)) :=
  [ nullary main_cst (constant S_ .f32 0x00000000#32),
    binary main_arg0 main_cst main_v0 ((fun x v => Host.reduceAdd x v reducesTo_S32x256x64x64_S32x256_d2_3 h_S_) : (⟨S32x256x64x64, .f32⟩ : BufTy).Contents (Elt F) → (⟨S_, .f32⟩ : BufTy).Contents (Elt F) → (⟨S32x256, .f32⟩ : BufTy).Contents (Elt F)),
    nullary main_cst_0 (constant S_ .f32 0x45800000#32),
    unary main_cst_0 main_v1 (broadcastInDim S32x256 ![] bcast_S_S32x256 : (⟨S_, .f32⟩ : BufTy).Contents (Elt F) → (⟨S32x256, .f32⟩ : BufTy).Contents (Elt F)),
    binary main_v0 main_v1 main_v2 (Host.divf : (⟨S32x256, .f32⟩ : BufTy).Contents (Elt F) → (⟨S32x256, .f32⟩ : BufTy).Contents (Elt F) → (⟨S32x256, .f32⟩ : BufTy).Contents (Elt F)),
    binary main_v2 main_arg1 main_v3 ((fun l r => Host.dotGeneral dot_S32x256_S768x256_S32x768_1_1_0_0_n_n none l r) : (⟨S32x256, .f32⟩ : BufTy).Contents (Elt F) → (⟨S768x256, .f32⟩ : BufTy).Contents (Elt F) → (⟨S32x768, .f32⟩ : BufTy).Contents (Elt F)),
    unary main_arg4 main_v4 (broadcastInDim S1x768 ![1] bcast_S768_S1x768_1 : (⟨S768, .f32⟩ : BufTy).Contents (Elt F) → (⟨S1x768, .f32⟩ : BufTy).Contents (Elt F)),
    unary main_v4 main_v5 (broadcastInDim S32x768 ![0, 1] bcast_S1x768_S32x768_0_1 : (⟨S1x768, .f32⟩ : BufTy).Contents (Elt F) → (⟨S32x768, .f32⟩ : BufTy).Contents (Elt F)),
    binary main_v3 main_v5 main_v6 (subf : (⟨S32x768, .f32⟩ : BufTy).Contents (Elt F) → (⟨S32x768, .f32⟩ : BufTy).Contents (Elt F) → (⟨S32x768, .f32⟩ : BufTy).Contents (Elt F)),
    nullary main_cst_1 (constant S_ .f32 0x3727C5AC#32),
    unary main_cst_1 main_v7 (broadcastInDim S768 ![] bcast_S_S768 : (⟨S_, .f32⟩ : BufTy).Contents (Elt F) → (⟨S768, .f32⟩ : BufTy).Contents (Elt F)),
    binary main_arg5 main_v7 main_v8 (addf : (⟨S768, .f32⟩ : BufTy).Contents (Elt F) → (⟨S768, .f32⟩ : BufTy).Contents (Elt F) → (⟨S768, .f32⟩ : BufTy).Contents (Elt F)),
    unary main_v8 main_v9 (Host.rsqrt : (⟨S768, .f32⟩ : BufTy).Contents (Elt F) → (⟨S768, .f32⟩ : BufTy).Contents (Elt F)),
    unary main_v9 main_v10 (broadcastInDim S1x768 ![1] bcast_S768_S1x768_1 : (⟨S768, .f32⟩ : BufTy).Contents (Elt F) → (⟨S1x768, .f32⟩ : BufTy).Contents (Elt F)),
    unary main_v10 main_v11 (broadcastInDim S32x768 ![0, 1] bcast_S1x768_S32x768_0_1 : (⟨S1x768, .f32⟩ : BufTy).Contents (Elt F) → (⟨S32x768, .f32⟩ : BufTy).Contents (Elt F)),
    binary main_v6 main_v11 main_v12 (mulf : (⟨S32x768, .f32⟩ : BufTy).Contents (Elt F) → (⟨S32x768, .f32⟩ : BufTy).Contents (Elt F) → (⟨S32x768, .f32⟩ : BufTy).Contents (Elt F)),
    unary main_arg2 main_v13 (broadcastInDim S1x768 ![1] bcast_S768_S1x768_1 : (⟨S768, .f32⟩ : BufTy).Contents (Elt F) → (⟨S1x768, .f32⟩ : BufTy).Contents (Elt F)),
    unary main_v13 main_v14 (broadcastInDim S32x768 ![0, 1] bcast_S1x768_S32x768_0_1 : (⟨S1x768, .f32⟩ : BufTy).Contents (Elt F) → (⟨S32x768, .f32⟩ : BufTy).Contents (Elt F)),
    binary main_v12 main_v14 main_v15 (mulf : (⟨S32x768, .f32⟩ : BufTy).Contents (Elt F) → (⟨S32x768, .f32⟩ : BufTy).Contents (Elt F) → (⟨S32x768, .f32⟩ : BufTy).Contents (Elt F)),
    unary main_arg3 main_v16 (broadcastInDim S1x768 ![1] bcast_S768_S1x768_1 : (⟨S768, .f32⟩ : BufTy).Contents (Elt F) → (⟨S1x768, .f32⟩ : BufTy).Contents (Elt F)),
    unary main_v16 main_v17 (broadcastInDim S32x768 ![0, 1] bcast_S1x768_S32x768_0_1 : (⟨S1x768, .f32⟩ : BufTy).Contents (Elt F) → (⟨S32x768, .f32⟩ : BufTy).Contents (Elt F)),
    binary main_v15 main_v17 main_v18 (addf : (⟨S32x768, .f32⟩ : BufTy).Contents (Elt F) → (⟨S32x768, .f32⟩ : BufTy).Contents (Elt F) → (⟨S32x768, .f32⟩ : BufTy).Contents (Elt F)),
    unary main_v18 main_v19 (Host.tanh : (⟨S32x768, .f32⟩ : BufTy).Contents (Elt F) → (⟨S32x768, .f32⟩ : BufTy).Contents (Elt F)),
    reshape main_v19 main_v20 rfl shapeCasts_S32x768_S32x3x256,
    nullary main_c (constantI S_ 32 0#32),
    TRef.unary (.of main_arg0 : TRef sig ⟨S32x256x64x64, .f32⟩) main_call0.v0 (extractStridedSlice S32x1x64x64 ![0, 0, 0, 0] · slices_S32x256x64x64_S32x1x64x64_0_0_0_0),
    TRef.unary (.of main_arg0 : TRef sig ⟨S32x256x64x64, .f32⟩) main_call0.v1 (extractStridedSlice S32x1x64x64 ![0, 1, 0, 0] · slices_S32x256x64x64_S32x1x64x64_0_1_0_0),
    TRef.unary main_call0.v1 main_call0.call0.v0 (Host.reverse [1]),
    TRef.binary main_call0.call0.v0 (.of main_arg0 : TRef sig ⟨S32x256x64x64, .f32⟩) main_call0.v3 (fun a b => concatenate S32x257x64x64 1 [⟨S32x1x64x64, a⟩, ⟨S32x256x64x64, b⟩] concatenates_S32x1x64x64_S32x256x64x64_S32x257x64x64_d1),
    TRef.unary main_call0.v3 main_call0.v4 (extractStridedSlice S32x1x64x64 ![0, 256, 0, 0] · slices_S32x257x64x64_S32x1x64x64_0_256_0_0),
    TRef.unary main_call0.v3 main_call0.v5 (extractStridedSlice S32x1x64x64 ![0, 255, 0, 0] · slices_S32x257x64x64_S32x1x64x64_0_255_0_0),
    TRef.unary main_call0.v5 main_call0.call1.v0 (Host.reverse [1]),
    TRef.binary main_call0.v3 main_call0.call1.v0 main_call0.v7 (fun a b => concatenate S32x258x64x64 1 [⟨S32x257x64x64, a⟩, ⟨S32x1x64x64, b⟩] concatenates_S32x257x64x64_S32x1x64x64_S32x258x64x64_d1),
    unary main_v20 main_v22 ((extractStridedSlice S32x1x256 ![0, 0, 0] · slices_S32x3x256_S32x1x256_0_0_0) : (⟨S32x3x256, .f32⟩ : BufTy).Contents (Elt F) → (⟨S32x1x256, .f32⟩ : BufTy).Contents (Elt F)),
    reshape main_v22 main_v23 rfl shapeCasts_S32x1x256_S32x256,
    unary main_v23 main_v24 (broadcastInDim S32x256x1x1 ![0, 1] bcast_S32x256_S32x256x1x1_0_1 : (⟨S32x256, .f32⟩ : BufTy).Contents (Elt F) → (⟨S32x256x1x1, .f32⟩ : BufTy).Contents (Elt F)),
    unary main_v21 main_v25 ((extractStridedSlice S32x256x64x64 ![0, 0, 0, 0] · slices_S32x258x64x64_S32x256x64x64_0_0_0_0) : (⟨S32x258x64x64, .f32⟩ : BufTy).Contents (Elt F) → (⟨S32x256x64x64, .f32⟩ : BufTy).Contents (Elt F)),
    unary main_v24 main_v26 (broadcastInDim S32x256x64x64 ![0, 1, 2, 3] bcast_S32x256x1x1_S32x256x64x64_0_1_2_3 : (⟨S32x256x1x1, .f32⟩ : BufTy).Contents (Elt F) → (⟨S32x256x64x64, .f32⟩ : BufTy).Contents (Elt F)),
    binary main_v26 main_v25 main_v27 (mulf : (⟨S32x256x64x64, .f32⟩ : BufTy).Contents (Elt F) → (⟨S32x256x64x64, .f32⟩ : BufTy).Contents (Elt F) → (⟨S32x256x64x64, .f32⟩ : BufTy).Contents (Elt F)),
    unary main_v20 main_v28 ((extractStridedSlice S32x1x256 ![0, 1, 0] · slices_S32x3x256_S32x1x256_0_1_0) : (⟨S32x3x256, .f32⟩ : BufTy).Contents (Elt F) → (⟨S32x1x256, .f32⟩ : BufTy).Contents (Elt F)),
    reshape main_v28 main_v29 rfl shapeCasts_S32x1x256_S32x256,
    unary main_v29 main_v30 (broadcastInDim S32x256x1x1 ![0, 1] bcast_S32x256_S32x256x1x1_0_1 : (⟨S32x256, .f32⟩ : BufTy).Contents (Elt F) → (⟨S32x256x1x1, .f32⟩ : BufTy).Contents (Elt F)),
    unary main_v21 main_v31 ((extractStridedSlice S32x256x64x64 ![0, 1, 0, 0] · slices_S32x258x64x64_S32x256x64x64_0_1_0_0) : (⟨S32x258x64x64, .f32⟩ : BufTy).Contents (Elt F) → (⟨S32x256x64x64, .f32⟩ : BufTy).Contents (Elt F)),
    unary main_v30 main_v32 (broadcastInDim S32x256x64x64 ![0, 1, 2, 3] bcast_S32x256x1x1_S32x256x64x64_0_1_2_3 : (⟨S32x256x1x1, .f32⟩ : BufTy).Contents (Elt F) → (⟨S32x256x64x64, .f32⟩ : BufTy).Contents (Elt F)),
    binary main_v32 main_v31 main_v33 (mulf : (⟨S32x256x64x64, .f32⟩ : BufTy).Contents (Elt F) → (⟨S32x256x64x64, .f32⟩ : BufTy).Contents (Elt F) → (⟨S32x256x64x64, .f32⟩ : BufTy).Contents (Elt F)),
    binary main_v27 main_v33 main_v34 (addf : (⟨S32x256x64x64, .f32⟩ : BufTy).Contents (Elt F) → (⟨S32x256x64x64, .f32⟩ : BufTy).Contents (Elt F) → (⟨S32x256x64x64, .f32⟩ : BufTy).Contents (Elt F)),
    unary main_v20 main_v35 ((extractStridedSlice S32x1x256 ![0, 2, 0] · slices_S32x3x256_S32x1x256_0_2_0) : (⟨S32x3x256, .f32⟩ : BufTy).Contents (Elt F) → (⟨S32x1x256, .f32⟩ : BufTy).Contents (Elt F)),
    reshape main_v35 main_v36 rfl shapeCasts_S32x1x256_S32x256,
    unary main_v36 main_v37 (broadcastInDim S32x256x1x1 ![0, 1] bcast_S32x256_S32x256x1x1_0_1 : (⟨S32x256, .f32⟩ : BufTy).Contents (Elt F) → (⟨S32x256x1x1, .f32⟩ : BufTy).Contents (Elt F)),
    unary main_v21 main_v38 ((extractStridedSlice S32x256x64x64 ![0, 2, 0, 0] · slices_S32x258x64x64_S32x256x64x64_0_2_0_0) : (⟨S32x258x64x64, .f32⟩ : BufTy).Contents (Elt F) → (⟨S32x256x64x64, .f32⟩ : BufTy).Contents (Elt F)),
    unary main_v37 main_v39 (broadcastInDim S32x256x64x64 ![0, 1, 2, 3] bcast_S32x256x1x1_S32x256x64x64_0_1_2_3 : (⟨S32x256x1x1, .f32⟩ : BufTy).Contents (Elt F) → (⟨S32x256x64x64, .f32⟩ : BufTy).Contents (Elt F)),
    binary main_v39 main_v38 main_v40 (mulf : (⟨S32x256x64x64, .f32⟩ : BufTy).Contents (Elt F) → (⟨S32x256x64x64, .f32⟩ : BufTy).Contents (Elt F) → (⟨S32x256x64x64, .f32⟩ : BufTy).Contents (Elt F)),
    binary main_v34 main_v40 main_v41 (addf : (⟨S32x256x64x64, .f32⟩ : BufTy).Contents (Elt F) → (⟨S32x256x64x64, .f32⟩ : BufTy).Contents (Elt F) → (⟨S32x256x64x64, .f32⟩ : BufTy).Contents (Elt F)),
    unary main_arg6 main_v42 (broadcastInDim S1x256x1x1 ![1, 2, 3] bcast_S256x1x1_S1x256x1x1_1_2_3 : (⟨S256x1x1, .f32⟩ : BufTy).Contents (Elt F) → (⟨S1x256x1x1, .f32⟩ : BufTy).Contents (Elt F)),
    unary main_v42 main_v43 (broadcastInDim S32x256x64x64 ![0, 1, 2, 3] bcast_S1x256x1x1_S32x256x64x64_0_1_2_3 : (⟨S1x256x1x1, .f32⟩ : BufTy).Contents (Elt F) → (⟨S32x256x64x64, .f32⟩ : BufTy).Contents (Elt F)),
    binary main_v41 main_v43 main_v44 (mulf : (⟨S32x256x64x64, .f32⟩ : BufTy).Contents (Elt F) → (⟨S32x256x64x64, .f32⟩ : BufTy).Contents (Elt F) → (⟨S32x256x64x64, .f32⟩ : BufTy).Contents (Elt F)),
    unary main_arg7 main_v45 (broadcastInDim S1x256x1x1 ![1, 2, 3] bcast_S256x1x1_S1x256x1x1_1_2_3 : (⟨S256x1x1, .f32⟩ : BufTy).Contents (Elt F) → (⟨S1x256x1x1, .f32⟩ : BufTy).Contents (Elt F)),
    unary main_v45 main_v46 (broadcastInDim S32x256x64x64 ![0, 1, 2, 3] bcast_S1x256x1x1_S32x256x64x64_0_1_2_3 : (⟨S1x256x1x1, .f32⟩ : BufTy).Contents (Elt F) → (⟨S32x256x64x64, .f32⟩ : BufTy).Contents (Elt F)),
    binary main_arg0 main_v46 main_v47 (mulf : (⟨S32x256x64x64, .f32⟩ : BufTy).Contents (Elt F) → (⟨S32x256x64x64, .f32⟩ : BufTy).Contents (Elt F) → (⟨S32x256x64x64, .f32⟩ : BufTy).Contents (Elt F)),
    binary main_v44 main_v47 main_v48 (addf : (⟨S32x256x64x64, .f32⟩ : BufTy).Contents (Elt F) → (⟨S32x256x64x64, .f32⟩ : BufTy).Contents (Elt F) → (⟨S32x256x64x64, .f32⟩ : BufTy).Contents (Elt F)) ]

set_option maxRecDepth 4096 in
set_option maxHeartbeats 2000000 in
/-- @main is that line: the two functions unfolded at their calls, sequencing reassociated. -/
theorem main_eq (c : Dev nD) : main (F := F) c = seq ops := by
  simp only [main, fn_pad.body, fn_flip.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨nullary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., unary_bufs_sub .., reshape_bufs_sub .., nullary_bufs_sub .., unary_bufs_sub .., unary_bufs_sub .., unary_bufs_sub .., binary_bufs_sub .., unary_bufs_sub .., unary_bufs_sub .., unary_bufs_sub .., binary_bufs_sub .., unary_bufs_sub .., reshape_bufs_sub .., unary_bufs_sub .., unary_bufs_sub .., unary_bufs_sub .., binary_bufs_sub .., unary_bufs_sub .., reshape_bufs_sub .., unary_bufs_sub .., unary_bufs_sub .., unary_bufs_sub .., binary_bufs_sub .., binary_bufs_sub .., unary_bufs_sub .., reshape_bufs_sub .., unary_bufs_sub .., unary_bufs_sub .., unary_bufs_sub .., binary_bufs_sub .., binary_bufs_sub .., unary_bufs_sub .., unary_bufs_sub .., binary_bufs_sub .., unary_bufs_sub .., unary_bufs_sub .., binary_bufs_sub .., binary_bufs_sub ..⟩

set_option maxRecDepth 8192 in
set_option maxHeartbeats 4000000 in
/-- On every device, for any float values, from any memory with zero counters: every weakly fair execution of
    @main terminates with the result array at the composed term of the arguments and the arguments unchanged. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v48) = res (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨(h c main_v48).trans (by after_results_simp <;> rfl),
      (h c main_arg0).trans (by after_results_simp),
      (h c main_arg1).trans (by after_results_simp),
      (h c main_arg2).trans (by after_results_simp),
      (h c main_arg3).trans (by after_results_simp),
      (h c main_arg4).trans (by after_results_simp),
      (h c main_arg5).trans (by after_results_simp),
      (h c main_arg6).trans (by after_results_simp),
      (h c main_arg7).trans (by after_results_simp)⟩)
    (run_seq scopedRefs_eq scopedSems_eq defs main (fun _ => ops) main_eq (fun _ => ops_sub) m ρ)

end Cert.ReferenceIdeal.RefRun

end
-- ==== Proof.RefAlg.lean ====
/-
  General facts the reference side and the kernel side read their sums and their mean through, on the extended reals.

  The host sum of a [32,256,64,64] array over its two trailing axes from an initial value, read at (b, c), is that value
  plus the double sum over the 64 rows and the 64 columns.  Dividing by the word 0x45800000 (the real 4096) is
  multiplying by the word 0x39800000 (the real 1/4096), on every extended real.  A sum over the 64 rows is the sum over
  the first 32 plus the sum over the last 32.
-/
import Idealize.ShloMosaic.PureOps.Ideal
import Idealize.ShloMosaic.PureOps.Ideal.Laws
import Idealize.ShloMosaic.PureOps.Reduce
import Idealize.ShloMosaic.Lib.ValueIdx
import proofs.«121701_j44332652430130_2_alg».proof.Proof.Spec

noncomputable section

namespace Cert.RefAlg

open Idealize.ShloMosaic Idealize.ShloMosaic.ValueIdx

/-! ## The sum over the two trailing axes -/

/-- Dropping the two trailing axes of an index of the [32,256,64,64] array keeps its first two coordinates. -/
theorem drop_hw (h' : Cert.Spec.SX.ReducesTo [2, 3] (⟨2, ![32, 256]⟩ : Shape)) (i : Cert.Spec.SX.Idx) :
    h'.drop i = ix2 (i 0 : Fin 32) (i 1 : Fin 256) := funext fun a => Fin.ext (by
  match a with
  | ⟨0, _⟩ => exact h'.drop_apply_val_of_eq i 0 0
  | ⟨1, _⟩ => exact h'.drop_apply_val_of_eq i 1 1)

/-- The host sum over the axes [2, 3] from the initial value, at (b, c): the initial value plus the double sum. -/
theorem hostReduceAdd_hw (h' : Cert.Spec.SX.ReducesTo [2, 3] (⟨2, ![32, 256]⟩ : Shape)) (x : Cert.Spec.SX.Idx → EReal)
    (init : EReal) (b : Fin 32) (c : Fin 256) :
    Ideal.hostReduceAdd h' x init (ix2 b c) = init + ∑ h : Fin 64, ∑ w : Fin 64, x (ix4 b c h w) := by
  unfold Ideal.hostReduceAdd
  refine congrArg (init + ·) ?_
  rw [← Fintype.sum_prod_type' (fun (h : Fin 64) (w : Fin 64) => x (ix4 b c h w))]
  refine Finset.sum_nbij' (fun i => ((i 2 : Fin 64), (i 3 : Fin 64))) (fun p => ix4 b c p.1 p.2) ?_ ?_ ?_ ?_ ?_
  · intro i _
    exact Finset.mem_univ _
  · intro p _
    rw [Finset.mem_filter]
    exact ⟨Finset.mem_univ _, drop_hw h' _⟩
  · intro i hi
    rw [Finset.mem_filter, drop_hw h' i] at hi
    have h0 : (i 0 : Fin 32) = b := congrFun hi.2 0
    have h1 : (i 1 : Fin 256) = c := congrFun hi.2 1
    rw [← h0, ← h1]
    exact (eq_ix4 i).symm
  · intro p _
    rfl
  · intro i hi
    rw [Finset.mem_filter, drop_hw h' i] at hi
    have h0 : (i 0 : Fin 32) = b := congrFun hi.2 0
    have h1 : (i 1 : Fin 256) = c := congrFun hi.2 1
    rw [← h0, ← h1]
    exact congrArg x (eq_ix4 i)

/-- The reference's reduction as printed: from the zero word the sum is the double sum alone. -/
theorem reduceAdd_hw (h' : Cert.Spec.SX.ReducesTo [2, 3] (⟨2, ![32, 256]⟩ : Shape)) (hu : 0 < (⟨0, ![]⟩ : Shape).numel)
    (x : FVec Ideal Cert.Spec.SX .f32) (b : Fin 32) (c : Fin 256) :
    Host.reduceAdd (F := Ideal) x (constant (F := Ideal) (⟨0, ![]⟩ : Shape) .f32 0x00000000#32) h' hu (ix2 b c)
      = ∑ h : Fin 64, ∑ w : Fin 64, x (ix4 b c h w) := by
  show Ideal.hostReduceAdd h' x (Ideal.ofBits .f32 0x00000000#32) (ix2 b c) = _
  rw [hostReduceAdd_hw, Ideal.ofBits_zero_f32, zero_add]

/-! ## Dividing by 4096 -/

/-- The word 0x45800000 is the real 4096. -/
theorem ofBits_4096 : Ideal.ofBits .f32 0x45800000#32 = ((4096 : ℝ) : EReal) := by
  simp [Ideal.ofBits, Ideal.ieee, -EReal.coe_mul]; norm_num

/-- The word 0x39800000 is the real 1/4096. -/
theorem ofBits_inv_4096 : Ideal.ofBits .f32 0x39800000#32 = ((1 / 4096 : ℝ) : EReal) := by
  simp [Ideal.ofBits, Ideal.ieee, -EReal.coe_mul]; norm_num

/-- Dividing by 4096 is multiplying by 1/4096, on every extended real. -/
theorem div_4096 (y : EReal) :
    Ideal.div y (Ideal.ofBits .f32 0x45800000#32) = y * Ideal.ofBits .f32 0x39800000#32 := by
  rw [ofBits_4096, ofBits_inv_4096, Ideal.div_coe (by norm_num)]

/-- So the double sum divided by 4096 is the mean the specification names. -/
theorem div_sum_eq_gap (x : Cert.Spec.SX.Idx → EReal) (b : Fin 32) (c : Fin 256) :
    Ideal.div (∑ h : Fin 64, ∑ w : Fin 64, x (ix4 b c h w)) (Ideal.ofBits .f32 0x45800000#32) = Cert.Spec.gap x b c :=
  div_4096 _

/-! ## A sum over 64 rows in two blocks of 32 -/

/-- The sum over the first 32 rows plus the sum over the last 32 is the sum over all 64. -/
theorem sum_two_blocks (f : Fin 64 → EReal) :
    (∑ h : Fin 32, f ⟨h.val, by omega⟩) + ∑ h : Fin 32, f ⟨32 + h.val, by omega⟩ = ∑ h : Fin 64, f h :=
  (Fin.sum_univ_add (a := 32) (b := 32) (f : Fin (32 + 32) → EReal)).symm

/-- The same with the accumulator's initial zero in front. -/
theorem zero_add_sum_two_blocks (f : Fin 64 → EReal) :
    (0 + ∑ h : Fin 32, f ⟨h.val, by omega⟩) + ∑ h : Fin 32, f ⟨32 + h.val, by omega⟩ = ∑ h : Fin 64, f h := by
  rw [zero_add, sum_two_blocks]

/-- The same for any way of naming the rows of the two blocks. -/
theorem sum_two_blocks_of (f : Fin 64 → EReal) (lo hi : Fin 32 → Fin 64) (hlo : ∀ h, (lo h).val = h.val)
    (hhi : ∀ h, (hi h).val = 32 + h.val) : (∑ h : Fin 32, f (lo h)) + ∑ h : Fin 32, f (hi h) = ∑ h : Fin 64, f h := by
  rw [← sum_two_blocks f]
  congr 1
  · exact Finset.sum_congr rfl fun h _ => congrArg f (Fin.ext (hlo h))
  · exact Finset.sum_congr rfl fun h _ => congrArg f (Fin.ext (hhi h))

/-- … and with the initial zero in front. -/
theorem zero_add_sum_two_blocks_of (f : Fin 64 → EReal) (lo hi : Fin 32 → Fin 64) (hlo : ∀ h, (lo h).val = h.val)
    (hhi : ∀ h, (hi h).val = 32 + h.val) :
    (0 + ∑ h : Fin 32, f (lo h)) + ∑ h : Fin 32, f (hi h) = ∑ h : Fin 64, f h := by
  rw [zero_add, sum_two_blocks_of f lo hi hlo hhi]

end Cert.RefAlg

end
-- ==== Proof.RefCoef.lean ====
/-
  The reference's two spreads read at an entry: one tap of the generated filter spread over the positions is the
  filter's entry at that image, tap and channel; a per-channel vector spread over the images and the positions is
  its entry at that channel.
-/
import proofs.«121701_j44332652430130_2_alg».proof.Proof.RefTerm
import Idealize.ShloMosaic.Lib.Pipeline.Value
import Idealize.ShloMosaic.Lib.ValueIdx

noncomputable section

namespace Cert.ReferenceIdeal.RefCoef

open Cert.ReferenceIdeal Cert.ReferenceIdeal.Gen Idealize.ShloMosaic Idealize.SL.Sem Idealize.ShloMosaic.ValueIdx

variable {F : FTy → Type} [FloatOps F]

/-- A tap's spread at (b, c, h, w) is the filter at (b, j, c), for the slice whose offsets are (0, j, 0): the two
    broadcasts keep the image and the channel, the re-laying drops the unit tap axis, the slice shifts the tap by j. -/
theorem coefS_apply_of (f : FVec F S32x3x256 .f32) (off : Fin 3 → Nat) (hs : S32x3x256.Slices off S32x1x256) (j : Fin 3)
    (h0 : off 0 = 0) (h1 : off 1 = j.val) (h2 : off 2 = 0) (b : Fin 32) (c : Fin 256) (h w : Fin 64) :
    RefTerm.coefS f off hs (ix4 b c h w) = f (ix3 b j c) := by
  unfold RefTerm.coefS
  refine (broadcastInDim_apply _ _ _ (ix4 b c h w) (ix4 b c (0 : Fin 1) (0 : Fin 1)) (fun a => ?_)).trans ?_
  · match a with
    | ⟨0, _⟩ => rfl
    | ⟨1, _⟩ => rfl
    | ⟨2, _⟩ => rfl
    | ⟨3, _⟩ => rfl
  refine (broadcastInDim_apply _ _ _ (ix4 b c (0 : Fin 1) (0 : Fin 1)) (ix2 b c) (fun a => ?_)).trans ?_
  · match a with
    | ⟨0, _⟩ => rfl
    | ⟨1, _⟩ => rfl
  refine (shapeCast_apply _ _ (ix2 b c) (ix3 b (0 : Fin 1) c) ?_).trans ?_
  · rw [Shape.rowMajor_val_three, Shape.rowMajor_val_two]
    show (b.val * 1 + 0) * 256 + c.val = b.val * 256 + c.val
    omega
  refine extractStridedSlice_apply off f hs (ix3 b (0 : Fin 1) c) (ix3 b j c) (fun a => ?_)
  match a with
  | ⟨0, _⟩ => show b.val = off 0 + b.val; omega
  | ⟨1, _⟩ => show j.val = off 1 + 0; omega
  | ⟨2, _⟩ => show c.val = off 2 + c.val; omega

/-- The first tap's spread. -/
theorem coefS_apply0 (f : FVec F S32x3x256 .f32) (b : Fin 32) (c : Fin 256) (h w : Fin 64) :
    RefTerm.coefS f ![0, 0, 0] slices_S32x3x256_S32x1x256_0_0_0 (ix4 b c h w) = f (ix3 b 0 c) :=
  coefS_apply_of f ![0, 0, 0] slices_S32x3x256_S32x1x256_0_0_0 0 rfl rfl rfl b c h w

/-- The middle tap's spread. -/
theorem coefS_apply1 (f : FVec F S32x3x256 .f32) (b : Fin 32) (c : Fin 256) (h w : Fin 64) :
    RefTerm.coefS f ![0, 1, 0] slices_S32x3x256_S32x1x256_0_1_0 (ix4 b c h w) = f (ix3 b 1 c) :=
  coefS_apply_of f ![0, 1, 0] slices_S32x3x256_S32x1x256_0_1_0 1 rfl rfl rfl b c h w

/-- The last tap's spread. -/
theorem coefS_apply2 (f : FVec F S32x3x256 .f32) (b : Fin 32) (c : Fin 256) (h w : Fin 64) :
    RefTerm.coefS f ![0, 2, 0] slices_S32x3x256_S32x1x256_0_2_0 (ix4 b c h w) = f (ix3 b 2 c) :=
  coefS_apply_of f ![0, 2, 0] slices_S32x3x256_S32x1x256_0_2_0 2 rfl rfl rfl b c h w

/-- A per-channel vector's spread at (b, c, h, w) is the vector at channel c. -/
theorem chanS_apply (v : FVec F S256x1x1 .f32) (b : Fin 32) (c : Fin 256) (h w : Fin 64) :
    RefTerm.chanS v (ix4 b c h w) = v (ix3 c 0 0) := by
  unfold RefTerm.chanS
  refine (broadcastInDim_apply _ _ _ (ix4 b c h w) (ix4 (0 : Fin 1) c (0 : Fin 1) (0 : Fin 1)) (fun a => ?_)).trans ?_
  · match a with
    | ⟨0, _⟩ => rfl
    | ⟨1, _⟩ => rfl
    | ⟨2, _⟩ => rfl
    | ⟨3, _⟩ => rfl
  refine broadcastInDim_apply _ _ _ (ix4 (0 : Fin 1) c (0 : Fin 1) (0 : Fin 1)) (ix3 c (0 : Fin 1) (0 : Fin 1)) (fun a => ?_)
  match a with
  | ⟨0, _⟩ => rfl
  | ⟨1, _⟩ => rfl
  | ⟨2, _⟩ => rfl

end Cert.ReferenceIdeal.RefCoef

end
-- ==== Proof.RefPad.lean ====
/-
  The reflecting pad along the channel axis, read at coordinates.

  The padded array has 258 channels: channel 0 is channel 1 of the array, channels 1 .. 256 are its channels 0 .. 255,
  and channel 257 is its channel 254.  (Each of the two end channels is a one-channel slice reversed along its unit
  channel axis, which changes nothing, put before or after.)  So the three windows of 256 consecutive channels starting
  at channels 0, 1 and 2 read, at channel c, the array at c's reflected left neighbour, at c, and at c's reflected right
  neighbour.
-/
import proofs.«121701_j44332652430130_2_alg».proof.Proof.RefTerm
import proofs.«121701_j44332652430130_2_alg».proof.Proof.Spec
import Idealize.ShloMosaic.Lib.ValueIdx
import Idealize.ShloMosaic.Lib.Pipeline.Value

noncomputable section

namespace Cert.ReferenceIdeal.RefPad

open Cert.ReferenceIdeal Cert.ReferenceIdeal.Gen Idealize.ShloMosaic Idealize.ShloMosaic.ValueIdx

variable {F : FTy → Type} [FloatOps F]

/-- Reversing a 32x1x64x64 array along its unit channel axis changes nothing: the one channel is its own mirror. -/
theorem reverse_unit {α : Type} (y : S32x1x64x64.Idx → α) (b : Fin 32) (h w : Fin 64) :
    Host.reverse (s := S32x1x64x64) [1] y (ix4 b (0 : Fin 1) h w) = y (ix4 b (0 : Fin 1) h w) := by
  unfold Host.reverse
  refine congrArg y (funext fun a => ?_)
  match a with
  | ⟨0, _⟩ => rfl
  | ⟨1, _⟩ => rfl
  | ⟨2, _⟩ => rfl
  | ⟨3, _⟩ => rfl

/-! ## The 257-channel array: channel 1 before channel 0 -/

/-- Its channel 0 is the array's channel 1. -/
theorem padL_zero (x : (⟨S32x256x64x64, .f32⟩ : BufTy).Contents (Elt F)) (b : Fin 32) (h w : Fin 64) :
    RefTerm.padL x (ix4 b (0 : Fin 257) h w) = x (ix4 b (1 : Fin 256) h w) := by
  unfold RefTerm.padL
  refine (concatenate_pair_apply_left (t := S32x257x64x64) (s₁ := S32x1x64x64) (s₂ := S32x256x64x64) 1 _ _ _
    (ix4 b (0 : Fin 257) h w) rfl (ix4 b (0 : Fin 1) h w)
    (fun a => match a with | ⟨0, _⟩ => rfl | ⟨1, _⟩ => rfl | ⟨2, _⟩ => rfl | ⟨3, _⟩ => rfl)).trans ?_
  refine (reverse_unit _ b h w).trans ?_
  exact extractStridedSlice_apply _ _ _ _ (ix4 b (1 : Fin 256) h w) (fun a => match a with
    | ⟨0, _⟩ => by show b.val = 0 + b.val; omega
    | ⟨1, _⟩ => by show 1 = 1 + 0; omega
    | ⟨2, _⟩ => by show h.val = 0 + h.val; omega
    | ⟨3, _⟩ => by show w.val = 0 + w.val; omega)

/-- Its channel c + 1 is the array's channel c. -/
theorem padL_succ (x : (⟨S32x256x64x64, .f32⟩ : BufTy).Contents (Elt F)) (b : Fin 32) (c : Fin 256) (h w : Fin 64) :
    RefTerm.padL x (ix4 b (⟨c.val + 1, by omega⟩ : Fin 257) h w) = x (ix4 b c h w) := by
  unfold RefTerm.padL
  exact concatenate_pair_apply_right (t := S32x257x64x64) (s₁ := S32x1x64x64) (s₂ := S32x256x64x64) 1 _ _ _
    (ix4 b (⟨c.val + 1, by omega⟩ : Fin 257) h w) rfl rfl (ix4 b c h w)
    (fun a => match a with
      | ⟨0, _⟩ => fun _ => rfl
      | ⟨1, _⟩ => fun hne => (hne rfl).elim
      | ⟨2, _⟩ => fun _ => rfl
      | ⟨3, _⟩ => fun _ => rfl)
    (by show c.val + 1 = c.val + 1; rfl)

/-- The 257-channel array at channel j is the array at channel c' whenever j = 0 and c' = 1, or j = c' + 1. -/
theorem padL_at (x : (⟨S32x256x64x64, .f32⟩ : BufTy).Contents (Elt F)) (b : Fin 32) (j : Fin 257) (c' : Fin 256) (h w : Fin 64)
    (hj : (j.val = 0 ∧ c'.val = 1) ∨ j.val = c'.val + 1) :
    RefTerm.padL x (ix4 b j h w) = x (ix4 b c' h w) := by
  obtain ⟨jv, hjv⟩ := j
  rcases hj with ⟨h0, h1⟩ | h1
  · obtain ⟨cv, hcv⟩ := c'
    simp only at h0 h1
    subst h0; subst h1
    exact padL_zero x b h w
  · simp only at h1
    subst h1
    exact padL_succ x b c' h w

/-! ## The 258-channel array: then channel 254 after channel 255 -/

/-- Below channel 257 it is the 257-channel array. -/
theorem padS_lt (x : (⟨S32x256x64x64, .f32⟩ : BufTy).Contents (Elt F)) (b : Fin 32) (j : Fin 257) (h w : Fin 64) :
    RefTerm.padS x (ix4 b (⟨j.val, by omega⟩ : Fin 258) h w) = RefTerm.padL x (ix4 b j h w) := by
  unfold RefTerm.padS
  exact concatenate_pair_apply_left (t := S32x258x64x64) (s₁ := S32x257x64x64) (s₂ := S32x1x64x64) 1 _ _ _
    (ix4 b (⟨j.val, by omega⟩ : Fin 258) h w) rfl (ix4 b j h w)
    (fun a => match a with | ⟨0, _⟩ => rfl | ⟨1, _⟩ => rfl | ⟨2, _⟩ => rfl | ⟨3, _⟩ => rfl)

/-- Its channel 257 is channel 255 of the 257-channel array, which is the array's channel 254. -/
theorem padS_last (x : (⟨S32x256x64x64, .f32⟩ : BufTy).Contents (Elt F)) (b : Fin 32) (h w : Fin 64) :
    RefTerm.padS x (ix4 b (⟨257, by omega⟩ : Fin 258) h w) = x (ix4 b (⟨254, by omega⟩ : Fin 256) h w) := by
  unfold RefTerm.padS
  refine (concatenate_pair_apply_right (t := S32x258x64x64) (s₁ := S32x257x64x64) (s₂ := S32x1x64x64) 1 _ _ _
    (ix4 b (⟨257, by omega⟩ : Fin 258) h w) rfl rfl (ix4 b (0 : Fin 1) h w)
    (fun a => match a with
      | ⟨0, _⟩ => fun _ => rfl
      | ⟨1, _⟩ => fun hne => (hne rfl).elim
      | ⟨2, _⟩ => fun _ => rfl
      | ⟨3, _⟩ => fun _ => rfl)
    (by show 0 + 257 = 257; rfl)).trans ?_
  refine (reverse_unit _ b h w).trans ?_
  refine (extractStridedSlice_apply _ _ _ _ (ix4 b (⟨255, by omega⟩ : Fin 257) h w) (fun a => match a with
    | ⟨0, _⟩ => by show b.val = 0 + b.val; omega
    | ⟨1, _⟩ => by show 255 = 255 + 0; omega
    | ⟨2, _⟩ => by show h.val = 0 + h.val; omega
    | ⟨3, _⟩ => by show w.val = 0 + w.val; omega)).trans ?_
  exact padL_at x b (⟨255, by omega⟩ : Fin 257) (⟨254, by omega⟩ : Fin 256) h w (Or.inr rfl)

/-- The padded array at channel j is the array at channel c' in each of the three cases: the first channel, a channel
    1 .. 256, the last channel. -/
theorem padS_at (x : (⟨S32x256x64x64, .f32⟩ : BufTy).Contents (Elt F)) (b : Fin 32) (j : Fin 258) (c' : Fin 256) (h w : Fin 64)
    (hj : (j.val = 0 ∧ c'.val = 1) ∨ (j.val ≤ 256 ∧ j.val = c'.val + 1) ∨ (j.val = 257 ∧ c'.val = 254)) :
    RefTerm.padS x (ix4 b j h w) = x (ix4 b c' h w) := by
  obtain ⟨jv, hjv⟩ := j
  have hc' := c'.isLt
  rcases hj with ⟨h0, h1⟩ | ⟨hle, h1⟩ | ⟨h0, h1⟩
  · simp only at h0
    subst h0
    exact (padS_lt x b (0 : Fin 257) h w).trans (padL_at x b (0 : Fin 257) c' h w (Or.inl ⟨rfl, h1⟩))
  · simp only at h1 hle
    subst h1
    exact (padS_lt x b (⟨c'.val + 1, Nat.succ_lt_succ hc'⟩ : Fin 257) h w).trans
      (padL_at x b (⟨c'.val + 1, Nat.succ_lt_succ hc'⟩ : Fin 257) c' h w (Or.inr rfl))
  · obtain ⟨cv, hcv⟩ := c'
    simp only at h0 h1
    subst h0; subst h1
    exact padS_last x b h w

/-! ## The two reflected neighbours, as numbers -/

theorem left_val (c : Fin 256) : (Cert.Spec.left c).val = if c.val = 0 then 1 else c.val - 1 := by
  unfold Cert.Spec.left; split <;> rfl
theorem right_val (c : Fin 256) : (Cert.Spec.right c).val = if c.val = 255 then 254 else c.val + 1 := by
  unfold Cert.Spec.right; split <;> rfl

/-! ## The three windows of 256 channels -/

/-- The window starting at channel 0 reads, at channel c, the array at c's reflected left neighbour. -/
theorem slice0_apply (x : (⟨S32x256x64x64, .f32⟩ : BufTy).Contents (Elt F)) (b : Fin 32) (c : Fin 256) (h w : Fin 64) :
    extractStridedSlice S32x256x64x64 ![0, 0, 0, 0] (RefTerm.padS (F := F) x) slices_S32x258x64x64_S32x256x64x64_0_0_0_0 (ix4 b c h w)
      = x (ix4 b (Cert.Spec.left c) h w) := by
  have hc := c.isLt
  refine (extractStridedSlice_apply _ _ _ _ (ix4 b (⟨c.val, by omega⟩ : Fin 258) h w) (fun a => match a with
    | ⟨0, _⟩ => by show b.val = 0 + b.val; omega
    | ⟨1, _⟩ => by show c.val = 0 + c.val; omega
    | ⟨2, _⟩ => by show h.val = 0 + h.val; omega
    | ⟨3, _⟩ => by show w.val = 0 + w.val; omega)).trans ?_
  refine padS_at x b _ _ h w ?_
  have hl := left_val c
  show (c.val = 0 ∧ (Cert.Spec.left c).val = 1) ∨ (c.val ≤ 256 ∧ c.val = (Cert.Spec.left c).val + 1) ∨ (c.val = 257 ∧ (Cert.Spec.left c).val = 254)
  split at hl <;> omega

/-- The window starting at channel 1 reads, at channel c, the array at c. -/
theorem slice1_apply (x : (⟨S32x256x64x64, .f32⟩ : BufTy).Contents (Elt F)) (b : Fin 32) (c : Fin 256) (h w : Fin 64) :
    extractStridedSlice S32x256x64x64 ![0, 1, 0, 0] (RefTerm.padS (F := F) x) slices_S32x258x64x64_S32x256x64x64_0_1_0_0 (ix4 b c h w)
      = x (ix4 b c h w) := by
  have hc := c.isLt
  refine (extractStridedSlice_apply _ _ _ _ (ix4 b (⟨c.val + 1, by omega⟩ : Fin 258) h w) (fun a => match a with
    | ⟨0, _⟩ => by show b.val = 0 + b.val; omega
    | ⟨1, _⟩ => by show c.val + 1 = 1 + c.val; omega
    | ⟨2, _⟩ => by show h.val = 0 + h.val; omega
    | ⟨3, _⟩ => by show w.val = 0 + w.val; omega)).trans ?_
  refine padS_at x b _ _ h w ?_
  show (c.val + 1 = 0 ∧ c.val = 1) ∨ (c.val + 1 ≤ 256 ∧ c.val + 1 = c.val + 1) ∨ (c.val + 1 = 257 ∧ c.val = 254)
  omega

/-- The window starting at channel 2 reads, at channel c, the array at c's reflected right neighbour. -/
theorem slice2_apply (x : (⟨S32x256x64x64, .f32⟩ : BufTy).Contents (Elt F)) (b : Fin 32) (c : Fin 256) (h w : Fin 64) :
    extractStridedSlice S32x256x64x64 ![0, 2, 0, 0] (RefTerm.padS (F := F) x) slices_S32x258x64x64_S32x256x64x64_0_2_0_0 (ix4 b c h w)
      = x (ix4 b (Cert.Spec.right c) h w) := by
  have hc := c.isLt
  refine (extractStridedSlice_apply _ _ _ _ (ix4 b (⟨c.val + 2, by omega⟩ : Fin 258) h w) (fun a => match a with
    | ⟨0, _⟩ => by show b.val = 0 + b.val; omega
    | ⟨1, _⟩ => by show c.val + 2 = 2 + c.val; omega
    | ⟨2, _⟩ => by show h.val = 0 + h.val; omega
    | ⟨3, _⟩ => by show w.val = 0 + w.val; omega)).trans ?_
  refine padS_at x b _ _ h w ?_
  have hr := right_val c
  show (c.val + 2 = 0 ∧ (Cert.Spec.right c).val = 1) ∨ (c.val + 2 ≤ 256 ∧ c.val + 2 = (Cert.Spec.right c).val + 1) ∨ (c.val + 2 = 257 ∧ (Cert.Spec.right c).val = 254)
  split at hr <;> omega

end Cert.ReferenceIdeal.RefPad

end
-- ==== Proof.RefValue.lean ====
/-
  The reference's composed term, stage by stage and entry by entry, is the specification's function.

  The means stage at (b, c) is the specification's gap; the contraction of the means with the filter matrix along the
  channels, normalised, scaled, shifted and passed through tanh, re-laid as [32,3,256], is at (b, j, c) the
  specification's filt at tap j of channel c; and with each tap spread over the positions, the three cuts of the
  padded array reading the left neighbour, the channel itself and the right neighbour, and the two per-channel arrays
  spread over images and positions, the result at (b, c, h, w) is the specification's out.
-/
import proofs.«121701_j44332652430130_2_alg».proof.Proof.RefTerm
import proofs.«121701_j44332652430130_2_alg».proof.Proof.Spec
import proofs.«121701_j44332652430130_2_alg».proof.Proof.RefAlg
import proofs.«121701_j44332652430130_2_alg».proof.Proof.RefCoef
import proofs.«121701_j44332652430130_2_alg».proof.Proof.RefPad
import Idealize.ShloMosaic.Lib.Pipeline.Value
import Idealize.ShloMosaic.Lib.ValueLayout
import Idealize.ShloMosaic.PureOps.Ideal.Laws

noncomputable section

namespace Cert.ReferenceIdeal.RefValue

open Idealize.ShloMosaic Idealize.ShloMosaic.ValueIdx
open Cert.ReferenceIdeal Cert.ReferenceIdeal.Gen

/-- An f32 array of shape s at the ideal values. -/
abbrev A (s : Shape) : Type := FVec Ideal s .f32

/-! ## The operations at an index, over any arrays -/

/-- The host's tanh at an index is the extended reals' tanh of the entry. -/
theorem tanh_apply {s : Shape} (x : A s) (i : s.Idx) : Host.tanh (F := Ideal) x i = Ideal.tanh (x i) := rfl
/-- The host's rsqrt at an index is the extended reals' rsqrt of the entry. -/
theorem rsqrt_apply {s : Shape} (x : A s) (i : s.Idx) : Host.rsqrt (F := Ideal) x i = Ideal.rsqrt (x i) := rfl

/-- A vector of 768 entries broadcast to one row and then to 32 rows: entry (b, k) is the vector's entry k. -/
theorem rows_apply (h1 : S768.BroadcastsInDim S1x768 (![1] : Fin 1 → Fin S1x768.rank))
    (h2 : S1x768.BroadcastsInDim S32x768 (![0, 1] : Fin 2 → Fin S32x768.rank))
    (v : A S768) (b : Fin 32) (k : Fin 768) :
    broadcastInDim S32x768 ![0, 1] h2 (broadcastInDim S1x768 ![1] h1 v) (ix2 b k) = v (ix1 k) := by
  rw [broadcastInDim_apply _ h2 _ (ix2 b k) (ix2 (0 : Fin 1) k) (fun a => by
        match a with
        | ⟨0, _⟩ => rfl
        | ⟨1, _⟩ => rfl),
      broadcastInDim_apply _ h1 v (ix2 (0 : Fin 1) k) (ix1 k) (fun a => by
        match a with
        | ⟨0, _⟩ => rfl)]

/-- The sum over the two position axes from zero, divided by the splat of 4096, at (b, c): the specification's mean. -/
theorem means_apply (h' : S32x256x64x64.ReducesTo [2, 3] S32x256) (hu : 0 < S_.numel)
    (hb : S_.BroadcastsInDim S32x256 (![] : Fin 0 → Fin S32x256.rank)) (x : A S32x256x64x64) (b : Fin 32) (c : Fin 256) :
    Host.divf (F := Ideal) (Host.reduceAdd (F := Ideal) x (constant (F := Ideal) S_ .f32 0x00000000#32) h' hu)
        (broadcastInDim S32x256 ![] hb (constant (F := Ideal) S_ .f32 0x45800000#32)) (ix2 b c)
      = Cert.Spec.gap x b c := by
  have e1 : Host.reduceAdd (F := Ideal) x (constant (F := Ideal) S_ .f32 0x00000000#32) h' hu (ix2 b c)
      = ∑ h : Fin 64, ∑ w : Fin 64, x (ix4 b c h w) := Cert.RefAlg.reduceAdd_hw h' hu x b c
  have e2 : broadcastInDim S32x256 ![] hb (constant (F := Ideal) S_ .f32 0x45800000#32) (ix2 b c)
      = Ideal.ofBits .f32 0x45800000#32 :=
    broadcastInDim_apply _ hb _ (ix2 b c) ix0 (fun a => a.elim0)
  show Ideal.div (Host.reduceAdd (F := Ideal) x (constant (F := Ideal) S_ .f32 0x00000000#32) h' hu (ix2 b c))
      (broadcastInDim S32x256 ![] hb (constant (F := Ideal) S_ .f32 0x45800000#32) (ix2 b c)) = _
  rw [e1, e2]
  exact Cert.RefAlg.div_sum_eq_gap x b c

/-! ## The contraction along the channels -/

theorem lhs_0 (i : S32x768.Idx) (q : dot_S32x256_S768x256_S32x768_1_1_0_0_n_n.contr.Idx) :
    (dot_S32x256_S768x256_S32x768_1_1_0_0_n_n.lhsIdx i q 0).val = (i 0).val := by
  unfold DotDims.lhsIdx
  rw [dif_neg (show ¬(0 : Fin S32x256.rank) ∈ dot_S32x256_S768x256_S32x768_1_1_0_0_n_n.lhsBatch by decide),
    dif_pos (show (0 : Fin S32x256.rank) ∈ dot_S32x256_S768x256_S32x768_1_1_0_0_n_n.lhsNonContracting by decide)]
  rfl
theorem lhs_1 (i : S32x768.Idx) (q : dot_S32x256_S768x256_S32x768_1_1_0_0_n_n.contr.Idx) :
    (dot_S32x256_S768x256_S32x768_1_1_0_0_n_n.lhsIdx i q 1).val = (q ⟨0, by decide⟩).val :=
  dot_S32x256_S768x256_S32x768_1_1_0_0_n_n.lhsIdx_val_of_single rfl i q
theorem rhs_0 (i : S32x768.Idx) (q : dot_S32x256_S768x256_S32x768_1_1_0_0_n_n.contr.Idx) :
    (dot_S32x256_S768x256_S32x768_1_1_0_0_n_n.rhsIdx i q 0).val = (i 1).val := by
  unfold DotDims.rhsIdx
  rw [dif_neg (show ¬(0 : Fin S768x256.rank) ∈ dot_S32x256_S768x256_S32x768_1_1_0_0_n_n.rhsBatch by decide),
    dif_pos (show (0 : Fin S768x256.rank) ∈ dot_S32x256_S768x256_S32x768_1_1_0_0_n_n.rhsNonContracting by decide)]
  rfl
theorem rhs_1 (i : S32x768.Idx) (q : dot_S32x256_S768x256_S32x768_1_1_0_0_n_n.contr.Idx) :
    (dot_S32x256_S768x256_S32x768_1_1_0_0_n_n.rhsIdx i q 1).val = (q ⟨0, by decide⟩).val :=
  dot_S32x256_S768x256_S32x768_1_1_0_0_n_n.rhsIdx_val_of_single rfl i q

/-- The host contraction [32,256] · [768,256] over the channels at (b, k): the sum over the 256 channels against row k. -/
theorem dot_apply (g : A S32x256) (W : A S768x256) (b : Fin 32) (k : Fin 768) :
    Host.dotGeneral (F := Ideal) dot_S32x256_S768x256_S32x768_1_1_0_0_n_n none g W (ix2 b k)
      = ∑ c : Fin 256, g (ix2 b c) * W (ix2 k c) := by
  simp only [Host.dotGeneral]
  rw [Ideal.dotGeneral_apply, ← Equiv.sum_comp (contrEquiv1 dot_S32x256_S768x256_S32x768_1_1_0_0_n_n 256 rfl rfl).symm]
  refine Finset.sum_congr rfl fun c _ => ?_
  have hk := contrEquiv1_symm_val dot_S32x256_S768x256_S32x768_1_1_0_0_n_n 256 rfl rfl c
  have el : dot_S32x256_S768x256_S32x768_1_1_0_0_n_n.lhsIdx (ix2 b k)
      ((contrEquiv1 dot_S32x256_S768x256_S32x768_1_1_0_0_n_n 256 rfl rfl).symm c) = ix2 b c := funext fun a => Fin.ext (by
    match a with
    | ⟨0, _⟩ => exact lhs_0 _ _
    | ⟨1, _⟩ => exact (lhs_1 _ _).trans hk)
  have er : dot_S32x256_S768x256_S32x768_1_1_0_0_n_n.rhsIdx (ix2 b k)
      ((contrEquiv1 dot_S32x256_S768x256_S32x768_1_1_0_0_n_n 256 rfl rfl).symm c) = ix2 k c := funext fun a => Fin.ext (by
    match a with
    | ⟨0, _⟩ => exact rhs_0 _ _
    | ⟨1, _⟩ => exact (rhs_1 _ _).trans hk)
  rw [el, er]

/-- The normalisation chain on [32,768] at (b, k), over any contraction result y. -/
theorem chain_apply (h1 : S768.BroadcastsInDim S1x768 (![1] : Fin 1 → Fin S1x768.rank))
    (h2 : S1x768.BroadcastsInDim S32x768 (![0, 1] : Fin 2 → Fin S32x768.rank))
    (h0 : S_.BroadcastsInDim S768 (![] : Fin 0 → Fin S768.rank))
    (y : A S32x768) (a2 a3 a4 a5 : A S768) (b : Fin 32) (k : Fin 768) :
    addf (F := Ideal)
      (mulf (F := Ideal)
        (mulf (F := Ideal)
          (subf (F := Ideal) y (broadcastInDim S32x768 ![0, 1] h2 (broadcastInDim S1x768 ![1] h1 a4)))
          (broadcastInDim S32x768 ![0, 1] h2 (broadcastInDim S1x768 ![1] h1
            (Host.rsqrt (F := Ideal)
              (addf (F := Ideal) a5 (broadcastInDim S768 ![] h0 (constant (F := Ideal) S_ .f32 0x3727C5AC#32)))))))
        (broadcastInDim S32x768 ![0, 1] h2 (broadcastInDim S1x768 ![1] h1 a2)))
      (broadcastInDim S32x768 ![0, 1] h2 (broadcastInDim S1x768 ![1] h1 a3)) (ix2 b k)
      = ((y (ix2 b k) - a4 (ix1 k)) * Ideal.rsqrt (a5 (ix1 k) + Ideal.ofBits .f32 0x3727C5AC#32)) * a2 (ix1 k)
          + a3 (ix1 k) := by
  rw [addf_apply, mulf_apply, mulf_apply, subf_apply, rows_apply, rows_apply, rows_apply, rows_apply, rsqrt_apply,
    addf_apply, broadcastInDim_apply _ h0 _ (ix1 k) ix0 (fun a => a.elim0), constant_apply]

/-! ## The stages of the reference's term -/

/-- The means stage at (b, c) is the specification's mean. -/
theorem gapS_apply (a0 : A S32x256x64x64) (b : Fin 32) (c : Fin 256) :
    RefTerm.gapS (F := Ideal) a0 (ix2 b c) = Cert.Spec.gap a0 b c :=
  means_apply reducesTo_S32x256x64x64_S32x256_d2_3 h_S_ bcast_S_S32x256 a0 b c

/-- A vector spread along the rows reads its entry at the column. -/
theorem rowS_apply (v : A S768) (b : Fin 32) (k : Fin 768) : RefTerm.rowS (F := Ideal) v (ix2 b k) = v (ix1 k) :=
  rows_apply bcast_S768_S1x768_1 bcast_S1x768_S32x768_0_1 v b k

/-- The argument of tanh at (b, k). -/
theorem preS_apply (a0 : A S32x256x64x64) (a1 : A S768x256) (a2 a3 a4 a5 : A S768) (b : Fin 32) (k : Fin 768) :
    RefTerm.preS (F := Ideal) a0 a1 a2 a3 a4 a5 (ix2 b k)
      = (((∑ c : Fin 256, Cert.Spec.gap a0 b c * a1 (ix2 k c)) - a4 (ix1 k))
          * Ideal.rsqrt (a5 (ix1 k) + Ideal.ofBits .f32 0x3727C5AC#32)) * a2 (ix1 k) + a3 (ix1 k) := by
  refine (chain_apply bcast_S768_S1x768_1 bcast_S1x768_S32x768_0_1 bcast_S_S768
    (Host.dotGeneral (F := Ideal) dot_S32x256_S768x256_S32x768_1_1_0_0_n_n none (RefTerm.gapS (F := Ideal) a0) a1)
    a2 a3 a4 a5 b k).trans ?_
  rw [dot_apply]
  have hs : (∑ c : Fin 256, RefTerm.gapS (F := Ideal) a0 (ix2 b c) * a1 (ix2 k c))
      = ∑ c : Fin 256, Cert.Spec.gap a0 b c * a1 (ix2 k c) :=
    Finset.sum_congr rfl fun c _ => by rw [gapS_apply]
  rw [hs]

/-- The generated filters re-laid as [32,3,256]: entry (b, j, c) is tap j of channel c of image b's generated filter. -/
theorem filtS_apply (a0 : A S32x256x64x64) (a1 : A S768x256) (a2 a3 a4 a5 : A S768) (b : Fin 32) (j : Fin 3) (c : Fin 256) :
    RefTerm.filtS (F := Ideal) a0 a1 a2 a3 a4 a5 (ix3 b j c)
      = Cert.Spec.filt (Cert.Spec.gap a0) a1 a2 a3 a4 a5 b (Cert.Spec.tap j c) := by
  have e : RefTerm.filtS (F := Ideal) a0 a1 a2 a3 a4 a5 (ix3 b j c)
      = Ideal.tanh (RefTerm.preS (F := Ideal) a0 a1 a2 a3 a4 a5 (ix2 b (Cert.Spec.tap j c))) :=
    shapeCast_apply (Host.tanh (F := Ideal) (RefTerm.preS (F := Ideal) a0 a1 a2 a3 a4 a5)) shapeCasts_S32x768_S32x3x256
      (ix3 b j c) (ix2 b (Cert.Spec.tap j c)) (by
        rw [Shape.rowMajor_val_two, Shape.rowMajor_val_three]
        show b.val * 768 + (256 * j.val + c.val) = (b.val * 3 + j.val) * 256 + c.val
        omega)
  rw [e, preS_apply]
  rfl

/-! ## The result -/

/-- The reference's term is the specification's function, given the reads of the spread taps, of the spread per-channel
    arrays and of the three cuts of the padded array. -/
theorem res_eq_of
    (hc0 : ∀ (f : A S32x3x256) (b : Fin 32) (c : Fin 256) (h w : Fin 64),
      RefTerm.coefS (F := Ideal) f ![0, 0, 0] slices_S32x3x256_S32x1x256_0_0_0 (ix4 b c h w) = f (ix3 b (0 : Fin 3) c))
    (hc1 : ∀ (f : A S32x3x256) (b : Fin 32) (c : Fin 256) (h w : Fin 64),
      RefTerm.coefS (F := Ideal) f ![0, 1, 0] slices_S32x3x256_S32x1x256_0_1_0 (ix4 b c h w) = f (ix3 b (1 : Fin 3) c))
    (hc2 : ∀ (f : A S32x3x256) (b : Fin 32) (c : Fin 256) (h w : Fin 64),
      RefTerm.coefS (F := Ideal) f ![0, 2, 0] slices_S32x3x256_S32x1x256_0_2_0 (ix4 b c h w) = f (ix3 b (2 : Fin 3) c))
    (hch : ∀ (v : A S256x1x1) (b : Fin 32) (c : Fin 256) (h w : Fin 64),
      RefTerm.chanS (F := Ideal) v (ix4 b c h w) = v (ix3 c (0 : Fin 1) (0 : Fin 1)))
    (hp0 : ∀ (a0 : A S32x256x64x64) (b : Fin 32) (c : Fin 256) (h w : Fin 64),
      extractStridedSlice S32x256x64x64 ![0, 0, 0, 0] (RefTerm.padS (F := Ideal) a0) slices_S32x258x64x64_S32x256x64x64_0_0_0_0
        (ix4 b c h w) = a0 (ix4 b (Cert.Spec.left c) h w))
    (hp1 : ∀ (a0 : A S32x256x64x64) (b : Fin 32) (c : Fin 256) (h w : Fin 64),
      extractStridedSlice S32x256x64x64 ![0, 1, 0, 0] (RefTerm.padS (F := Ideal) a0) slices_S32x258x64x64_S32x256x64x64_0_1_0_0
        (ix4 b c h w) = a0 (ix4 b c h w))
    (hp2 : ∀ (a0 : A S32x256x64x64) (b : Fin 32) (c : Fin 256) (h w : Fin 64),
      extractStridedSlice S32x256x64x64 ![0, 2, 0, 0] (RefTerm.padS (F := Ideal) a0) slices_S32x258x64x64_S32x256x64x64_0_2_0_0
        (ix4 b c h w) = a0 (ix4 b (Cert.Spec.right c) h w))
    (a0 : A S32x256x64x64) (a1 : A S768x256) (a2 a3 a4 a5 : A S768) (a6 a7 : A S256x1x1) :
    RefTerm.res (F := Ideal) a0 a1 a2 a3 a4 a5 a6 a7
      = fun i => Cert.Spec.out a0 a1 a2 a3 a4 a5 a6 a7 (i 0) (i 1) (i 2) (i 3) := by
  funext i
  obtain ⟨b, c, h, w, rfl⟩ : ∃ (b : Fin 32) (c : Fin 256) (h : Fin 64) (w : Fin 64), i = ix4 b c h w :=
    ⟨i 0, i 1, i 2, i 3, eq_ix4 i⟩
  have e : RefTerm.res (F := Ideal) a0 a1 a2 a3 a4 a5 a6 a7 (ix4 b c h w)
      = ((RefTerm.coefS (F := Ideal) (RefTerm.filtS (F := Ideal) a0 a1 a2 a3 a4 a5) ![0, 0, 0] slices_S32x3x256_S32x1x256_0_0_0 (ix4 b c h w)
            * extractStridedSlice S32x256x64x64 ![0, 0, 0, 0] (RefTerm.padS (F := Ideal) a0) slices_S32x258x64x64_S32x256x64x64_0_0_0_0 (ix4 b c h w)
          + RefTerm.coefS (F := Ideal) (RefTerm.filtS (F := Ideal) a0 a1 a2 a3 a4 a5) ![0, 1, 0] slices_S32x3x256_S32x1x256_0_1_0 (ix4 b c h w)
            * extractStridedSlice S32x256x64x64 ![0, 1, 0, 0] (RefTerm.padS (F := Ideal) a0) slices_S32x258x64x64_S32x256x64x64_0_1_0_0 (ix4 b c h w))
          + RefTerm.coefS (F := Ideal) (RefTerm.filtS (F := Ideal) a0 a1 a2 a3 a4 a5) ![0, 2, 0] slices_S32x3x256_S32x1x256_0_2_0 (ix4 b c h w)
            * extractStridedSlice S32x256x64x64 ![0, 2, 0, 0] (RefTerm.padS (F := Ideal) a0) slices_S32x258x64x64_S32x256x64x64_0_2_0_0 (ix4 b c h w))
          * RefTerm.chanS (F := Ideal) a6 (ix4 b c h w)
        + a0 (ix4 b c h w) * RefTerm.chanS (F := Ideal) a7 (ix4 b c h w) := rfl
  rw [e, hc0, hc1, hc2, hch, hch, hp0, hp1, hp2, filtS_apply, filtS_apply, filtS_apply]
  rfl

/-- The reference's term is the specification's function of the eight argument arrays. -/
theorem res_eq (a0 : A S32x256x64x64) (a1 : A S768x256) (a2 a3 a4 a5 : A S768) (a6 a7 : A S256x1x1) :
    RefTerm.res (F := Ideal) a0 a1 a2 a3 a4 a5 a6 a7
      = fun i => Cert.Spec.out a0 a1 a2 a3 a4 a5 a6 a7 (i 0) (i 1) (i 2) (i 3) :=
  res_eq_of (fun f b c h w => RefCoef.coefS_apply0 (F := Ideal) f b c h w)
    (fun f b c h w => RefCoef.coefS_apply1 (F := Ideal) f b c h w)
    (fun f b c h w => RefCoef.coefS_apply2 (F := Ideal) f b c h w)
    (fun v b c h w => RefCoef.chanS_apply (F := Ideal) v b c h w)
    (fun x b c h w => RefPad.slice0_apply (F := Ideal) x b c h w)
    (fun x b c h w => RefPad.slice1_apply (F := Ideal) x b c h w)
    (fun x b c h w => RefPad.slice2_apply (F := Ideal) x b c h w) a0 a1 a2 a3 a4 a5 a6 a7

end Cert.ReferenceIdeal.RefValue

end
-- ==== Proof.lean ====
/-
  The certificate's claims, assembled.

  Both programs compute, entry by entry over the extended reals, the function Cert.Spec.out of the eight argument arrays
  (Proof/Spec.lean): the channel means of the image, the filter generated from them (a contraction with the 1x1 convolution's
  rows, the inference normalisation, tanh), and the three-tap filter along the channel axis with reflected ends followed by
  the residual combination. The kernel program takes the means in a first kernel region (two row tiles accumulated in a
  scratch buffer, the sum scaled by 2^-12), generates the filter on the host, and applies it in a second kernel region; the
  reference sums over rows and columns at once and divides by 4096, contracts against the untransposed convolution, and
  pads the channel axis by reflection before slicing. Over the extended reals sums may be regrouped freely and a
  quotient by 4096 is the product with 2^-12, so no finiteness of the inputs is used.

  The three frames: the kernel program's run over its two regions and the host stretch between them, at the word-level
  instance and at the ideal one (Proof/RunK.lean, Proof/Run.lean), and the reference's run (Proof/RefRun.lean). The
  idealization rewrote nothing, so it preserves the program trivially. The two idealized programs agree: the kernel
  program's result array is Spec.out of its arguments (Proof/KVal.lean), the reference's is too (Proof/RefValue.lean).
-/
import proofs.«121701_j44332652430130_2_alg».proof.Defs
import proofs.«121701_j44332652430130_2_alg».proof.Proof.Gen.Kernel
import proofs.«121701_j44332652430130_2_alg».proof.Proof.Gen.KernelIdeal
import proofs.«121701_j44332652430130_2_alg».proof.Proof.Gen.ReferenceIdeal
import proofs.«121701_j44332652430130_2_alg».proof.Proof.Gen.Pre_finite_inputs
import proofs.«121701_j44332652430130_2_alg».proof.Proof.RunK
import proofs.«121701_j44332652430130_2_alg».proof.Proof.KVal
import proofs.«121701_j44332652430130_2_alg».proof.Proof.RefRun
import proofs.«121701_j44332652430130_2_alg».proof.Proof.RefValue
import Idealize.ShloMosaic.Adequacy
import Idealize.ShloMosaic.Init

noncomputable section

namespace Cert.Proof

open Idealize.ShloMosaic Idealize.SL.Sem

/-- At the ideal instance both programs end with the result array at Spec.out of arguments that agree. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => (fun i => Cert.Spec.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (i 0) (i 1) (i 2) (i 3) : Cert.KernelIdeal.S32x256x64x64.Idx → EReal),
    Cert.KernelIdeal.KVal.run m ρ, ?_⟩
  refine (θ_run Cert.ReferenceIdeal.defs _ _).mono (fun _ h c => ⟨(h c).1.trans ?_, (h c).2⟩)
    (Cert.ReferenceIdeal.RefRun.run m' ρ')
  obtain ⟨e0, e1, e2, e3, e4, e5, e6, e7⟩ := hagree c
  exact (Cert.ReferenceIdeal.RefValue.res_eq _ _ _ _ _ _ _ _).trans (by rw [e0, e1, e2, e3, e4, e5, e6, e7])

theorem claim : Cert.Claim := ⟨Cert.Kernel.Gen.facts, Cert.KernelIdeal.Gen.facts, Cert.ReferenceIdeal.Gen.facts, Cert.Pre_finite_inputs.Gen.facts,
  fun m ρ _ => Cert.Kernel.Hand.frame (F := Bits) m ρ,
  fun m ρ _ => Cert.KernelIdeal.Hand.frame (F := Ideal) m ρ,
  fun m ρ _ => (θ_run Cert.ReferenceIdeal.defs _ _).mono (fun _ h c => (h c).2) (Cert.ReferenceIdeal.RefRun.run m ρ),
  trivial,
  algebraic⟩

end Cert.Proof

end
